-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S800000x16 : S_.BroadcastsInDim S800000x16 (![] : Fin 0 → Fin S800000x16.rank)
  reducesTo_S800000x16_S_d0_1 : S800000x16.ReducesTo [0, 1] S_
  bcast_S_S128x273 : S_.BroadcastsInDim S128x273 (![] : Fin 0 → Fin S128x273.rank)
  reducesTo_S128x273_S_d0_1 : S128x273.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x128 .f32) (main_arg12 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S1x128 .f32 := Host.absf main_arg11
  let main_cst_20 : FVec F S_ .f32 := constant S_ .f32 0x7F800000#32
  let main_v55 : FVec F S1x128 .f32 := broadcastInDim S1x128 ![] bcast_S_S1x128 main_cst_20
  let main_v56 : IVec S1x128 1 := cmpf .olt main_v54 main_v55
  let main_c_21 : IVec S_ 1 := constantI S_ 1 1#1
  let main_v57 : IVec S_ 1 := (fun x v => Host.reduce IntOp.andi x v reducesTo_S1x128_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S128x256 .f32) (main_arg8 : FVec F S128 .f32) (main_arg9 : FVec F S128x128 .f32) (main_arg10 : FVec F S128 .f32) (main_arg11 : FVec F S1x128 .f32) (main_arg12 : FVec F S1 .f32) (main_v33 : IVec S_ 1) : IVec S_ 1 :=
  let main_v34 : FVec F S128x256 .f32 := Host.absf main_arg7
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S1x128 .f32) (main_arg12 : FVec F S1 .f32) (main_v13 : IVec S_ 1) (main_v16 : IVec S128x273 1) : IVec S_ 1 :=
  let main_c_5 : IVec S_ 1 := constantI S_ 1 1#1
  let main_v17 : IVec S_ 1 := (fun x v => Host.reduce IntOp.andi x v reducesTo_S128x273_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S50000x3 .f32) (main_arg1 : FVec F S50000x128 .f32) (main_arg2 : FVec F S800000x16 .f32) (main_arg3 : FVec F S128x273 .f32) (main_arg4 : FVec F S128 .f32) (main_arg5 : FVec F S128x128 .f32) (main_arg6 : FVec F S128 .f32) (main_arg7 : FVec F S128x256 .f32) (main_arg8 : FVec F S128 .f32) (main_arg9 : FVec F S128x128 .f32) (main_arg10 : FVec F S128 .f32) (main_arg11 : FVec F S1x128 .f32) (main_arg12 : FVec F S1 .f32) (main_arg13 : IVec S2x800000 32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S800000x16 .f32 := Host.absf main_arg2
  let main_cst_2 : FVec F S_ .f32 := constant S_ .f32 0x7F800000#32
  let main_v10 : FVec F S800000x16 .f32 := broadcastInDim S800000x16 ![] bcast_S_S800000x16 main_cst_2
  let main_v11 : IVec S800000x16 1 := cmpf .olt main_v9 main_v10
  let main_c_3 : IVec S_ 1 := constantI S_ 1 1#1
  let main_v12 : IVec S_ 1 := (fun x v => Host.reduce IntOp.andi x v reducesTo_S800000x16_S_d0_1 h_S_) main_v11 main_c_3
  let main_v13 : IVec S_ 1 := andi main_v8 main_v12
  let main_v14 : FVec F S128x273 .f32 := Host.absf main_arg3
  let main_cst_4 : FVec F S_ .f32 := constant S_ .f32 0x7F800000#32
  let main_v15 : FVec F S128x273 .f32 := broadcastInDim S128x273 ![] bcast_S_S128x273 main_cst_4
  let main_v16 : IVec S128x273 1 := cmpf .olt main_v14 main_v15
  fn_part1 (F := F) main_arg4 main_arg5 main_arg6 main_arg7 main_arg8 main_arg9 main_arg10 main_arg11 main_arg12 main_v13 main_v16
-- ==== Kernel.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x3 : Shape := ⟨2, ![800000, 3]⟩
abbrev S128x1 : Shape := ⟨2, ![128, 1]⟩
abbrev S128x16 : Shape := ⟨2, ![128, 16]⟩
abbrev S16x128 : Shape := ⟨2, ![16, 128]⟩
abbrev S3200x128 : Shape := ⟨2, ![3200, 128]⟩
abbrev S3200x1 : Shape := ⟨2, ![3200, 1]⟩
abbrev S3200x16 : Shape := ⟨2, ![3200, 16]⟩
abbrev S1x1 : Shape := ⟨2, ![1, 1]⟩
abbrev S5000x128 : Shape := ⟨2, ![5000, 128]⟩

abbrev nBuf : Space → Nat
  | .hbm => 92
  | .vmem => 30
  | .smem => 0
  | _ => 0

abbrev bufTy : (tb : Table) → Fin (tcTables nBuf tb) → BufTy
  | .hbm, ⟨0, _⟩ => ⟨S50000x3, .f32⟩
  | .hbm, ⟨1, _⟩ => ⟨S50000x128, .f32⟩
  | .hbm, ⟨2, _⟩ => ⟨S800000x16, .f32⟩
  | .hbm, ⟨3, _⟩ => ⟨S128x273, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x128, .f32⟩
  | .hbm, ⟨12, _⟩ => ⟨S1, .f32⟩
  | .hbm, ⟨13, _⟩ => ⟨S2x800000, .i32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S50000x128, .bf16⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x128, .bf16⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x128, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x3, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x3, .f32⟩
  | .hbm, ⟨55, _⟩ => ⟨S800000x3, .f32⟩
  | .hbm, ⟨56, _⟩ => ⟨S800000x3, .f32⟩
  | .hbm, ⟨57, _⟩ => ⟨S_, .f32⟩
  | .hbm, ⟨58, _⟩ => ⟨S800000, .f32⟩
  | .hbm, ⟨59, _⟩ => ⟨S800000x1, .f32⟩
  | .hbm, ⟨60, _⟩ => ⟨S800000x1, .f32⟩
  | .hbm, ⟨61, _⟩ => ⟨S800000x16, .bf16⟩
  | .hbm, ⟨62, _⟩ => ⟨S128x128, .f32⟩
  | .hbm, ⟨63, _⟩ => ⟨S128x128, .f32⟩
  | .hbm, ⟨64, _⟩ => ⟨S128x1, .f32⟩
  | .hbm, ⟨65, _⟩ => ⟨S128x16, .f32⟩
  | .hbm, ⟨66, _⟩ => ⟨S128x128, .f32⟩
  | .hbm, ⟨67, _⟩ => ⟨S128x128, .bf16⟩
  | .hbm, ⟨68, _⟩ => ⟨S128x128, .f32⟩
  | .hbm, ⟨69, _⟩ => ⟨S128x128, .bf16⟩
  | .hbm, ⟨70, _⟩ => ⟨S16x128, .f32⟩
  | .hbm, ⟨71, _⟩ => ⟨S16x128, .bf16⟩
  | .hbm, ⟨72, _⟩ => ⟨S1x128, .f32⟩
  | .hbm, ⟨73, _⟩ => ⟨S128x128, .f32⟩
  | .hbm, ⟨74, _⟩ => ⟨S128x128, .bf16⟩
  | .hbm, ⟨75, _⟩ => ⟨S128x1, .f32⟩
  | .hbm, ⟨76, _⟩ => ⟨S128x1, .bf16⟩
  | .hbm, ⟨77, _⟩ => ⟨S800000x128, .bf16⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S128x128, .f32⟩
  | .hbm, ⟨84, _⟩ => ⟨S128x128, .f32⟩
  | .hbm, ⟨85, _⟩ => ⟨S128x128, .f32⟩
  | .hbm, ⟨86, _⟩ => ⟨S128x128, .bf16⟩
  | .hbm, ⟨87, _⟩ => ⟨S128x128, .f32⟩
  | .hbm, ⟨88, _⟩ => ⟨S128x128, .bf16⟩
  | .hbm, ⟨89, _⟩ => ⟨S128x128, .f32⟩
  | .hbm, ⟨90, _⟩ => ⟨S128x128, .bf16⟩
  | .hbm, ⟨91, _⟩ => ⟨S50000x128, .f32⟩
  | .local _ .vmem, ⟨0, _⟩ => ⟨S3200x128, .bf16⟩
  | .local _ .vmem, ⟨1, _⟩ => ⟨S3200x128, .bf16⟩
  | .local _ .vmem, ⟨2, _⟩ => ⟨S3200x128, .bf16⟩
  | .local _ .vmem, ⟨3, _⟩ => ⟨S3200x128, .bf16⟩
  | .local _ .vmem, ⟨4, _⟩ => ⟨S3200x1, .f32⟩
  | .local _ .vmem, ⟨5, _⟩ => ⟨S3200x1, .f32⟩
  | .local _ .vmem, ⟨6, _⟩ => ⟨S3200x16, .bf16⟩
  | .local _ .vmem, ⟨7, _⟩ => ⟨S3200x16, .bf16⟩
  | .local _ .vmem, ⟨8, _⟩ => ⟨S128x128, .bf16⟩
  | .local _ .vmem, ⟨9, _⟩ => ⟨S128x128, .bf16⟩
  | .local _ .vmem, ⟨10, _⟩ => ⟨S16x128, .bf16⟩
  | .local _ .vmem, ⟨11, _⟩ => ⟨S1x128, .f32⟩
  | .local _ .vmem, ⟨12, _⟩ => ⟨S128, .f32⟩
  | .local _ .vmem, ⟨13, _⟩ => ⟨S128x128, .bf16⟩
  | .local _ .vmem, ⟨14, _⟩ => ⟨S128, .f32⟩
  | .local _ .vmem, ⟨15, _⟩ => ⟨S128x1, .bf16⟩
  | .local _ .vmem, ⟨16, _⟩ => ⟨S1, .f32⟩
  | .local _ .vmem, ⟨17, _⟩ => ⟨S3200x128, .bf16⟩
  | .local _ .vmem, ⟨18, _⟩ => ⟨S3200x128, .bf16⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .bf16⟩
  | .local _ .vmem, ⟨24, _⟩ => ⟨S128x128, .bf16⟩
  | .local _ .vmem, ⟨25, _⟩ => ⟨S128, .f32⟩
  | .local _ .vmem, ⟨26, _⟩ => ⟨S128x128, .bf16⟩
  | .local _ .vmem, ⟨27, _⟩ => ⟨S128, .f32⟩
  | .local _ .vmem, ⟨28, _⟩ => ⟨S5000x128, .f32⟩
  | .local _ .vmem, ⟨29, _⟩ => ⟨S5000x128, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_c_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c_1 : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_5 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_7 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg3_0 : Ref sig .tc := ⟨.vmem, 24, rfl⟩
abbrev cc1_stg4_0 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg7_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18
abbrev cc1_sem0_0 : DmaSem sig := 19
abbrev cc1_sem0_1 : DmaSem sig := 20
abbrev cc1_sem1_0 : DmaSem sig := 21
abbrev cc1_sem1_1 : DmaSem sig := 22
abbrev cc1_sem2_0 : DmaSem sig := 23
abbrev cc1_sem3_0 : DmaSem sig := 24
abbrev cc1_sem4_0 : DmaSem sig := 25
abbrev cc1_sem5_0 : DmaSem sig := 26
abbrev cc1_sem6_0 : DmaSem sig := 27
abbrev cc1_sem7_0 : DmaSem sig := 28
abbrev cc1_sem7_1 : DmaSem sig := 29

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3200x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S3200x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  slices_S128x273_S128x128_0_0 : S128x273.Slices ![0, 0] S128x128
  slices_S128x273_S128x128_0_128 : S128x273.Slices ![0, 128] S128x128
  slices_S128x273_S128x1_0_256 : S128x273.Slices ![0, 256] S128x1
  slices_S128x273_S128x16_0_257 : S128x273.Slices ![0, 257] S128x16
  transposes_S128x128_S128x128_1_0 : S128x128.Transposes [1, 0] S128x128
  transposes_S128x16_S16x128_1_0 : S128x16.Transposes [1, 0] S16x128
  transposes_S128x1_S1x128_1_0 : S128x1.Transposes [1, 0] S1x128
  transposes_S1x128_S128x1_1_0 : S1x128.Transposes [1, 0] S128x1
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  inb_S3200x1_S3200x1_0_0 : ∀ a, (![0, 0] : Fin 2 → Nat) a + S3200x1.size a ≤ S3200x1.size a
  h_S3200x1 : 0 < S3200x1.numel
  shapeCasts_S3200x1_S3200x1 : S3200x1.ShapeCasts S3200x1
  inb_S3200x16_S3200x16_0_0 : ∀ a, (![0, 0] : Fin 2 → Nat) a + S3200x16.size a ≤ S3200x16.size a
  h_S3200x16 : 0 < S3200x16.numel
  shapeCasts_S3200x16_S3200x16 : S3200x16.ShapeCasts S3200x16
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128_S128_0 : ∀ a, (![0] : Fin 1 → Nat) a + S128.size a ≤ S128.size a
  h_S128 : 0 < S128.numel
  broadcasts_S3200x1_S3200x128 : S3200x1.Broadcasts S3200x128
  broadcasts_S1x128_S3200x128 : S1x128.Broadcasts S3200x128
  shapeCasts_S128_S1x128 : S128.ShapeCasts S1x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1_S1_0 : ∀ a, (![0] : Fin 1 → Nat) a + S1.size a ≤ S1.size a
  h_S1 : 0 < S1.numel
  shapeCasts_S1_S1x1 : S1.ShapeCasts S1x1
  broadcasts_S1x1_S3200x1 : S1x1.Broadcasts S3200x1
  packedbf16_S3200x128_S3200x128_0_0 : (Rect.unit (s := S3200x128) ![0, 0] S3200x128.size inb_S3200x128_S3200x128_0_0).PackedRows (EltTy.packing .bf16)
  bcast_S_S50000x128 : S_.BroadcastsInDim S50000x128 (![] : Fin 0 → Fin S50000x128.rank)
  slices_S128x256_S128x128_0_0 : S128x256.Slices ![0, 0] S128x128
  slices_S128x256_S128x128_0_128 : S128x256.Slices ![0, 128] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  gather_S50000x3_S800000x1_S800000x3_1_0_n_n_0_1_13_wf : GatherDims.WF S50000x3 S800000x1 S800000x3 [1] [0] [] [0] [] 1 ![1, 3]
  dot_S3200x128_S128x128_S3200x128_1_0_0_1_n_n_wf : DotDims.WF S3200x128 S128x128 S3200x128 [1] [0] [0] [1] [] []
  dot_S3200x16_S16x128_S3200x128_1_0_0_1_n_n_wf : DotDims.WF S3200x16 S16x128 S3200x128 [1] [0] [0] [1] [] []
  dot_S3200x128_S128x1_S3200x1_1_0_0_1_n_n_wf : DotDims.WF S3200x128 S128x1 S3200x1 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .bf16 = 32 ∨ (Rect.block (s := S800000x128) S3200x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .bf16 = 32 ∨ (Rect.block (s := S800000x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x1.size a ≤ S800000x1.size a
  hwx0_2 : ∀ i : grid0.Coords, EltTy.bits .f32 = 32 ∨ (Rect.block (s := S800000x1) S3200x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3200x16.size a ≤ S800000x16.size a
  hwx0_3 : ∀ i : grid0.Coords, EltTy.bits .bf16 = 32 ∨ (Rect.block (s := S800000x16) S3200x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S16x128.size a
  hwx0_6 : ∀ i : grid0.Coords, EltTy.bits .bf16 = 32 ∨ (Rect.block (s := S16x128) S16x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128.size a ≤ S128.size a
  hwx0_10 : ∀ i : grid0.Coords, EltTy.bits .f32 = 32 ∨ (Rect.block (s := S128) S128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x1.size a ≤ S128x1.size a
  hwx0_11 : ∀ i : grid0.Coords, EltTy.bits .bf16 = 32 ∨ (Rect.block (s := S128x1) S128x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S3200x128.size a ≤ S800000x128.size a
  hwx0_13 : ∀ i : grid0.Coords, EltTy.bits .bf16 = 32 ∨ (Rect.block (s := S800000x128) S3200x128.size (cc0_transform_13 i) (hinb0_13 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .bf16 = 32 ∨ (Rect.block (s := S128x128) S128x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def dot_S3200x16_S16x128_S3200x128_1_0_0_1_n_n : DotDims S3200x16 S16x128 S3200x128 where
  lhsContracting := [1]
  rhsContracting := [0]
  lhsNonContracting := [0]
  rhsNonContracting := [1]
  lhsBatch := []
  rhsBatch := []
  wf := dot_S3200x16_S16x128_S3200x128_1_0_0_1_n_n_wf
def dot_S3200x128_S128x1_S3200x1_1_0_0_1_n_n : DotDims S3200x128 S128x1 S3200x1 where
  lhsContracting := [1]
  rhsContracting := [0]
  lhsNonContracting := [0]
  rhsNonContracting := [1]
  lhsBatch := []
  rhsBatch := []
  wf := dot_S3200x128_S128x1_S3200x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S3200x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S3200x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v44) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v46) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v48) S16x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v49) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg4) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v53) S128x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v54) S3200x128.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg1) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v64) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v66) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg10) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v67) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x3 : Shape := ⟨2, ![50000, 3]⟩
abbrev S50000x128 : Shape := ⟨2, ![50000, 128]⟩
abbrev S800000x16 : Shape := ⟨2, ![800000, 16]⟩
abbrev S128x273 : Shape := ⟨2, ![128, 273]⟩
abbrev S128 : Shape := ⟨1, ![128]⟩
abbrev S128x128 : Shape := ⟨2, ![128, 128]⟩
abbrev S128x256 : Shape := ⟨2, ![128, 256]⟩
abbrev S1x128 : Shape := ⟨2, ![1, 128]⟩
abbrev S1 : Shape := ⟨1, ![1]⟩
abbrev S2x800000 : Shape := ⟨2, ![2, 800000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x128 : Shape := ⟨2, ![800000, 128]⟩
abbrev S800000x273 : Shape := ⟨2, ![800000, 273]⟩
abbrev S273x128 : Shape := ⟨2, ![273, 128]⟩
abbrev S128x1 : Shape := ⟨2, ![128, 1]⟩
abbrev S1x1 : Shape := ⟨2, ![1, 1]⟩
abbrev S50000x256 : Shape := ⟨2, ![50000, 256]⟩
abbrev S256x128 : Shape := ⟨2, ![256, 128]⟩

abbrev nBuf : Space → Nat
  | .hbm => 129
  | .vmem => 0
  | .smem => 0
  | _ => 0

abbrev hbmTy0_0 (i : Nat) : BufTy := match i % 128 with
  | 0 => ⟨S50000x3, .f32⟩
  | 1 => ⟨S50000x128, .f32⟩
  | 2 => ⟨S800000x16, .f32⟩
  | 3 => ⟨S128x273, .f32⟩
  | 4 => ⟨S128, .f32⟩
  | 5 => ⟨S128x128, .f32⟩
  | 6 => ⟨S128, .f32⟩
  | 7 => ⟨S128x256, .f32⟩
  | 8 => ⟨S128, .f32⟩
  | 9 => ⟨S128x128, .f32⟩
  | 10 => ⟨S128, .f32⟩
  | 11 => ⟨S1x128, .f32⟩
  | 12 => ⟨S1, .f32⟩
  | 13 => ⟨S2x800000, .i32⟩
  | 14 => ⟨S1x800000, .i32⟩
  | 15 => ⟨S800000, .i32⟩
  | 16 => ⟨S1x800000, .i32⟩
  | 17 => ⟨S800000, .i32⟩
  | 18 => ⟨S_, .i32⟩
  | 19 => ⟨S800000, .i32⟩
  | 20 => ⟨S800000, .i1⟩
  | 21 => ⟨S_, .i32⟩
  | 22 => ⟨S800000, .i32⟩
  | 23 => ⟨S800000, .i32⟩
  | 24 => ⟨S800000, .i32⟩
  | 25 => ⟨S800000x1, .i32⟩
  | 26 => ⟨S800000x3, .f32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x3, .f32⟩
  | 36 => ⟨S800000x3, .f32⟩
  | 37 => ⟨S800000x3, .f32⟩
  | 38 => ⟨S_, .f32⟩
  | 39 => ⟨S800000, .f32⟩
  | 40 => ⟨S800000x1, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x128, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x128, .f32⟩
  | 60 => ⟨S800000x273, .f32⟩
  | 61 => ⟨S273x128, .f32⟩
  | 62 => ⟨S800000x128, .f32⟩
  | 63 => ⟨S1x128, .f32⟩
  | 64 => ⟨S800000x128, .f32⟩
  | 65 => ⟨S800000x128, .f32⟩
  | 66 => ⟨S800000x128, .f32⟩
  | 67 => ⟨S800000x128, .f32⟩
  | 68 => ⟨S_, .f32⟩
  | 69 => ⟨S800000x128, .f32⟩
  | 70 => ⟨S800000x128, .f32⟩
  | 71 => ⟨S_, .f32⟩
  | 72 => ⟨S800000x128, .f32⟩
  | 73 => ⟨S800000x128, .f32⟩
  | 74 => ⟨S800000x128, .f32⟩
  | 75 => ⟨S128x128, .f32⟩
  | 76 => ⟨S800000x128, .f32⟩
  | 77 => ⟨S1x128, .f32⟩
  | 78 => ⟨S800000x128, .f32⟩
  | 79 => ⟨S800000x128, .f32⟩
  | 80 => ⟨S800000x128, .f32⟩
  | 81 => ⟨S800000x128, .f32⟩
  | 82 => ⟨S_, .f32⟩
  | 83 => ⟨S800000x128, .f32⟩
  | 84 => ⟨S800000x128, .f32⟩
  | 85 => ⟨S_, .f32⟩
  | 86 => ⟨S800000x128, .f32⟩
  | 87 => ⟨S800000x128, .f32⟩
  | 88 => ⟨S800000x128, .f32⟩
  | 89 => ⟨S128x1, .f32⟩
  | 90 => ⟨S800000x1, .f32⟩
  | 91 => ⟨S1x1, .f32⟩
  | 92 => ⟨S800000x1, .f32⟩
  | 93 => ⟨S800000x1, .f32⟩
  | 94 => ⟨S800000x1, .f32⟩
  | 95 => ⟨S800000x1, .f32⟩
  | 96 => ⟨S_, .f32⟩
  | 97 => ⟨S800000x1, .f32⟩
  | 98 => ⟨S800000x1, .f32⟩
  | 99 => ⟨S_, .f32⟩
  | 100 => ⟨S800000x1, .f32⟩
  | 101 => ⟨S800000x1, .f32⟩
  | 102 => ⟨S800000x128, .f32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x256, .f32⟩
  | 109 => ⟨S256x128, .f32⟩
  | 110 => ⟨S50000x128, .f32⟩
  | 111 => ⟨S1x128, .f32⟩
  | 112 => ⟨S50000x128, .f32⟩
  | 113 => ⟨S50000x128, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S_, .f32⟩
  | 120 => ⟨S50000x128, .f32⟩
  | 121 => ⟨S50000x128, .f32⟩
  | 122 => ⟨S50000x128, .f32⟩
  | 123 => ⟨S128x128, .f32⟩
  | 124 => ⟨S50000x128, .f32⟩
  | 125 => ⟨S1x128, .f32⟩
  | 126 => ⟨S50000x128, .f32⟩
  | 127 => ⟨S50000x128, .f32⟩
  | _ => ⟨S50000x3, .f32⟩

abbrev hbmTy0_1 (i : Nat) : BufTy := match i % 128 with
  | 0 => ⟨S50000x128, .f32⟩
  | _ => ⟨S50000x3, .f32⟩

abbrev hbmTy (i : Nat) : BufTy := match i / 128 with
  | 0 => hbmTy0_0 i
  | 1 => hbmTy0_1 i
  | _ => ⟨S50000x3, .f32⟩

abbrev bufTy : (tb : Table) → Fin (tcTables nBuf tb) → BufTy
  | .hbm, ⟨i, _⟩ => hbmTy i
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_v0 : Ref sig .tc := ⟨.hbm, 80, rfl⟩
abbrev main_call1_v1 : Ref sig .tc := ⟨.hbm, 81, rfl⟩
abbrev main_call1_cst : Ref sig .tc := ⟨.hbm, 82, rfl⟩
abbrev main_call1_v2 : Ref sig .tc := ⟨.hbm, 83, rfl⟩
abbrev main_call1_v3 : Ref sig .tc := ⟨.hbm, 84, rfl⟩
abbrev main_call1_cst_0 : Ref sig .tc := ⟨.hbm, 85, rfl⟩
abbrev main_call1_v4 : Ref sig .tc := ⟨.hbm, 86, rfl⟩
abbrev main_call1_v5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_7 : Ref sig .tc := ⟨.hbm, 96, rfl⟩
abbrev main_v57 : Ref sig .tc := ⟨.hbm, 97, rfl⟩
abbrev main_v58 : Ref sig .tc := ⟨.hbm, 98, rfl⟩
abbrev main_cst_8 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_9 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  concatenates_S800000x128_S800000x128_S800000x1_S800000x16_S800000x273_d1 : Shape.Concatenates [S800000x128, S800000x128, S800000x1, S800000x16] S800000x273 1
  transposes_S128x273_S273x128_1_0 : S128x273.Transposes [1, 0] S273x128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  transposes_S128x128_S128x128_1_0 : S128x128.Transposes [1, 0] S128x128
  transposes_S1x128_S128x1_1_0 : S1x128.Transposes [1, 0] S128x1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  transposes_S128x256_S256x128_1_0 : S128x256.Transposes [1, 0] S256x128
  bcast_S1x128_S50000x128_0_1 : S1x128.BroadcastsInDim S50000x128 (![0, 1] : Fin 2 → Fin S50000x128.rank)
  gather_S50000x3_S800000x1_S800000x3_1_0_n_n_0_1_13_wf : GatherDims.WF S50000x3 S800000x1 S800000x3 [1] [0] [] [0] [] 1 ![1, 3]
  gather_S50000x128_S800000x1_S800000x128_1_0_n_n_0_1_1128_wf : GatherDims.WF S50000x128 S800000x1 S800000x128 [1] [0] [] [0] [] 1 ![1, 128]
  dot_S800000x273_S273x128_S800000x128_1_0_0_1_n_n_wf : DotDims.WF S800000x273 S273x128 S800000x128 [1] [0] [0] [1] [] []
  dot_S800000x128_S128x128_S800000x128_1_0_0_1_n_n_wf : DotDims.WF S800000x128 S128x128 S800000x128 [1] [0] [0] [1] [] []
  dot_S800000x128_S128x1_S800000x1_1_0_0_1_n_n_wf : DotDims.WF S800000x128 S128x1 S800000x1 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x273_S273x128_S800000x128_1_0_0_1_n_n : DotDims S800000x273 S273x128 S800000x128 where
  lhsContracting := [1]
  rhsContracting := [0]
  lhsNonContracting := [0]
  rhsNonContracting := [1]
  lhsBatch := []
  rhsBatch := []
  wf := dot_S800000x273_S273x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with its result named. The program is two kernel regions among stretches of host operations; from
  any memory with zero counters every weakly fair execution terminates, the argument arrays end as launched, and the result
  array ends at what the second region's write-backs leave in it: the contents `W4` of the last segment boundary, read at
  the result's buffer.
-/
import proofs.«143406_j15693810499839_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the arguments as
    launched. -/
theorem run : θ_run defs (onTc (τ := τ) (main (F := F))) ⟨m, fun _ => 0, ρ⟩ (fun r => ∀ c : Dev nD,
      r.2.mem ((c.tc : Thread nD τ).loc main_v67) = W4 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v67 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c)⟩)

/-- The result buffer's last contents are what the second region's write-backs leave in its output window's array. -/
theorem W4_result (c : Dev nD) : W4 m ρ c (Proc.devRef .tc main_v67) = (dat1 (V3 m ρ) c).arrAt 7 cfg1.N :=
  W4_arr m ρ c 7

end Cert.KernelIdeal.Hand

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«143406_j15693810499839_2_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.LibSiluMlp.lean ====
/-
  Two dense layers with the sigmoid-weighted linear unit between them, on the rows of a matrix, over the extended reals:
  entry `(p, q)` of the result is `Σ_k s(Σ_j X(p,j)·W₁(j,k) + b₁(k)) · W₂(k,q) + b₂(q)` with `s(h) = h · σ(h)` and
  `σ(h) = 1 / (1 + e^(−h))`. The unit has two spellings: a kernel multiplies `h` by the one operation `logistic h`,
  a host program by the quotient `1 / (1 + exp (−h))` with the ones broadcast from a scalar; on the extended reals both are
  `h · σ(h)`, the infinities included, because `σ` is defined there as that very quotient. So a row-tiled kernel body
  (two matrix-unit products into zero accumulators, operands rounded to bf16, each followed by a broadcast bias row) and the
  host's two `dot_general`s with twice-lifted biases compute one function of the rows; and since entry `(p, q)` reads row
  `p` of `X` only, a block of rows computes the corresponding rows of the whole.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«143406_j15693810499839_2_alg».proof.Proof.LibAffine

namespace Idealize.ShloMosaic.SiluMlp

open Idealize.ShloMosaic.ValueIdx Idealize.ShloMosaic.Affine

/-- The sigmoid-weighted linear unit on an extended real: `h · σ(h)`. -/
noncomputable def silu (h : EReal) : EReal := h * Ideal.logistic h

/-- The kernel's spelling, `h · logistic h`, at an index. -/
theorem silu_kernel_apply {s : Shape} (h : FVec Ideal s .f32) (i : s.Idx) : mulf h (logistic h) i = silu (h i) := rfl

/-- The host's spelling, `h · (1 / (1 + exp (−h)))` with both ones a scalar `1.0` broadcast, at an index. -/
theorem silu_host_apply {s : Shape} (h : FVec Ideal s .f32) (hb : (⟨0, ![]⟩ : Shape).BroadcastsInDim s ![]) (i : s.Idx) :
    mulf h (Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf h)))) i
      = silu (h i) := by
  have h1 : broadcastInDim s ![] hb (constant (F := Ideal) ⟨0, ![]⟩ .f32 0x3F800000#32) i = 1 := by
    rw [broadcastInDim_scalar_apply, constant_apply, Ideal.ofBits_one_f32]
  refine (mulf_apply _ _ _).trans (congrArg (h i * ·) ?_)
  refine (hostDivf_apply _ _ _).trans ?_
  rw [addf_apply, h1]
  rfl

variable {A K H M : Nat}

/-- The two layers on the rows of `X`, the biases given as one-row matrices. -/
noncomputable def mlp {φ₁ φ₂ : FTy} (X : FVec Ideal ⟨2, ![A, K]⟩ .f32) (W₁ : FVec Ideal ⟨2, ![K, H]⟩ φ₁)
    (b₁ : FVec Ideal ⟨2, ![1, H]⟩ .f32) (W₂ : FVec Ideal ⟨2, ![H, M]⟩ φ₂) (b₂ : FVec Ideal ⟨2, ![1, M]⟩ .f32) :
    FVec Ideal ⟨2, ![A, M]⟩ .f32 :=
  affine (fun i => silu (affine X W₁ b₁ i) : FVec Ideal ⟨2, ![A, H]⟩ .f32) W₂ b₂

theorem mlp_ix2 {φ₁ φ₂ : FTy} (X : FVec Ideal ⟨2, ![A, K]⟩ .f32) (W₁ : FVec Ideal ⟨2, ![K, H]⟩ φ₁)
    (b₁ : FVec Ideal ⟨2, ![1, H]⟩ .f32) (W₂ : FVec Ideal ⟨2, ![H, M]⟩ φ₂) (b₂ : FVec Ideal ⟨2, ![1, M]⟩ .f32)
    (p : Fin A) (q : Fin M) :
    mlp X W₁ b₁ W₂ b₂ (ix2 p q)
      = (∑ k : Fin H, silu ((∑ j : Fin K, X (ix2 p j) * W₁ (ix2 j k)) + b₁ (ix2 (0 : Fin 1) k)) * W₂ (ix2 k q))
        + b₂ (ix2 (0 : Fin 1) q) := rfl

/-- Entry `(p, q)` reads row `p` of the input only: two inputs that agree on a row give the same entries there. -/
theorem mlp_row_congr {A' : Nat} {φ₁ φ₂ : FTy} (X : FVec Ideal ⟨2, ![A, K]⟩ .f32) (X' : FVec Ideal ⟨2, ![A', K]⟩ .f32)
    (W₁ : FVec Ideal ⟨2, ![K, H]⟩ φ₁) (b₁ : FVec Ideal ⟨2, ![1, H]⟩ .f32) (W₂ : FVec Ideal ⟨2, ![H, M]⟩ φ₂)
    (b₂ : FVec Ideal ⟨2, ![1, M]⟩ .f32) (p : Fin A) (p' : Fin A') (q : Fin M)
    (hrow : ∀ j : Fin K, X (ix2 p j) = X' (ix2 p' j)) :
    mlp X W₁ b₁ W₂ b₂ (ix2 p q) = mlp X' W₁ b₁ W₂ b₂ (ix2 p' q) := by
  rw [mlp_ix2, mlp_ix2]
  simp only [hrow]

/-- The kernel body's two layers at row `p`, column `q` of its block of rows. -/
theorem body_apply {φ₁ φ₂ : FTy} (prec₁ prec₂ : Option ContractPrecision) (x0 : FVec Ideal ⟨2, ![A, K]⟩ .f32)
    (x1 : FVec Ideal ⟨2, ![K, H]⟩ φ₁) (x2 : FVec Ideal ⟨2, ![1, H]⟩ .f32) (x4 : FVec Ideal ⟨2, ![H, M]⟩ φ₂)
    (x5 : FVec Ideal ⟨2, ![1, M]⟩ .f32) (ht : FTy.bf16.bits < FTy.f32.bits)
    (hb₁ : (⟨2, ![1, H]⟩ : Shape).Broadcasts ⟨2, ![A, H]⟩) (hb₂ : (⟨2, ![1, M]⟩ : Shape).Broadcasts ⟨2, ![A, M]⟩)
    (p : Fin A) (q : Fin M) :
    addf (FloatOps.matmul (DotDims.plain A H M) prec₂
          (truncf .bf16
            (mulf
              (addf (FloatOps.matmul (DotDims.plain A K H) prec₁ (truncf .bf16 x0 ht) x1
                (constant ⟨2, ![A, H]⟩ .f32 0x00000000#32)) (broadcastTo ⟨2, ![A, H]⟩ x2 hb₁))
              (logistic
                (addf (FloatOps.matmul (DotDims.plain A K H) prec₁ (truncf .bf16 x0 ht) x1
                  (constant ⟨2, ![A, H]⟩ .f32 0x00000000#32)) (broadcastTo ⟨2, ![A, H]⟩ x2 hb₁)))) ht)
          x4 (constant ⟨2, ![A, M]⟩ .f32 0x00000000#32))
        (broadcastTo ⟨2, ![A, M]⟩ x5 hb₂) (ix2 p q)
      = mlp x0 x1 x2 x4 x5 (ix2 p q) := by
  refine (Affine.body_apply prec₂ _ x4 x5 ht hb₂ p q).trans ?_
  unfold mlp
  refine congrArg (fun Y : FVec Ideal ⟨2, ![A, H]⟩ .f32 => affine Y x4 x5 (ix2 p q)) ?_
  funext i
  obtain ⟨r, k, rfl⟩ : ∃ (r : Fin A) (k : Fin H), i = ix2 r k := ⟨i 0, i 1, eq_ix2 i⟩
  exact (silu_kernel_apply _ _).trans (congrArg silu (Affine.body_apply prec₁ x0 x1 x2 ht hb₁ r k))

/-- The host's two layers: `dot_general`, twice-lifted bias, the unit in its quotient spelling, `dot_general`, twice-lifted
    bias. The kernel's weights are the host's rounded to bf16 (the identity here) and its bias rows the host's biases
    recast to one row. -/
theorem host_eq (prec₁ prec₂ : Option ContractPrecision) (sched₁ sched₂ : HostSchedule) (X : FVec Ideal ⟨2, ![A, K]⟩ .f32)
    (W₁ : FVec Ideal ⟨2, ![K, H]⟩ .f32) (b₁ : FVec Ideal ⟨1, ![H]⟩ .f32) (W₂ : FVec Ideal ⟨2, ![H, M]⟩ .f32)
    (b₂ : FVec Ideal ⟨1, ![M]⟩ .f32) (ht : FTy.bf16.bits < FTy.f32.bits)
    (hc₁ : (⟨1, ![H]⟩ : Shape).ShapeCasts ⟨2, ![1, H]⟩) (hc₂ : (⟨1, ![M]⟩ : Shape).ShapeCasts ⟨2, ![1, M]⟩)
    (h11 : (⟨1, ![H]⟩ : Shape).BroadcastsInDim ⟨2, ![1, H]⟩ ![1])
    (h12 : (⟨2, ![1, H]⟩ : Shape).BroadcastsInDim ⟨2, ![A, H]⟩ ![0, 1])
    (h21 : (⟨1, ![M]⟩ : Shape).BroadcastsInDim ⟨2, ![1, M]⟩ ![1])
    (h22 : (⟨2, ![1, M]⟩ : Shape).BroadcastsInDim ⟨2, ![A, M]⟩ ![0, 1])
    (hone : (⟨0, ![]⟩ : Shape).BroadcastsInDim ⟨2, ![A, H]⟩ ![]) :
    addf (FloatOps.dotGeneral (DotDims.plain A H M) prec₂ sched₂
          (mulf
            (addf (FloatOps.dotGeneral (DotDims.plain A K H) prec₁ sched₁ X W₁)
              (broadcastInDim ⟨2, ![A, H]⟩ ![0, 1] h12 (broadcastInDim ⟨2, ![1, H]⟩ ![1] h11 b₁)))
            (Host.divf (broadcastInDim ⟨2, ![A, H]⟩ ![] hone (constant (F := Ideal) ⟨0, ![]⟩ .f32 0x3F800000#32))
              (addf (broadcastInDim ⟨2, ![A, H]⟩ ![] hone (constant (F := Ideal) ⟨0, ![]⟩ .f32 0x3F800000#32))
                (Host.exp (Host.negf
                  (addf (FloatOps.dotGeneral (DotDims.plain A K H) prec₁ sched₁ X W₁)
                    (broadcastInDim ⟨2, ![A, H]⟩ ![0, 1] h12 (broadcastInDim ⟨2, ![1, H]⟩ ![1] h11 b₁))))))))
          W₂)
        (broadcastInDim ⟨2, ![A, M]⟩ ![0, 1] h22 (broadcastInDim ⟨2, ![1, M]⟩ ![1] h21 b₂))
      = mlp X (truncf .bf16 W₁ ht) (shapeCast ⟨2, ![1, H]⟩ b₁ hc₁) (truncf .bf16 W₂ ht) (shapeCast ⟨2, ![1, M]⟩ b₂ hc₂) := by
  have hh := affine_eq_host prec₁ sched₁ X W₁ b₁ ht hc₁ h11 h12
  rw [← hh]
  have hs : mulf (affine X (truncf .bf16 W₁ ht) (shapeCast ⟨2, ![1, H]⟩ b₁ hc₁))
        (Host.divf (broadcastInDim ⟨2, ![A, H]⟩ ![] hone (constant (F := Ideal) ⟨0, ![]⟩ .f32 0x3F800000#32))
          (addf (broadcastInDim ⟨2, ![A, H]⟩ ![] hone (constant (F := Ideal) ⟨0, ![]⟩ .f32 0x3F800000#32))
            (Host.exp (Host.negf (affine X (truncf .bf16 W₁ ht) (shapeCast ⟨2, ![1, H]⟩ b₁ hc₁))))))
      = (fun i => silu (affine X (truncf .bf16 W₁ ht) (shapeCast ⟨2, ![1, H]⟩ b₁ hc₁) i) : FVec Ideal ⟨2, ![A, H]⟩ .f32) :=
    funext fun i => silu_host_apply _ hone i
  rw [hs]
  exact (affine_eq_host prec₂ sched₂ _ W₂ b₂ ht hc₂ h21 h22).symm

end Idealize.ShloMosaic.SiluMlp
-- ==== Proof.Spec.lean ====
/-
  One message-passing layer on a graph with an attention gate, read one row at a time over the extended reals.

  An EDGE carries the 128 features `hr` of its source node, the 128 features `hc` of its target node, the distance `rad`
  between the two nodes' positions and 16 attributes `ea`. With s(z) = z · σ(z) and σ the logistic function, its message is
      m₁ = s(hr·Wh + hc·Wc + ea·Wa + rad·wr + b₁),   m₂ = s(m₁·W₂ + b₂),   msg = m₂ · σ(⟨m₂, wt⟩ + bt).
  A NODE with features `h` and the sum `ms` of the messages of the edges leaving it is updated to
      h + (s(h·Uh + ms·Um + c₁)·U₂ + c₂).
  The weights enter as functions of (input coordinate, output coordinate), so that a program may keep a weight matrix whole,
  transposed, or cut into column ranges: each spelling is one such function. The sums are finite sums in the commutative
  monoid of the extended reals; nothing asks an entry to be finite.
-/
import Idealize.ShloMosaic.PureOps.Ideal.Laws
import Idealize.ShloMosaic.Lib.ValueIdx
import proofs.«143406_j15693810499839_2_alg».proof.Proof.LibSiluMlp

noncomputable section

namespace Cert.GraphLayer

open Idealize.ShloMosaic Idealize.ShloMosaic.ValueIdx Idealize.ShloMosaic.SiluMlp

/-- The edge network's weights, each as a function of coordinates (input first, output last). -/
@[ext] structure EdgeW where
  wh : Fin 128 → Fin 128 → EReal
  wc : Fin 128 → Fin 128 → EReal
  wa : Fin 16 → Fin 128 → EReal
  wr : Fin 128 → EReal
  b1 : Fin 128 → EReal
  w2 : Fin 128 → Fin 128 → EReal
  b2 : Fin 128 → EReal
  wt : Fin 128 → EReal
  bt : EReal

/-- The node network's weights. -/
@[ext] structure NodeW where
  uh : Fin 128 → Fin 128 → EReal
  um : Fin 128 → Fin 128 → EReal
  c1 : Fin 128 → EReal
  u2 : Fin 128 → Fin 128 → EReal
  c2 : Fin 128 → EReal

/-- The first edge layer before its activation: the four parts' products added in the order source, target, attributes,
    distance, then the bias. -/
def edgePre (W : EdgeW) (hr hc : Fin 128 → EReal) (rad : EReal) (ea : Fin 16 → EReal) (q : Fin 128) : EReal :=
  ((((∑ k : Fin 128, hr k * W.wh k q) + (∑ k : Fin 128, hc k * W.wc k q)) + (∑ k : Fin 16, ea k * W.wa k q)) + rad * W.wr q) + W.b1 q

def edgeHid (W : EdgeW) (hr hc : Fin 128 → EReal) (rad : EReal) (ea : Fin 16 → EReal) (q : Fin 128) : EReal :=
  silu (edgePre W hr hc rad ea q)

def edgeOut (W : EdgeW) (hr hc : Fin 128 → EReal) (rad : EReal) (ea : Fin 16 → EReal) (q : Fin 128) : EReal :=
  silu ((∑ k : Fin 128, edgeHid W hr hc rad ea k * W.w2 k q) + W.b2 q)

/-- The attention gate of an edge: one number. -/
def edgeGate (W : EdgeW) (hr hc : Fin 128 → EReal) (rad : EReal) (ea : Fin 16 → EReal) : EReal :=
  Ideal.logistic ((∑ k : Fin 128, edgeOut W hr hc rad ea k * W.wt k) + W.bt)

/-- The message of an edge. -/
def edgeMsg (W : EdgeW) (hr hc : Fin 128 → EReal) (rad : EReal) (ea : Fin 16 → EReal) (q : Fin 128) : EReal :=
  edgeOut W hr hc rad ea q * edgeGate W hr hc rad ea

def nodeHid (U : NodeW) (h ms : Fin 128 → EReal) (q : Fin 128) : EReal :=
  silu (((∑ k : Fin 128, h k * U.uh k q) + (∑ k : Fin 128, ms k * U.um k q)) + U.c1 q)

/-- The updated features of a node. -/
def nodeOut (U : NodeW) (h ms : Fin 128 → EReal) (q : Fin 128) : EReal :=
  h q + ((∑ k : Fin 128, nodeHid U h ms k * U.u2 k q) + U.c2 q)

/-! ## Arrays of rows -/

variable {A : Nat}

/-- The messages of `A` edges given row by row. -/
def msgArr (W : EdgeW) (HR HC : FVec Ideal ⟨2, ![A, 128]⟩ .f32) (RAD : FVec Ideal ⟨2, ![A, 1]⟩ .f32)
    (EA : FVec Ideal ⟨2, ![A, 16]⟩ .f32) : FVec Ideal ⟨2, ![A, 128]⟩ .f32 :=
  fun j => edgeMsg W (fun k => HR (ix2 ⟨(j 0).val, idx2_lt0 j⟩ k)) (fun k => HC (ix2 ⟨(j 0).val, idx2_lt0 j⟩ k))
    (RAD (ix2 ⟨(j 0).val, idx2_lt0 j⟩ (0 : Fin 1))) (fun k => EA (ix2 ⟨(j 0).val, idx2_lt0 j⟩ k)) ⟨(j 1).val, idx2_lt1 j⟩

theorem msgArr_ix2 (W : EdgeW) (HR HC : FVec Ideal ⟨2, ![A, 128]⟩ .f32) (RAD : FVec Ideal ⟨2, ![A, 1]⟩ .f32)
    (EA : FVec Ideal ⟨2, ![A, 16]⟩ .f32) (e : Fin A) (q : Fin 128) :
    msgArr W HR HC RAD EA (ix2 e q)
      = edgeMsg W (fun k => HR (ix2 e k)) (fun k => HC (ix2 e k)) (RAD (ix2 e (0 : Fin 1))) (fun k => EA (ix2 e k)) q := rfl

/-- The updated features of `A` nodes given row by row. -/
def nodeArr (U : NodeW) (H MS : FVec Ideal ⟨2, ![A, 128]⟩ .f32) : FVec Ideal ⟨2, ![A, 128]⟩ .f32 :=
  fun j => nodeOut U (fun k => H (ix2 ⟨(j 0).val, idx2_lt0 j⟩ k)) (fun k => MS (ix2 ⟨(j 0).val, idx2_lt0 j⟩ k)) ⟨(j 1).val, idx2_lt1 j⟩

theorem nodeArr_ix2 (U : NodeW) (H MS : FVec Ideal ⟨2, ![A, 128]⟩ .f32) (p : Fin A) (q : Fin 128) :
    nodeArr U H MS (ix2 p q) = nodeOut U (fun k => H (ix2 p k)) (fun k => MS (ix2 p k)) q := rfl

/-! ## An entry reads its own row only -/

variable {B : Nat}

/-- Entry `(p, q)` of the messages reads row `p` of each of the four inputs: two families of rows that agree on a row
    give the same messages there. -/
theorem msgArr_row_congr (W W' : EdgeW) (HR HC : FVec Ideal ⟨2, ![A, 128]⟩ .f32) (RAD : FVec Ideal ⟨2, ![A, 1]⟩ .f32)
    (EA : FVec Ideal ⟨2, ![A, 16]⟩ .f32) (HR' HC' : FVec Ideal ⟨2, ![B, 128]⟩ .f32) (RAD' : FVec Ideal ⟨2, ![B, 1]⟩ .f32)
    (EA' : FVec Ideal ⟨2, ![B, 16]⟩ .f32) (p : Fin A) (p' : Fin B) (q : Fin 128) (hW : W = W')
    (h1 : ∀ k, HR (ix2 p k) = HR' (ix2 p' k)) (h2 : ∀ k, HC (ix2 p k) = HC' (ix2 p' k))
    (h3 : RAD (ix2 p (0 : Fin 1)) = RAD' (ix2 p' (0 : Fin 1))) (h4 : ∀ k, EA (ix2 p k) = EA' (ix2 p' k)) :
    msgArr W HR HC RAD EA (ix2 p q) = msgArr W' HR' HC' RAD' EA' (ix2 p' q) := by
  rw [msgArr_ix2, msgArr_ix2, hW, h3, show (fun k => HR (ix2 p k)) = fun k => HR' (ix2 p' k) from funext h1,
    show (fun k => HC (ix2 p k)) = fun k => HC' (ix2 p' k) from funext h2,
    show (fun k => EA (ix2 p k)) = fun k => EA' (ix2 p' k) from funext h4]

/-- Entry `(p, q)` of the updated features reads row `p` of the features and of the summed messages. -/
theorem nodeArr_row_congr (U U' : NodeW) (H MS : FVec Ideal ⟨2, ![A, 128]⟩ .f32) (H' MS' : FVec Ideal ⟨2, ![B, 128]⟩ .f32)
    (p : Fin A) (p' : Fin B) (q : Fin 128) (hU : U = U')
    (h1 : ∀ k, H (ix2 p k) = H' (ix2 p' k)) (h2 : ∀ k, MS (ix2 p k) = MS' (ix2 p' k)) :
    nodeArr U H MS (ix2 p q) = nodeArr U' H' MS' (ix2 p' q) := by
  rw [nodeArr_ix2, nodeArr_ix2, hU, show (fun k => H (ix2 p k)) = fun k => H' (ix2 p' k) from funext h1,
    show (fun k => MS (ix2 p k)) = fun k => MS' (ix2 p' k) from funext h2]

/-! ## The weights read off the argument arrays -/

/-- The edge network's weights as the argument arrays hold them: the first layer's matrix has one ROW per output feature
    and 273 columns (source features, target features, the distance, the attributes, in this order); the second layer's
    and the gate's matrices one row per output feature too. -/
def edgeW (We1 : FVec Ideal ⟨2, ![128, 273]⟩ .f32) (be1 : FVec Ideal ⟨1, ![128]⟩ .f32) (We2 : FVec Ideal ⟨2, ![128, 128]⟩ .f32)
    (be2 : FVec Ideal ⟨1, ![128]⟩ .f32) (Wa : FVec Ideal ⟨2, ![1, 128]⟩ .f32) (ba : FVec Ideal ⟨1, ![1]⟩ .f32) : EdgeW where
  wh k q := We1 (ix2 q (⟨k.val, by omega⟩ : Fin 273))
  wc k q := We1 (ix2 q (⟨128 + k.val, by omega⟩ : Fin 273))
  wa k q := We1 (ix2 q (⟨257 + k.val, by omega⟩ : Fin 273))
  wr q := We1 (ix2 q (⟨256, by omega⟩ : Fin 273))
  b1 q := be1 (ix1 q)
  w2 k q := We2 (ix2 q k)
  b2 q := be2 (ix1 q)
  wt k := Wa (ix2 (0 : Fin 1) k)
  bt := ba (ix1 (0 : Fin 1))

/-- The node network's weights as the argument arrays hold them: the first layer's matrix has one row per output feature and
    256 columns (the node's features, then the summed messages). -/
def nodeW (Wh1 : FVec Ideal ⟨2, ![128, 256]⟩ .f32) (bh1 : FVec Ideal ⟨1, ![128]⟩ .f32) (Wh2 : FVec Ideal ⟨2, ![128, 128]⟩ .f32)
    (bh2 : FVec Ideal ⟨1, ![128]⟩ .f32) : NodeW where
  uh k q := Wh1 (ix2 q (⟨k.val, by omega⟩ : Fin 256))
  um k q := Wh1 (ix2 q (⟨128 + k.val, by omega⟩ : Fin 256))
  c1 q := bh1 (ix1 q)
  u2 k q := Wh2 (ix2 q k)
  c2 q := bh2 (ix1 q)

end Cert.GraphLayer

end
-- ==== Proof.BlockWeights.lean ====
/-
  The two networks' weights as a kernel body finds them in its blocks: every weight matrix arrives transposed (input
  coordinate first, output coordinate last), the first edge layer's matrix cut into its source, target and attribute
  ranges and its distance column, each bias as a vector.
-/
import proofs.«143406_j15693810499839_2_alg».proof.KernelIdeal
import proofs.«143406_j15693810499839_2_alg».proof.Proof.Spec

noncomputable section

namespace Cert.KernelIdeal.Body

open Cert.KernelIdeal Cert.GraphLayer Idealize.ShloMosaic Idealize.ShloMosaic.ValueIdx

/-- The edge network's weights read off the edge kernel's nine weight blocks. -/
def blockEdgeW (x4 x5 : Vec Ideal S128x128 .bf16) (x6 : Vec Ideal S16x128 .bf16) (x7 : Vec Ideal S1x128 .f32) (x8 : Vec Ideal S128 .f32)
    (x9 : Vec Ideal S128x128 .bf16) (x10 : Vec Ideal S128 .f32) (x11 : Vec Ideal S128x1 .bf16) (x12 : Vec Ideal S1 .f32) : EdgeW where
  wh k q := x4 (ix2 k q)
  wc k q := x5 (ix2 k q)
  wa k q := x6 (ix2 k q)
  wr q := x7 (ix2 (0 : Fin 1) q)
  b1 q := x8 (ix1 q)
  w2 k q := x9 (ix2 k q)
  b2 q := x10 (ix1 q)
  wt k := x11 (ix2 k (0 : Fin 1))
  bt := x12 (ix1 (0 : Fin 1))

/-- The node network's weights read off the node kernel's five weight blocks. -/
def blockNodeW (x2 x3 : Vec Ideal S128x128 .bf16) (x4 : Vec Ideal S128 .f32) (x5 : Vec Ideal S128x128 .bf16) (x6 : Vec Ideal S128 .f32) : NodeW where
  uh k q := x2 (ix2 k q)
  um k q := x3 (ix2 k q)
  c1 q := x4 (ix1 q)
  u2 k q := x5 (ix2 k q)
  c2 q := x6 (ix1 q)

end Cert.KernelIdeal.Body

end
-- ==== Proof.NodeRegion.lean ====
/-
  The node kernel's region, from blocks to the whole array. The grid has ten points; point `t` reads rows
  `5000·t … 5000·t + 4999` of the node features and of the summed messages, reads the five weight arrays whole, and writes
  rows `5000·t … 5000·t + 4999` of the result. An entry of the updated features reads its own row only, so what point `t`
  writes back is block `t` of ONE function of the whole arrays, and the ten blocks tile the 50000 rows: after the region the
  result array holds that function.
-/
import proofs.«143406_j15693810499839_2_alg».proof.Proof.Gen.KernelIdeal.Frame
import proofs.«143406_j15693810499839_2_alg».proof.Proof.BlockWeights
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.GraphLayer

variable (V : (c : Dev nD) → (b : Ref sig .tc) → Buf (Elt Ideal) ((c : Thread nD τ).loc b))

/-- The node kernel's index maps over its ten grid points: the two row-tiled inputs and the output move with the point,
    the weights stay at block zero. -/
theorem node_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

/-- Point `t`'s block of the node features: rows `5000·t + ·` of the array. -/
theorem node_rows_h (c : Dev nD) (t : Fin cfg1.N) (x : S5000x128.Idx) (k : S50000x128.Idx)
    (hk0 : (k 0).val = 5000 * t.val + (x 0).val) (hk1 : (k 1).val = (x 1).val) :
    (iblk1 V c 0 t : Vec Ideal S5000x128 .f32) x = (V c main_arg1 : S50000x128.Idx → EReal) k := by
  obtain ⟨e0, e1, -⟩ := node_index t
  unfold iblk1
  rw [View.read_apply]
  show V c main_arg1 _ = V c main_arg1 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- Point `t`'s block of the summed messages: the same rows. -/
theorem node_rows_ms (c : Dev nD) (t : Fin cfg1.N) (x : S5000x128.Idx) (k : S50000x128.Idx)
    (hk0 : (k 0).val = 5000 * t.val + (x 0).val) (hk1 : (k 1).val = (x 1).val) :
    (iblk1 V c 1 t : Vec Ideal S5000x128 .f32) x = (V c main_v58 : S50000x128.Idx → EReal) k := by
  obtain ⟨-, -, e0, e1, -⟩ := node_index t
  unfold iblk1
  rw [View.read_apply]
  show V c main_v58 _ = V c main_v58 _
  congr 1
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- A weight window's block is its whole array: the block index is zero on both axes at every point. -/
theorem node_whole_2 (c : Dev nD) (t : Fin cfg1.N) :
    (iblk1 V c 2 t : Vec Ideal S128x128 .bf16) = (V c main_v62 : S128x128.Idx → EReal) := by
  obtain ⟨-, -, -, -, e0, e1, -⟩ := node_index t
  funext y
  unfold iblk1
  rw [View.read_apply]
  show V c main_v62 _ = V c main_v62 y
  congr 1
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

theorem node_whole_3 (c : Dev nD) (t : Fin cfg1.N) :
    (iblk1 V c 3 t : Vec Ideal S128x128 .bf16) = (V c main_v64 : S128x128.Idx → EReal) := by
  obtain ⟨-, -, -, -, -, -, e0, e1, -⟩ := node_index t
  funext y
  unfold iblk1
  rw [View.read_apply]
  show V c main_v64 _ = V c main_v64 y
  congr 1
  funext a
  apply Fin.ext
  match a with
  | ⟨0, _⟩ => show win1_3.index t 0 * 128 + 1 * (y 0).val = (y 0).val; rw [e0]; omega
  | ⟨1, _⟩ => show win1_3.index t 1 * 128 + 1 * (y 1).val = (y 1).val; rw [e1]; omega

theorem node_whole_4 (c : Dev nD) (t : Fin cfg1.N) :
    (iblk1 V c 4 t : Vec Ideal S128 .f32) = (V c main_arg8 : S128.Idx → EReal) := by
  obtain ⟨-, -, -, -, -, -, -, -, e0, -⟩ := node_index t
  funext y
  unfold iblk1
  rw [View.read_apply]
  show V c main_arg8 _ = V c main_arg8 y
  congr 1
  funext a
  apply Fin.ext
  match a with
  | ⟨0, _⟩ => show win1_4.index t 0 * 128 + 1 * (y 0).val = (y 0).val; rw [e0]; omega

theorem node_whole_5 (c : Dev nD) (t : Fin cfg1.N) :
    (iblk1 V c 5 t : Vec Ideal S128x128 .bf16) = (V c main_v66 : S128x128.Idx → EReal) := by
  obtain ⟨-, -, -, -, -, -, -, -, -, e0, e1, -⟩ := node_index t
  funext y
  unfold iblk1
  rw [View.read_apply]
  show V c main_v66 _ = V c main_v66 y
  congr 1
  funext a
  apply Fin.ext
  match a with
  | ⟨0, _⟩ => show win1_5.index t 0 * 128 + 1 * (y 0).val = (y 0).val; rw [e0]; omega
  | ⟨1, _⟩ => show win1_5.index t 1 * 128 + 1 * (y 1).val = (y 1).val; rw [e1]; omega

theorem node_whole_6 (c : Dev nD) (t : Fin cfg1.N) :
    (iblk1 V c 6 t : Vec Ideal S128 .f32) = (V c main_arg10 : S128.Idx → EReal) := by
  obtain ⟨-, -, -, -, -, -, -, -, -, -, -, e0, -⟩ := node_index t
  funext y
  unfold iblk1
  rw [View.read_apply]
  show V c main_arg10 _ = V c main_arg10 y
  congr 1
  funext a
  apply Fin.ext
  match a with
  | ⟨0, _⟩ => show win1_6.index t 0 * 128 + 1 * (y 0).val = (y 0).val; rw [e0]; omega

/-- The node network's weights as the region finds them in its five weight arrays. -/
def nodeWeights (c : Dev nD) : NodeW :=
  blockNodeW (V c main_v62) (V c main_v64) (V c main_arg8) (V c main_v66) (V c main_arg10)

/-- The updated features of all 50000 nodes, from the region's arrays. -/
def nodeResult (c : Dev nD) : FVec Ideal ⟨2, ![50000, 128]⟩ .f32 :=
  nodeArr (nodeWeights V c) (V c main_arg1) (V c main_v58)

/-- WHAT POINT `t` WRITES BACK is block `t` of `nodeResult`: given that a body's output block is the updated features
    of its rows (`hbody`), row `p` of point `t`'s block is row `5000·t + p` of the arrays. -/
theorem node_flushed
    (hbody : ∀ (x0 x1 : Vec Ideal S5000x128 .f32) (x2 x3 : Vec Ideal S128x128 .bf16) (x4 : Vec Ideal S128 .f32)
      (x5 : Vec Ideal S128x128 .bf16) (x6 : Vec Ideal S128 .f32),
      out1_7 (F := Ideal) x0 x1 x2 x3 x4 x5 x6 = nodeArr (blockNodeW x2 x3 x4 x5 x6) x0 x1)
    (c : Dev nD) (t : Fin cfg1.N) :
    (dat1 V c).flushed 7 t = ((cfg1.win 7).blk t).view.read (Elt Ideal) (nodeResult V c) := by
  show (cfg1.win 7).cut (grid1.coords t) ((dat1 V c).after 7 t) = _
  rw [after1_7, hbody (iblk1 V c 0 t) (iblk1 V c 1 t) (iblk1 V c 2 t) (iblk1 V c 3 t) (iblk1 V c 4 t) (iblk1 V c 5 t) (iblk1 V c 6 t),
    node_whole_2 V c t, node_whole_3 V c t, node_whole_4 V c t, node_whole_5 V c t, node_whole_6 V c t]
  obtain ⟨-, -, -, -, -, -, -, -, -, -, -, -, e0, e1⟩ := node_index t
  have hN : cfg1.N = 10 := N_1
  have ht : t.val < 10 := hN ▸ t.isLt
  funext j
  obtain ⟨p, q, rfl⟩ : ∃ (p : Fin 5000) (q : Fin 128), j = ix2 p q := ⟨j 0, j 1, eq_ix2 j⟩
  have hp : p.val < 5000 := p.isLt
  have hemb : ((cfg1.win 7).blk t).view.emb (ix2 p q) = (ix2 (⟨5000 * t.val + p.val, by omega⟩ : Fin 50000) q : S50000x128.Idx) := by
    funext a
    apply Fin.ext
    match a with
    | ⟨0, _⟩ => show win1_7.index t 0 * 5000 + 1 * p.val = 5000 * t.val + p.val; rw [e0]; omega
    | ⟨1, _⟩ => show win1_7.index t 1 * 128 + 1 * q.val = q.val; rw [e1]; omega
  show nodeArr (nodeWeights V c) (iblk1 V c 0 t) (iblk1 V c 1 t) (ix2 p q) = nodeResult V c (((cfg1.win 7).blk t).view.emb (ix2 p q))
  rw [hemb]
  exact nodeArr_row_congr _ _ _ _ _ _ p ⟨5000 * t.val + p.val, by omega⟩ q rfl
    (fun k => node_rows_h V c t (ix2 p k) (ix2 ⟨5000 * t.val + p.val, by omega⟩ k) rfl rfl)
    (fun k => node_rows_ms V c t (ix2 p k) (ix2 ⟨5000 * t.val + p.val, by omega⟩ k) rfl rfl)

/-- An index of the result array is in point `t`'s block iff each coordinate is in the block's range on its axis. -/
theorem node_mem_blk (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v67).slice (win1_7.rect t)).set ↔ _
  rw [View.set_slice_whole, Rect.mem_set_unit]
  exact Iff.rfl

/-- The ten blocks tile the 50000 rows: row `r` is in the block of point `r / 5000`. -/
theorem node_cover (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 10 := N_1
  have hlt : (i 0).val / 5000 < cfg1.N := by rw [hN]; omega
  obtain ⟨-, -, -, -, -, -, -, -, -, -, -, -, e0, e1⟩ := node_index ⟨(i 0).val / 5000, hlt⟩
  refine ⟨⟨(i 0).val / 5000, hlt⟩, flush1_7 _, ?_⟩
  rw [node_mem_blk]
  intro a
  match a with
  | ⟨0, _⟩ =>
    show win1_7.index ⟨(i 0).val / 5000, hlt⟩ 0 * 5000 ≤ (i 0).val ∧ (i 0).val < win1_7.index ⟨(i 0).val / 5000, hlt⟩ 0 * 5000 + 5000
    rw [e0]
    show (i 0).val / 5000 * 5000 ≤ (i 0).val ∧ (i 0).val < (i 0).val / 5000 * 5000 + 5000
    omega
  | ⟨1, _⟩ =>
    show win1_7.index ⟨(i 0).val / 5000, hlt⟩ 1 * 128 ≤ (i 1).val ∧ (i 1).val < win1_7.index ⟨(i 0).val / 5000, hlt⟩ 1 * 128 + 128
    rw [e1]
    omega

/-- THE RESULT ARRAY after the region: the updated features of all the nodes. -/
theorem node_final
    (hbody : ∀ (x0 x1 : Vec Ideal S5000x128 .f32) (x2 x3 : Vec Ideal S128x128 .bf16) (x4 : Vec Ideal S128 .f32)
      (x5 : Vec Ideal S128x128 .bf16) (x6 : Vec Ideal S128 .f32),
      out1_7 (F := Ideal) x0 x1 x2 x3 x4 x5 x6 = nodeArr (blockNodeW x2 x3 x4 x5 x6) x0 x1)
    (c : Dev nD) : (dat1 V c).arrAt 7 cfg1.N = nodeResult V c :=
  (dat1 V c).arrAt_eq_of_cover 7 (nodeResult V c) (fun t _ => node_flushed V hbody c t) node_cover

end Cert.KernelIdeal.Hand

end
-- ==== Proof.EdgeRegion.lean ====
/-
  The edge kernel's region, from blocks to the whole array. The grid has 250 points; point `t` reads rows
  `3200·t … 3200·t + 3199` of the four per-edge inputs (source features, target features, distance, attributes), reads the
  nine weight arrays whole, and writes rows `3200·t … 3200·t + 3199` of the messages. A message reads its own edge's row
  only, so what point `t` writes back is block `t` of ONE function of the whole arrays, and the 250 blocks tile the 800000
  rows: after the region the message array holds that function.
-/
import proofs.«143406_j15693810499839_2_alg».proof.Proof.Gen.KernelIdeal.Frame
import proofs.«143406_j15693810499839_2_alg».proof.Proof.BlockWeights
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.KernelIdeal.Body Cert.GraphLayer

variable (V : (c : Dev nD) → (b : Ref sig .tc) → Buf (Elt Ideal) ((c : Thread nD τ).loc b))

/-- The edge kernel's index maps over its 250 grid points: the four row-tiled inputs and the output move with the point,
    the weights stay at block zero. -/
theorem edge_index : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 1) = 0
    ∧ win0_11.index t (0 : Fin 2) = 0
    ∧ win0_11.index t (1 : Fin 2) = 0
    ∧ win0_12.index t (0 : Fin 1) = 0
    ∧ win0_13.index t (0 : Fin 2) = t.val
    ∧ win0_13.index t (1 : Fin 2) = 0 :=
  (by decide +kernel : ∀ t : Fin grid0.N, _)

/-- Point `t`'s block of the source nodes' features: rows `3200·t + ·` of the array. -/
theorem edge_rows_src (c : Dev nD) (t : Fin cfg0.N) (x : S3200x128.Idx) (k : S800000x128.Idx)
    (hk0 : (k 0).val = 3200 * t.val + (x 0).val) (hk1 : (k 1).val = (x 1).val) :
    (iblk0 V c 0 t : Vec Ideal S3200x128 .bf16) x = (V c main_v11 : S800000x128.Idx → EReal) k := by
  obtain ⟨r0_0, r0_1, -, -, -, -, -, -, -, -, -, -, -, -, -, -, -, -, -, -, -, -, -, -, -⟩ := edge_index t
  unfold iblk0
  rw [View.read_apply]
  show V c main_v11 _ = V c main_v11 _
  congr 1
  funext a
  apply Fin.ext
  match a with
  | ⟨0, _⟩ => show win0_0.index t 0 * 3200 + 1 * (x 0).val = (k 0).val; rw [r0_0, hk0]; omega
  | ⟨1, _⟩ => show win0_0.index t 1 * 128 + 1 * (x 1).val = (k 1).val; rw [r0_1, hk1]; omega

/-- Point `t`'s block of the target nodes' features: rows `3200·t + ·` of the array. -/
theorem edge_rows_tgt (c : Dev nD) (t : Fin cfg0.N) (x : S3200x128.Idx) (k : S800000x128.Idx)
    (hk0 : (k 0).val = 3200 * t.val + (x 0).val) (hk1 : (k 1).val = (x 1).val) :
    (iblk0 V c 1 t : Vec Ideal S3200x128 .bf16) x = (V c main_v18 : S800000x128.Idx → EReal) k := by
  obtain ⟨-, -, r1_0, r1_1, -, -, -, -, -, -, -, -, -, -, -, -, -, -, -, -, -, -, -, -, -⟩ := edge_index t
  unfold iblk0
  rw [View.read_apply]
  show V c main_v18 _ = V c main_v18 _
  congr 1
  funext a
  apply Fin.ext
  match a with
  | ⟨0, _⟩ => show win0_1.index t 0 * 3200 + 1 * (x 0).val = (k 0).val; rw [r1_0, hk0]; omega
  | ⟨1, _⟩ => show win0_1.index t 1 * 128 + 1 * (x 1).val = (k 1).val; rw [r1_1, hk1]; omega

/-- Point `t`'s block of the distances: rows `3200·t + ·` of the array. -/
theorem edge_rows_rad (c : Dev nD) (t : Fin cfg0.N) (x : S3200x1.Idx) (k : S800000x1.Idx)
    (hk0 : (k 0).val = 3200 * t.val + (x 0).val) (hk1 : (k 1).val = (x 1).val) :
    (iblk0 V c 2 t : Vec Ideal S3200x1 .f32) x = (V c main_v37 : S800000x1.Idx → EReal) k := by
  obtain ⟨-, -, -, -, r2_0, r2_1, -, -, -, -, -, -, -, -, -, -, -, -, -, -, -, -, -, -, -⟩ := edge_index t
  unfold iblk0
  rw [View.read_apply]
  show V c main_v37 _ = V c main_v37 _
  congr 1
  funext a
  apply Fin.ext
  match a with
  | ⟨0, _⟩ => show win0_2.index t 0 * 3200 + 1 * (x 0).val = (k 0).val; rw [r2_0, hk0]; omega
  | ⟨1, _⟩ => show win0_2.index t 1 * 1 + 1 * (x 1).val = (k 1).val; rw [r2_1, hk1]; omega

/-- Point `t`'s block of the edge attributes: rows `3200·t + ·` of the array. -/
theorem edge_rows_att (c : Dev nD) (t : Fin cfg0.N) (x : S3200x16.Idx) (k : S800000x16.Idx)
    (hk0 : (k 0).val = 3200 * t.val + (x 0).val) (hk1 : (k 1).val = (x 1).val) :
    (iblk0 V c 3 t : Vec Ideal S3200x16 .bf16) x = (V c main_v38 : S800000x16.Idx → EReal) k := by
  obtain ⟨-, -, -, -, -, -, r3_0, r3_1, -, -, -, -, -, -, -, -, -, -, -, -, -, -, -, -, -⟩ := edge_index t
  unfold iblk0
  rw [View.read_apply]
  show V c main_v38 _ = V c main_v38 _
  congr 1
  funext a
  apply Fin.ext
  match a with
  | ⟨0, _⟩ => show win0_3.index t 0 * 3200 + 1 * (x 0).val = (k 0).val; rw [r3_0, hk0]; omega
  | ⟨1, _⟩ => show win0_3.index t 1 * 16 + 1 * (x 1).val = (k 1).val; rw [r3_1, hk1]; omega

/-- Weight window 4's block is its whole array at every point. -/
theorem edge_whole_4 (c : Dev nD) (t : Fin cfg0.N) :
    (iblk0 V c 4 t : Vec Ideal S128x128 .bf16) = (V c main_v44 : S128x128.Idx → EReal) := by
  obtain ⟨-, -, -, -, -, -, -, -, w4_0, w4_1, -, -, -, -, -, -, -, -, -, -, -, -, -, -, -⟩ := edge_index t
  funext y
  unfold iblk0
  rw [View.read_apply]
  show V c main_v44 _ = V c main_v44 y
  congr 1
  funext a
  apply Fin.ext
  match a with
  | ⟨0, _⟩ => show win0_4.index t 0 * 128 + 1 * (y 0).val = (y 0).val; rw [w4_0]; omega
  | ⟨1, _⟩ => show win0_4.index t 1 * 128 + 1 * (y 1).val = (y 1).val; rw [w4_1]; omega

/-- Weight window 5's block is its whole array at every point. -/
theorem edge_whole_5 (c : Dev nD) (t : Fin cfg0.N) :
    (iblk0 V c 5 t : Vec Ideal S128x128 .bf16) = (V c main_v46 : S128x128.Idx → EReal) := by
  obtain ⟨-, -, -, -, -, -, -, -, -, -, w5_0, w5_1, -, -, -, -, -, -, -, -, -, -, -, -, -⟩ := edge_index t
  funext y
  unfold iblk0
  rw [View.read_apply]
  show V c main_v46 _ = V c main_v46 y
  congr 1
  funext a
  apply Fin.ext
  match a with
  | ⟨0, _⟩ => show win0_5.index t 0 * 128 + 1 * (y 0).val = (y 0).val; rw [w5_0]; omega
  | ⟨1, _⟩ => show win0_5.index t 1 * 128 + 1 * (y 1).val = (y 1).val; rw [w5_1]; omega

/-- Weight window 6's block is its whole array at every point. -/
theorem edge_whole_6 (c : Dev nD) (t : Fin cfg0.N) :
    (iblk0 V c 6 t : Vec Ideal S16x128 .bf16) = (V c main_v48 : S16x128.Idx → EReal) := by
  obtain ⟨-, -, -, -, -, -, -, -, -, -, -, -, w6_0, w6_1, -, -, -, -, -, -, -, -, -, -, -⟩ := edge_index t
  funext y
  unfold iblk0
  rw [View.read_apply]
  show V c main_v48 _ = V c main_v48 y
  congr 1
  funext a
  apply Fin.ext
  match a with
  | ⟨0, _⟩ => show win0_6.index t 0 * 16 + 1 * (y 0).val = (y 0).val; rw [w6_0]; omega
  | ⟨1, _⟩ => show win0_6.index t 1 * 128 + 1 * (y 1).val = (y 1).val; rw [w6_1]; omega

/-- Weight window 7's block is its whole array at every point. -/
theorem edge_whole_7 (c : Dev nD) (t : Fin cfg0.N) :
    (iblk0 V c 7 t : Vec Ideal S1x128 .f32) = (V c main_v49 : S1x128.Idx → EReal) := by
  obtain ⟨-, -, -, -, -, -, -, -, -, -, -, -, -, -, w7_0, w7_1, -, -, -, -, -, -, -, -, -⟩ := edge_index t
  funext y
  unfold iblk0
  rw [View.read_apply]
  show V c main_v49 _ = V c main_v49 y
  congr 1
  funext a
  apply Fin.ext
  match a with
  | ⟨0, _⟩ => show win0_7.index t 0 * 1 + 1 * (y 0).val = (y 0).val; rw [w7_0]; omega
  | ⟨1, _⟩ => show win0_7.index t 1 * 128 + 1 * (y 1).val = (y 1).val; rw [w7_1]; omega

/-- Weight window 8's block is its whole array at every point. -/
theorem edge_whole_8 (c : Dev nD) (t : Fin cfg0.N) :
    (iblk0 V c 8 t : Vec Ideal S128 .f32) = (V c main_arg4 : S128.Idx → EReal) := by
  obtain ⟨-, -, -, -, -, -, -, -, -, -, -, -, -, -, -, -, w8_0, -, -, -, -, -, -, -, -⟩ := edge_index t
  funext y
  unfold iblk0
  rw [View.read_apply]
  show V c main_arg4 _ = V c main_arg4 y
  congr 1
  funext a
  apply Fin.ext
  match a with
  | ⟨0, _⟩ => show win0_8.index t 0 * 128 + 1 * (y 0).val = (y 0).val; rw [w8_0]; omega

/-- Weight window 9's block is its whole array at every point. -/
theorem edge_whole_9 (c : Dev nD) (t : Fin cfg0.N) :
    (iblk0 V c 9 t : Vec Ideal S128x128 .bf16) = (V c main_v51 : S128x128.Idx → EReal) := by
  obtain ⟨-, -, -, -, -, -, -, -, -, -, -, -, -, -, -, -, -, w9_0, w9_1, -, -, -, -, -, -⟩ := edge_index t
  funext y
  unfold iblk0
  rw [View.read_apply]
  show V c main_v51 _ = V c main_v51 y
  congr 1
  funext a
  apply Fin.ext
  match a with
  | ⟨0, _⟩ => show win0_9.index t 0 * 128 + 1 * (y 0).val = (y 0).val; rw [w9_0]; omega
  | ⟨1, _⟩ => show win0_9.index t 1 * 128 + 1 * (y 1).val = (y 1).val; rw [w9_1]; omega

/-- Weight window 10's block is its whole array at every point. -/
theorem edge_whole_10 (c : Dev nD) (t : Fin cfg0.N) :
    (iblk0 V c 10 t : Vec Ideal S128 .f32) = (V c main_arg6 : S128.Idx → EReal) := by
  obtain ⟨-, -, -, -, -, -, -, -, -, -, -, -, -, -, -, -, -, -, -, w10_0, -, -, -, -, -⟩ := edge_index t
  funext y
  unfold iblk0
  rw [View.read_apply]
  show V c main_arg6 _ = V c main_arg6 y
  congr 1
  funext a
  apply Fin.ext
  match a with
  | ⟨0, _⟩ => show win0_10.index t 0 * 128 + 1 * (y 0).val = (y 0).val; rw [w10_0]; omega

/-- Weight window 11's block is its whole array at every point. -/
theorem edge_whole_11 (c : Dev nD) (t : Fin cfg0.N) :
    (iblk0 V c 11 t : Vec Ideal S128x1 .bf16) = (V c main_v53 : S128x1.Idx → EReal) := by
  obtain ⟨-, -, -, -, -, -, -, -, -, -, -, -, -, -, -, -, -, -, -, -, w11_0, w11_1, -, -, -⟩ := edge_index t
  funext y
  unfold iblk0
  rw [View.read_apply]
  show V c main_v53 _ = V c main_v53 y
  congr 1
  funext a
  apply Fin.ext
  match a with
  | ⟨0, _⟩ => show win0_11.index t 0 * 128 + 1 * (y 0).val = (y 0).val; rw [w11_0]; omega
  | ⟨1, _⟩ => show win0_11.index t 1 * 1 + 1 * (y 1).val = (y 1).val; rw [w11_1]; omega

/-- Weight window 12's block is its whole array at every point. -/
theorem edge_whole_12 (c : Dev nD) (t : Fin cfg0.N) :
    (iblk0 V c 12 t : Vec Ideal S1 .f32) = (V c main_arg12 : S1.Idx → EReal) := by
  obtain ⟨-, -, -, -, -, -, -, -, -, -, -, -, -, -, -, -, -, -, -, -, -, -, w12_0, -, -⟩ := edge_index t
  funext y
  unfold iblk0
  rw [View.read_apply]
  show V c main_arg12 _ = V c main_arg12 y
  congr 1
  funext a
  apply Fin.ext
  match a with
  | ⟨0, _⟩ => show win0_12.index t 0 * 1 + 1 * (y 0).val = (y 0).val; rw [w12_0]; omega

/-- The edge network's weights as the region finds them in its nine weight arrays. -/
def edgeWeights (c : Dev nD) : EdgeW :=
  blockEdgeW (V c main_v44) (V c main_v46) (V c main_v48) (V c main_v49) (V c main_arg4) (V c main_v51) (V c main_arg6) (V c main_v53) (V c main_arg12)

/-- The messages of all 800000 edges, from the region's arrays. -/
def edgeResult (c : Dev nD) : FVec Ideal ⟨2, ![800000, 128]⟩ .f32 :=
  msgArr (edgeWeights V c) (V c main_v11) (V c main_v18) (V c main_v37) (V c main_v38)

/-- WHAT POINT `t` WRITES BACK is block `t` of `edgeResult`: given that a body's output block is the messages of its
    rows (`hbody`), row `p` of point `t`'s block is row `3200·t + p` of the arrays. -/
theorem edge_flushed
    (hbody : ∀ (x0 x1 : Vec Ideal S3200x128 .bf16) (x2 : Vec Ideal S3200x1 .f32) (x3 : Vec Ideal S3200x16 .bf16)
      (x4 x5 : Vec Ideal S128x128 .bf16) (x6 : Vec Ideal S16x128 .bf16) (x7 : Vec Ideal S1x128 .f32) (x8 : Vec Ideal S128 .f32)
      (x9 : Vec Ideal S128x128 .bf16) (x10 : Vec Ideal S128 .f32) (x11 : Vec Ideal S128x1 .bf16) (x12 : Vec Ideal S1 .f32),
      out0_13 (F := Ideal) x0 x1 x2 x3 x4 x5 x6 x7 x8 x9 x10 x11 x12 = msgArr (blockEdgeW x4 x5 x6 x7 x8 x9 x10 x11 x12) x0 x1 x2 x3)
    (c : Dev nD) (t : Fin cfg0.N) :
    (dat0 V c).flushed 13 t = ((cfg0.win 13).blk t).view.read (Elt Ideal) (edgeResult V c) := by
  show (cfg0.win 13).cut (grid0.coords t) ((dat0 V c).after 13 t) = _
  rw [after0_13, hbody (iblk0 V c 0 t) (iblk0 V c 1 t) (iblk0 V c 2 t) (iblk0 V c 3 t) (iblk0 V c 4 t) (iblk0 V c 5 t) (iblk0 V c 6 t)
      (iblk0 V c 7 t) (iblk0 V c 8 t) (iblk0 V c 9 t) (iblk0 V c 10 t) (iblk0 V c 11 t) (iblk0 V c 12 t),
    edge_whole_4 V c t, edge_whole_5 V c t, edge_whole_6 V c t, edge_whole_7 V c t, edge_whole_8 V c t, edge_whole_9 V c t, edge_whole_10 V c t, edge_whole_11 V c t, edge_whole_12 V c t]
  obtain ⟨-, -, -, -, -, -, -, -, -, -, -, -, -, -, -, -, -, -, -, -, -, -, -, o_0, o_1⟩ := edge_index t
  have hN : cfg0.N = 250 := N_0
  have ht : t.val < 250 := hN ▸ t.isLt
  funext j
  obtain ⟨p, q, rfl⟩ : ∃ (p : Fin 3200) (q : Fin 128), j = ix2 p q := ⟨j 0, j 1, eq_ix2 j⟩
  have hp : p.val < 3200 := p.isLt
  have hemb : ((cfg0.win 13).blk t).view.emb (ix2 p q) = (ix2 (⟨3200 * t.val + p.val, by omega⟩ : Fin 800000) q : S800000x128.Idx) := by
    funext a
    apply Fin.ext
    match a with
    | ⟨0, _⟩ => show win0_13.index t 0 * 3200 + 1 * p.val = 3200 * t.val + p.val; rw [o_0]; omega
    | ⟨1, _⟩ => show win0_13.index t 1 * 128 + 1 * q.val = q.val; rw [o_1]; omega
  show msgArr (edgeWeights V c) (iblk0 V c 0 t) (iblk0 V c 1 t) (iblk0 V c 2 t) (iblk0 V c 3 t) (ix2 p q)
    = edgeResult V c (((cfg0.win 13).blk t).view.emb (ix2 p q))
  rw [hemb]
  exact msgArr_row_congr _ _ _ _ _ _ _ _ _ _ p ⟨3200 * t.val + p.val, by omega⟩ q rfl
    (fun k => edge_rows_src V c t (ix2 p k) (ix2 ⟨3200 * t.val + p.val, by omega⟩ k) rfl rfl)
    (fun k => edge_rows_tgt V c t (ix2 p k) (ix2 ⟨3200 * t.val + p.val, by omega⟩ k) rfl rfl)
    (edge_rows_rad V c t (ix2 p (0 : Fin 1)) (ix2 ⟨3200 * t.val + p.val, by omega⟩ (0 : Fin 1)) rfl rfl)
    (fun k => edge_rows_att V c t (ix2 p k) (ix2 ⟨3200 * t.val + p.val, by omega⟩ k) rfl rfl)

/-- An index of the message array is in point `t`'s block iff each coordinate is in the block's range on its axis. -/
theorem edge_mem_blk (t : Fin cfg0.N) (i : S800000x128.Idx) :
    i ∈ ((cfg0.win 13).blk t).view.set ↔ ∀ a : Fin 2, win0_13.index t a * S3200x128.size a ≤ (i a).val ∧ (i a).val < win0_13.index t a * S3200x128.size a + S3200x128.size a := by
  show i ∈ ((View.whole main_v54).slice (win0_13.rect t)).set ↔ _
  rw [View.set_slice_whole, Rect.mem_set_unit]
  exact Iff.rfl

/-- The 250 blocks tile the 800000 rows: row `r` is in the block of point `r / 3200`. -/
theorem edge_cover (i : S800000x128.Idx) :
    ∃ t : Fin cfg0.N, (cfg0.win 13).flush t = true ∧ i ∈ ((cfg0.win 13).blk t).view.set := by
  have hi0 : (i 0).val < 800000 := (i 0).isLt
  have hi1 : (i 1).val < 128 := (i 1).isLt
  have hN : cfg0.N = 250 := N_0
  have hlt : (i 0).val / 3200 < cfg0.N := by rw [hN]; omega
  obtain ⟨-, -, -, -, -, -, -, -, -, -, -, -, -, -, -, -, -, -, -, -, -, -, -, o_0, o_1⟩ := edge_index ⟨(i 0).val / 3200, hlt⟩
  refine ⟨⟨(i 0).val / 3200, hlt⟩, flush0_13 _, ?_⟩
  rw [edge_mem_blk]
  intro a
  match a with
  | ⟨0, _⟩ =>
    show win0_13.index ⟨(i 0).val / 3200, hlt⟩ 0 * 3200 ≤ (i 0).val ∧ (i 0).val < win0_13.index ⟨(i 0).val / 3200, hlt⟩ 0 * 3200 + 3200
    rw [o_0]
    show (i 0).val / 3200 * 3200 ≤ (i 0).val ∧ (i 0).val < (i 0).val / 3200 * 3200 + 3200
    omega
  | ⟨1, _⟩ =>
    show win0_13.index ⟨(i 0).val / 3200, hlt⟩ 1 * 128 ≤ (i 1).val ∧ (i 1).val < win0_13.index ⟨(i 0).val / 3200, hlt⟩ 1 * 128 + 128
    rw [o_1]
    omega

/-- THE MESSAGE ARRAY after the region: the messages of all the edges. -/
theorem edge_final
    (hbody : ∀ (x0 x1 : Vec Ideal S3200x128 .bf16) (x2 : Vec Ideal S3200x1 .f32) (x3 : Vec Ideal S3200x16 .bf16)
      (x4 x5 : Vec Ideal S128x128 .bf16) (x6 : Vec Ideal S16x128 .bf16) (x7 : Vec Ideal S1x128 .f32) (x8 : Vec Ideal S128 .f32)
      (x9 : Vec Ideal S128x128 .bf16) (x10 : Vec Ideal S128 .f32) (x11 : Vec Ideal S128x1 .bf16) (x12 : Vec Ideal S1 .f32),
      out0_13 (F := Ideal) x0 x1 x2 x3 x4 x5 x6 x7 x8 x9 x10 x11 x12 = msgArr (blockEdgeW x4 x5 x6 x7 x8 x9 x10 x11 x12) x0 x1 x2 x3)
    (c : Dev nD) : (dat0 V c).arrAt 13 cfg0.N = edgeResult V c :=
  (dat0 V c).arrAt_eq_of_cover 13 (edgeResult V c) (fun t _ => edge_flushed V hbody c t) edge_cover

end Cert.KernelIdeal.Hand

end
-- ==== Proof.LibSplitLayer.lean ====
/-
  A linear layer applied to rows that come in two parts, followed by the rectifier, over the extended reals, in its two
  spellings. A row-tiled kernel holds the weight matrix `W` (one row per output feature, `K₁ + K₂` columns) as two
  transposed column ranges `W₁ = (W[:, :K₁])ᵀ` and `W₂ = (W[:, K₁:])ᵀ`, multiplies each part of the row block by its range on
  the matrix unit (the rounding of the operands to bf16 is the identity on the extended reals, and a product into the zero
  accumulator is the finite sum over the contracted coordinate), adds the two products, adds the bias row and takes the
  maximum with zero. The host lays the two parts side by side, multiplies the `K₁ + K₂`-wide rows by `Wᵀ` in one
  `dot_general`, adds the bias lifted twice and takes the maximum with a broadcast zero. Entry `(r, j)` of either is
    max (Σ_{k < K₁} X₁(r,k)·W(j,k) + Σ_{k < K₂} X₂(r,k)·W(j,K₁+k) + b(j)) 0 :
  a sum over `Fin (K₁ + K₂)` is the sum over its first `K₁` positions plus the sum over the remaining `K₂`, which holds
  in every commutative additive monoid, so nothing here asks the entries to be finite.
-/
import Idealize.ShloMosaic.PureOps.Ideal.Laws
import Idealize.ShloMosaic.Lib.ValueIdx
import Idealize.ShloMosaic.Lib.ValueLayout
import Idealize.ShloMosaic.Lib.Pipeline.Value
import proofs.«143406_j15693810499839_2_alg».proof.Proof.LibPlainDot
import proofs.«143406_j15693810499839_2_alg».proof.Proof.LibAffine

namespace Idealize.ShloMosaic.SplitLayer

open Idealize.ShloMosaic.ValueIdx

variable {A K₁ K₂ K M : Nat}

/-- The layer on rows in two parts with the weights in two transposed ranges: entry `(r, j)` is
    `max (Σ_k X₁(r,k)·W₁(k,j) + Σ_k X₂(r,k)·W₂(k,j) + b(j)) 0`. -/
noncomputable def layer (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32) :
    FVec Ideal ⟨2, ![A, M]⟩ .f32 :=
  fun i => max (((∑ k : Fin K₁, X₁ (ix2 ⟨(i 0).val, idx2_lt0 i⟩ k) * W₁ (ix2 k ⟨(i 1).val, idx2_lt1 i⟩))
      + (∑ k : Fin K₂, X₂ (ix2 ⟨(i 0).val, idx2_lt0 i⟩ k) * W₂ (ix2 k ⟨(i 1).val, idx2_lt1 i⟩)))
      + b (ix1 ⟨(i 1).val, idx2_lt1 i⟩)) (Ideal.ofBits .f32 0x00000000#32)

theorem layer_ix2 (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (p : Fin A) (q : Fin M) :
    layer X₁ X₂ W₁ W₂ b (ix2 p q)
      = max (((∑ k : Fin K₁, X₁ (ix2 p k) * W₁ (ix2 k q)) + (∑ k : Fin K₂, X₂ (ix2 p k) * W₂ (ix2 k q))) + b (ix1 q))
          (Ideal.ofBits .f32 0x00000000#32) := rfl

/-- An entry of the layer depends on its own row of the two parts, its own column of the two weight ranges and its own
    bias entry only: row `p`, column `q` of the layer on a block of rows is row `r`, column `q` of the layer on whole
    arrays when those five agree. -/
theorem layer_entry_congr {B : Nat} (X₁ : FVec Ideal ⟨2, ![A, K₁]⟩ .f32) (X₂ : FVec Ideal ⟨2, ![A, K₂]⟩ .f32)
    (W₁ : FVec Ideal ⟨2, ![K₁, M]⟩ .f32) (W₂ : FVec Ideal ⟨2, ![K₂, M]⟩ .f32) (b : FVec Ideal ⟨1, ![M]⟩ .f32)
    (x₁ : FVec Ideal ⟨2, ![B, K₁]⟩ .f32) (x₂ : FVec Ideal ⟨2, ![B, K₂]⟩ .f32)
    (w₁ : FVec Ideal ⟨2, ![K₁, M]⟩ .f32) (w₂ : FVec Ideal ⟨2, ![K₂, M]⟩ .f32) (b' : FVec Ideal ⟨1, ![M]⟩ .f32)
    (p : Fin B) (r : Fin A) (q : Fin M)
    (h₁ : ∀ k, x₁ (ix2 p k) = X₁ (ix2 r k)) (h₂ : ∀ k, x₂ (ix2 p k) = X₂ (ix2 r k))
    (h₃ : ∀ k, w₁ (ix2 k q) = W₁ (ix2 k q)) (h₄ : ∀ k, w₂ (ix2 k q) = W₂ (ix2 k q)) (h₅ : b' (ix1 q) = b (ix1 q)) :
    layer x₁ x₂ w₁ w₂ b' (ix2 p q) = layer X₁ X₂ W₁ W₂ b (ix2 r q) := by
  rw [layer_ix2, layer_ix2]
  simp only [h₁, h₂, h₃, h₄, h₅]

/-- The kernel body's value at row `p`, column `q` of its block: two products into zero accumulators added, the bias
    `[M]` recast to a row and repeated down the block, the maximum with a splat zero. -/
theorem body_apply (prec : Option ContractPrecision) (x₁ : FVec Ideal ⟨2, ![A, K₁]⟩ .f32) (x₂ : FVec Ideal ⟨2, ![A, K₂]⟩ .f32)
    (w₁ : FVec Ideal ⟨2, ![K₁, M]⟩ .f32) (w₂ : FVec Ideal ⟨2, ![K₂, M]⟩ .f32) (b : FVec Ideal ⟨1, ![M]⟩ .f32)
    (ht : FTy.bf16.bits < FTy.f32.bits) (hc : (⟨1, ![M]⟩ : Shape).ShapeCasts ⟨2, ![1, M]⟩)
    (hb : (⟨2, ![1, M]⟩ : Shape).Broadcasts ⟨2, ![A, M]⟩) (p : Fin A) (q : Fin M) :
    maximumf
        (addf
          (addf
            (FloatOps.matmul (DotDims.plain A K₁ M) prec (truncf .bf16 x₁ ht) (truncf .bf16 w₁ ht) (constant ⟨2, ![A, M]⟩ .f32 0x00000000#32))
            (FloatOps.matmul (DotDims.plain A K₂ M) prec (truncf .bf16 x₂ ht) (truncf .bf16 w₂ ht) (constant ⟨2, ![A, M]⟩ .f32 0x00000000#32)))
          (broadcastTo ⟨2, ![A, M]⟩ (shapeCast ⟨2, ![1, M]⟩ b hc) hb))
        (broadcast ⟨2, ![A, M]⟩ (Scalar.ofBits (F := Ideal) .f32 0x00000000#32)) (ix2 p q)
      = layer x₁ x₂ w₁ w₂ b (ix2 p q) := by
  rw [layer_ix2]
  refine (maximumf_apply _ _ _).trans (congrArg₂ max ?_ rfl)
  refine (addf_apply _ _ _).trans (congrArg₂ (· + ·) ?_ ?_)
  · refine (addf_apply _ _ _).trans (congrArg₂ (· + ·) ?_ ?_)
    · exact PlainDot.matmul_apply_ix2 prec (truncf .bf16 x₁ ht) (truncf .bf16 w₁ ht) p q
    · exact PlainDot.matmul_apply_ix2 prec (truncf .bf16 x₂ ht) (truncf .bf16 w₂ ht) p q
  · exact (broadcastTo_1b_ab_apply _ hb p q).trans (shapeCast_a_1a_apply b hc 0 q)

/-- Two arrays laid side by side along the columns, read in the first one's columns. -/
theorem concat_cols_left (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₁) :
    concatenate ⟨2, ![A, K₁ + K₂]⟩ 1 [⟨⟨2, ![A, K₁]⟩, X₁⟩, ⟨⟨2, ![A, K₂]⟩, X₂⟩] hcat (ix2 p (Fin.castAdd K₂ k)) = X₁ (ix2 p k) :=
  concatenate_pair_apply_left 1 X₁ X₂ hcat (ix2 p (Fin.castAdd K₂ k)) rfl (ix2 p k) fun b =>
    match b with
    | ⟨0, _⟩ => rfl
    | ⟨1, _⟩ => rfl

/-- Two arrays laid side by side along the columns, read in the second one's columns. -/
theorem concat_cols_right (X₁ : FVec Ideal ⟨2, ![A, K₁]⟩ .f32) (X₂ : FVec Ideal ⟨2, ![A, K₂]⟩ .f32)
    (hcat : Shape.Concatenates [(⟨2, ![A, K₁]⟩ : Shape), ⟨2, ![A, K₂]⟩] ⟨2, ![A, K₁ + K₂]⟩ 1) (p : Fin A) (k : Fin K₂) :
    concatenate ⟨2, ![A, K₁ + K₂]⟩ 1 [⟨⟨2, ![A, K₁]⟩, X₁⟩, ⟨⟨2, ![A, K₂]⟩, X₂⟩] hcat (ix2 p (Fin.natAdd K₁ k)) = X₂ (ix2 p k) :=
  concatenate_pair_apply_right 1 X₁ X₂ hcat (ix2 p (Fin.natAdd K₁ k)) rfl rfl (ix2 p k)
    (fun b hb =>
      match b, hb with
      | ⟨0, _⟩, _ => rfl
      | ⟨1, _⟩, hb => absurd rfl hb)
    (show k.val + K₁ = K₁ + k.val from Nat.add_comm _ _)

/-- A matrix transposed, read at `(c, q)`: the matrix at `(q, c)`. -/
theorem transpose_ix2 {R C : Nat} (W : FVec Ideal ⟨2, ![R, C]⟩ .f32) (h : (⟨2, ![R, C]⟩ : Shape).Transposes [1, 0] ⟨2, ![C, R]⟩)
    (c : Fin C) (q : Fin R) : transpose ⟨2, ![C, R]⟩ [1, 0] W h (ix2 c q) = W (ix2 q c) :=
  transpose_apply [1, 0] W h (ix2 c q) (ix2 q c) fun b =>
    match b with
    | ⟨0, _⟩ => rfl
    | ⟨1, _⟩ => rfl

/-- A range of `C'` columns of a matrix starting at column `o`, transposed, read at `(k, q)`: the matrix at `(q, o + k)`. -/
theorem transpose_cols_ix2 {R C C' : Nat} (o : Nat) (W : FVec Ideal ⟨2, ![R, C]⟩ .f32)
    (hs : (⟨2, ![R, C]⟩ : Shape).Slices ![0, o] ⟨2, ![R, C']⟩)
    (h : (⟨2, ![R, C']⟩ : Shape).Transposes [1, 0] ⟨2, ![C', R]⟩) (k : Fin C') (q : Fin R) (hk : o + k.val < C) :
    transpose ⟨2, ![C', R]⟩ [1, 0] (extractStridedSlice ⟨2, ![R, C']⟩ ![0, o] W hs) h (ix2 k q) = W (ix2 q ⟨o + k.val, hk⟩) :=
  (transpose_ix2 _ h k q).trans
    (extractStridedSlice_apply ![0, o] W hs (ix2 q k) (ix2 q ⟨o + k.val, hk⟩) fun a =>
      match a with
      | ⟨0, _⟩ => (Nat.zero_add _).symm
      | ⟨1, _⟩ => rfl)

/-- The host's spelling at `(p, q)`, against the layer on the two transposed column ranges of the weight matrix. -/
theorem host_apply (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) (p : Fin A) (q : Fin M) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32)) (ix2 p q)
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b (ix2 p q) := by
  rw [layer_ix2]
  refine (maximumf_apply _ _ _).trans (congrArg₂ max ?_ ?_)
  · refine (addf_apply _ _ _).trans (congrArg₂ (· + ·) ?_ (Affine.bias_rows_apply b h1 h2 p q))
    refine (PlainDot.dotGeneral_apply_ix2 prec sched _ _ p q).trans ?_
    rw [Fin.sum_univ_add]
    refine congrArg₂ (· + ·) (Finset.sum_congr rfl fun k _ => ?_) (Finset.sum_congr rfl fun k _ => ?_)
    · refine congrArg₂ (· * ·) (concat_cols_left X₁ X₂ hcat p k) ?_
      refine (transpose_ix2 W htr (Fin.castAdd K₂ k) q).trans ?_
      refine ((transpose_cols_ix2 0 W hs₁ ht₁ k q (by have := k.isLt; omega)).trans ?_).symm
      exact congrArg W (congrArg (ix2 q) (Fin.ext (Nat.zero_add _)))
    · refine congrArg₂ (· * ·) (concat_cols_right X₁ X₂ hcat p k) ?_
      refine (transpose_ix2 W htr (Fin.natAdd K₁ k) q).trans ?_
      exact (transpose_cols_ix2 K₁ W hs₂ ht₂ k q (by have := k.isLt; omega)).symm
  · exact broadcastInDim_apply _ h0 _ (ix2 p q) ix0 fun a => a.elim0

/-- The two spellings are one array. -/
theorem host_eq (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (b : FVec Ideal ⟨1, ![M]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩)
    (hs₁ : (⟨2, ![M, K₁ + K₂]⟩ : Shape).Slices ![0, 0] ⟨2, ![M, K₁]⟩)
    (ht₁ : (⟨2, ![M, K₁]⟩ : Shape).Transposes [1, 0] ⟨2, ![K₁, M]⟩)
    (hs₂ : (⟨2, ![M, K₁ + K₂]⟩ : Shape).Slices ![0, K₁] ⟨2, ![M, K₂]⟩)
    (ht₂ : (⟨2, ![M, K₂]⟩ : Shape).Transposes [1, 0] ⟨2, ![K₂, M]⟩)
    (h1 : (⟨1, ![M]⟩ : Shape).BroadcastsInDim ⟨2, ![1, M]⟩ ![1])
    (h2 : (⟨2, ![1, M]⟩ : Shape).BroadcastsInDim ⟨2, ![A, M]⟩ ![0, 1])
    (h0 : (⟨0, ![]⟩ : Shape).BroadcastsInDim ⟨2, ![A, M]⟩ ![]) :
    maximumf
        (addf
          (FloatOps.dotGeneral (DotDims.plain A (K₁ + K₂) M) prec sched
            (concatenate ⟨2, ![A, K₁ + K₂]⟩ 1 [⟨⟨2, ![A, K₁]⟩, X₁⟩, ⟨⟨2, ![A, K₂]⟩, X₂⟩] hcat)
            (transpose ⟨2, ![K₁ + K₂, M]⟩ [1, 0] W htr))
          (broadcastInDim ⟨2, ![A, M]⟩ ![0, 1] h2 (broadcastInDim ⟨2, ![1, M]⟩ ![1] h1 b)))
        (broadcastInDim ⟨2, ![A, M]⟩ ![] h0 (constant (F := Ideal) ⟨0, ![]⟩ .f32 0x00000000#32))
      = layer X₁ X₂
          (transpose ⟨2, ![K₁, M]⟩ [1, 0] (extractStridedSlice ⟨2, ![M, K₁]⟩ ![0, 0] W hs₁) ht₁)
          (transpose ⟨2, ![K₂, M]⟩ [1, 0] (extractStridedSlice ⟨2, ![M, K₂]⟩ ![0, K₁] W hs₂) ht₂) b := by
  funext i
  obtain ⟨p, q, rfl⟩ : ∃ (p : Fin A) (q : Fin M), i = ix2 p q := ⟨i 0, i 1, eq_ix2 i⟩
  exact host_apply prec sched X₁ X₂ W b hcat htr hs₁ ht₁ hs₂ ht₂ h1 h2 h0 p q

end Idealize.ShloMosaic.SplitLayer
-- ==== Proof.HostStretch.lean ====
/-
  The host operations around the two kernel regions, read back. Before the first region the program gathers the source and
  target nodes' features and positions along the edge list, takes the distance of each edge's two positions, and lays the
  first edge layer's weight matrix out as the kernel wants it: cut into its source, target, distance and attribute column
  ranges, each transposed. Between the regions it sums the messages into their source nodes and transposes the node network's
  weights. The gathers, the distance and the edge list's index arrays are the very host chains the reference program applies
  to the same arguments (a change of float format is the identity on the extended reals), so they are carried as the
  reference's named stages and never opened; a transposed column range of a matrix read at (k, q) is the matrix at (q, o + k).
-/
import proofs.«143406_j15693810499839_2_alg».proof.Proof.Gen.KernelIdeal.Frame
import proofs.«143406_j15693810499839_2_alg».proof.Proof.RefStagesP
import proofs.«143406_j15693810499839_2_alg».proof.Proof.BlockWeights
import proofs.«143406_j15693810499839_2_alg».proof.Proof.LibSplitLayer
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx Idealize.ShloMosaic.StableHlo

namespace Cert.KernelIdeal.Hand

open Cert.KernelIdeal Cert.KernelIdeal.Gen Cert.KernelIdeal.Body Cert.GraphLayer

variable (m : (ℓ : Loc nD τ sig) → Buf (Elt Ideal) ℓ) (ρ : Dev nD → PrngReg)

/-! ## The first region's inputs -/

/-- The source nodes' features along the edge list. -/
theorem entry_src (c : Dev nD) : (V1 m ρ c main_v11 : S800000x128.Idx → EReal) = Cert.ReferenceIdeal.ReadP.val_main_v29 (F := Ideal) (m ((c : Thread nD τ).loc main_arg1)) (m ((c : Thread nD τ).loc main_arg13)) := by
  show StableHlo.after hostOps0 (W0 m ρ c) (Proc.devRef .tc main_v11) = _
  after_results_simp
  simp only [Cert.ReferenceIdeal.ReadP.val_main_v29, Cert.ReferenceIdeal.ReadP.val_main_v28, Cert.ReferenceIdeal.ReadP.val_main_v27, Cert.ReferenceIdeal.ReadP.val_main_v26, Cert.ReferenceIdeal.ReadP.val_main_v25, Cert.ReferenceIdeal.ReadP.val_main_c_4,
    Cert.ReferenceIdeal.ReadP.val_main_v24, Cert.ReferenceIdeal.ReadP.val_main_v23, Cert.ReferenceIdeal.ReadP.val_main_c_3, Cert.ReferenceIdeal.ReadP.val_main_v1, Cert.ReferenceIdeal.ReadP.val_main_v0]
  rfl

/-- The target nodes' features along the edge list. -/
theorem entry_tgt (c : Dev nD) : (V1 m ρ c main_v18 : S800000x128.Idx → EReal) = Cert.ReferenceIdeal.ReadP.val_main_v36 (F := Ideal) (m ((c : Thread nD τ).loc main_arg1)) (m ((c : Thread nD τ).loc main_arg13)) := by
  show StableHlo.after hostOps0 (W0 m ρ c) (Proc.devRef .tc main_v18) = _
  after_results_simp
  simp only [Cert.ReferenceIdeal.ReadP.val_main_v36, Cert.ReferenceIdeal.ReadP.val_main_v35, Cert.ReferenceIdeal.ReadP.val_main_v34, Cert.ReferenceIdeal.ReadP.val_main_v33, Cert.ReferenceIdeal.ReadP.val_main_v32, Cert.ReferenceIdeal.ReadP.val_main_c_6,
    Cert.ReferenceIdeal.ReadP.val_main_v31, Cert.ReferenceIdeal.ReadP.val_main_v30, Cert.ReferenceIdeal.ReadP.val_main_c_5, Cert.ReferenceIdeal.ReadP.val_main_v3, Cert.ReferenceIdeal.ReadP.val_main_v2]
  rfl

/-- The distance between each edge's two nodes. -/
theorem entry_rad (c : Dev nD) : (V1 m ρ c main_v37 : S800000x1.Idx → EReal) = Cert.ReferenceIdeal.ReadP.val_main_v22 (F := Ideal) (m ((c : Thread nD τ).loc main_arg0)) (m ((c : Thread nD τ).loc main_arg13)) := by
  show StableHlo.after hostOps0 (W0 m ρ c) (Proc.devRef .tc main_v37) = _
  after_results_simp
  simp only [Cert.ReferenceIdeal.ReadP.val_main_v22, Cert.ReferenceIdeal.ReadP.val_main_v21, Cert.ReferenceIdeal.ReadP.val_main_v20, Cert.ReferenceIdeal.ReadP.val_main_cst, Cert.ReferenceIdeal.ReadP.val_main_v19, Cert.ReferenceIdeal.ReadP.val_main_v18,
    Cert.ReferenceIdeal.ReadP.val_main_v17, Cert.ReferenceIdeal.ReadP.val_main_v16, Cert.ReferenceIdeal.ReadP.val_main_v15, Cert.ReferenceIdeal.ReadP.val_main_v14, Cert.ReferenceIdeal.ReadP.val_main_v13, Cert.ReferenceIdeal.ReadP.val_main_c_2,
    Cert.ReferenceIdeal.ReadP.val_main_v12, Cert.ReferenceIdeal.ReadP.val_main_v11, Cert.ReferenceIdeal.ReadP.val_main_c_1, Cert.ReferenceIdeal.ReadP.val_main_v10, Cert.ReferenceIdeal.ReadP.val_main_v9, Cert.ReferenceIdeal.ReadP.val_main_v8,
    Cert.ReferenceIdeal.ReadP.val_main_v7, Cert.ReferenceIdeal.ReadP.val_main_v6, Cert.ReferenceIdeal.ReadP.val_main_c_0, Cert.ReferenceIdeal.ReadP.val_main_v5, Cert.ReferenceIdeal.ReadP.val_main_v4, Cert.ReferenceIdeal.ReadP.val_main_c,
    Cert.ReferenceIdeal.ReadP.val_main_v3, Cert.ReferenceIdeal.ReadP.val_main_v2, Cert.ReferenceIdeal.ReadP.val_main_v1, Cert.ReferenceIdeal.ReadP.val_main_v0]
  rfl

/-- The edge attributes: the argument itself. -/
theorem entry_att (c : Dev nD) : (V1 m ρ c main_v38 : S800000x16.Idx → EReal) = (m ((c : Thread nD τ).loc main_arg2)) := by
  show StableHlo.after hostOps0 (W0 m ρ c) (Proc.devRef .tc main_v38) = _
  after_results_simp <;> rfl

theorem entry_wh (c : Dev nD) : (V1 m ρ c main_v44 : S128x128.Idx → EReal)
    = transpose S128x128 [1, 0] (extractStridedSlice S128x128 ![0, 0] (m ((c : Thread nD τ).loc main_arg3)) slices_S128x273_S128x128_0_0) transposes_S128x128_S128x128_1_0 := by
  show StableHlo.after hostOps0 (W0 m ρ c) (Proc.devRef .tc main_v44) = _
  after_results_simp <;> rfl

theorem entry_wc (c : Dev nD) : (V1 m ρ c main_v46 : S128x128.Idx → EReal)
    = transpose S128x128 [1, 0] (extractStridedSlice S128x128 ![0, 128] (m ((c : Thread nD τ).loc main_arg3)) slices_S128x273_S128x128_0_128) transposes_S128x128_S128x128_1_0 := by
  show StableHlo.after hostOps0 (W0 m ρ c) (Proc.devRef .tc main_v46) = _
  after_results_simp <;> rfl

theorem entry_wa (c : Dev nD) : (V1 m ρ c main_v48 : S16x128.Idx → EReal)
    = transpose S16x128 [1, 0] (extractStridedSlice S128x16 ![0, 257] (m ((c : Thread nD τ).loc main_arg3)) slices_S128x273_S128x16_0_257) transposes_S128x16_S16x128_1_0 := by
  show StableHlo.after hostOps0 (W0 m ρ c) (Proc.devRef .tc main_v48) = _
  after_results_simp <;> rfl

theorem entry_wr (c : Dev nD) : (V1 m ρ c main_v49 : S1x128.Idx → EReal)
    = transpose S1x128 [1, 0] (extractStridedSlice S128x1 ![0, 256] (m ((c : Thread nD τ).loc main_arg3)) slices_S128x273_S128x1_0_256) transposes_S128x1_S1x128_1_0 := by
  show StableHlo.after hostOps0 (W0 m ρ c) (Proc.devRef .tc main_v49) = _
  after_results_simp <;> rfl

theorem entry_b1 (c : Dev nD) : (V1 m ρ c main_arg4 : S128.Idx → EReal) = (m ((c : Thread nD τ).loc main_arg4)) := by
  show StableHlo.after hostOps0 (W0 m ρ c) (Proc.devRef .tc main_arg4) = _
  after_results_simp <;> rfl

theorem entry_w2 (c : Dev nD) : (V1 m ρ c main_v51 : S128x128.Idx → EReal)
    = transpose S128x128 [1, 0] (m ((c : Thread nD τ).loc main_arg5)) transposes_S128x128_S128x128_1_0 := by
  show StableHlo.after hostOps0 (W0 m ρ c) (Proc.devRef .tc main_v51) = _
  after_results_simp <;> rfl

theorem entry_b2 (c : Dev nD) : (V1 m ρ c main_arg6 : S128.Idx → EReal) = (m ((c : Thread nD τ).loc main_arg6)) := by
  show StableHlo.after hostOps0 (W0 m ρ c) (Proc.devRef .tc main_arg6) = _
  after_results_simp <;> rfl

theorem entry_wt (c : Dev nD) : (V1 m ρ c main_v53 : S128x1.Idx → EReal)
    = transpose S128x1 [1, 0] (m ((c : Thread nD τ).loc main_arg11)) transposes_S1x128_S128x1_1_0 := by
  show StableHlo.after hostOps0 (W0 m ρ c) (Proc.devRef .tc main_v53) = _
  after_results_simp <;> rfl

theorem entry_bt (c : Dev nD) : (V1 m ρ c main_arg12 : S1.Idx → EReal) = (m ((c : Thread nD τ).loc main_arg12)) := by
  show StableHlo.after hostOps0 (W0 m ρ c) (Proc.devRef .tc main_arg12) = _
  after_results_simp <;> rfl

set_option maxHeartbeats 2000000 in
/-- The edge network's weights as the first region finds them in its arrays are the argument arrays' own: each transposed
    column range of the first layer's matrix read at (k, q) is the matrix at (q, offset + k). -/
theorem entry_weights (c : Dev nD) :
    blockEdgeW (V1 m ρ c main_v44) (V1 m ρ c main_v46) (V1 m ρ c main_v48) (V1 m ρ c main_v49) (V1 m ρ c main_arg4)
        (V1 m ρ c main_v51) (V1 m ρ c main_arg6) (V1 m ρ c main_v53) (V1 m ρ c main_arg12)
      = edgeW (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)) := by
  apply EdgeW.ext
  · funext k q
    refine (congrFun (entry_wh m ρ c) (ix2 k q)).trans ?_
    exact (SplitLayer.transpose_cols_ix2 0 _ slices_S128x273_S128x128_0_0 transposes_S128x128_S128x128_1_0 k q (by have := k.isLt; omega)).trans
      (congrArg _ (congrArg (ix2 q) (Fin.ext (Nat.zero_add _))))
  · funext k q
    refine (congrFun (entry_wc m ρ c) (ix2 k q)).trans ?_
    exact SplitLayer.transpose_cols_ix2 128 _ slices_S128x273_S128x128_0_128 transposes_S128x128_S128x128_1_0 k q (by have := k.isLt; omega)
  · funext k q
    refine (congrFun (entry_wa m ρ c) (ix2 k q)).trans ?_
    exact SplitLayer.transpose_cols_ix2 257 _ slices_S128x273_S128x16_0_257 transposes_S128x16_S16x128_1_0 k q (by have := k.isLt; omega)
  · funext q
    refine (congrFun (entry_wr m ρ c) (ix2 (0 : Fin 1) q)).trans ?_
    exact SplitLayer.transpose_cols_ix2 256 _ slices_S128x273_S128x1_0_256 transposes_S128x1_S1x128_1_0 (0 : Fin 1) q (by decide)
  · funext q
    exact congrFun (entry_b1 m ρ c) (ix1 q)
  · funext k q
    refine (congrFun (entry_w2 m ρ c) (ix2 k q)).trans ?_
    exact SplitLayer.transpose_ix2 _ transposes_S128x128_S128x128_1_0 k q
  · funext q
    exact congrFun (entry_b2 m ρ c) (ix1 q)
  · funext k
    refine (congrFun (entry_wt m ρ c) (ix2 k (0 : Fin 1))).trans ?_
    exact SplitLayer.transpose_ix2 _ transposes_S1x128_S128x1_1_0 k (0 : Fin 1)
  · exact congrFun (entry_bt m ρ c) (ix1 (0 : Fin 1))

/-! ## Between the regions -/

/-- The first region leaves every buffer that is not one of its arrays as it found it; an argument, or the edge list's first
    row, is then what the host operations before the region left there. -/
theorem kept_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results_simp <;> rfl)

theorem kept_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results_simp <;> rfl)

theorem kept_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results_simp <;> rfl)

theorem kept_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results_simp <;> rfl)

theorem kept_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results_simp <;> rfl)

/-- The edge list's first row, as a vector of 800000 node numbers. -/
theorem kept_rows (c : Dev nD) : W2 m ρ c (Proc.devRef .tc main_v1) = Cert.ReferenceIdeal.ReadP.val_main_v1 (F := Ideal) (m ((c : Thread nD τ).loc main_arg13)) :=
  (W2_of_ne m ρ c main_v1 (by decide)).trans (by
    show StableHlo.after hostOps0 (W0 m ρ c) (Proc.devRef .tc main_v1) = _
    after_results_simp
    simp only [Cert.ReferenceIdeal.ReadP.val_main_v1, Cert.ReferenceIdeal.ReadP.val_main_v0]
    rfl)

/-- The second region's node features: the argument. -/
theorem mid_h (c : Dev nD) : (V3 m ρ c main_arg1 : S50000x128.Idx → EReal) = (m ((c : Thread nD τ).loc main_arg1)) :=
  (show StableHlo.after hostOps1 (W2 m ρ c) (Proc.devRef .tc main_arg1) = W2 m ρ c (Proc.devRef .tc main_arg1) from by
    after_results_simp <;> rfl).trans (kept_arg1 m ρ c)

theorem mid_c1 (c : Dev nD) : (V3 m ρ c main_arg8 : S128.Idx → EReal) = (m ((c : Thread nD τ).loc main_arg8)) :=
  (show StableHlo.after hostOps1 (W2 m ρ c) (Proc.devRef .tc main_arg8) = W2 m ρ c (Proc.devRef .tc main_arg8) from by
    after_results_simp <;> rfl).trans (kept_arg8 m ρ c)

theorem mid_c2 (c : Dev nD) : (V3 m ρ c main_arg10 : S128.Idx → EReal) = (m ((c : Thread nD τ).loc main_arg10)) :=
  (show StableHlo.after hostOps1 (W2 m ρ c) (Proc.devRef .tc main_arg10) = W2 m ρ c (Proc.devRef .tc main_arg10) from by
    after_results_simp <;> rfl).trans (kept_arg10 m ρ c)

theorem mid_uh (c : Dev nD) : (V3 m ρ c main_v62 : S128x128.Idx → EReal)
    = transpose S128x128 [1, 0] (extractStridedSlice S128x128 ![0, 0] (m ((c : Thread nD τ).loc main_arg7)) slices_S128x256_S128x128_0_0) transposes_S128x128_S128x128_1_0 := by
  rw [← kept_arg7 m ρ c]
  show StableHlo.after hostOps1 (W2 m ρ c) (Proc.devRef .tc main_v62) = _
  after_results_simp <;> rfl

theorem mid_um (c : Dev nD) : (V3 m ρ c main_v64 : S128x128.Idx → EReal)
    = transpose S128x128 [1, 0] (extractStridedSlice S128x128 ![0, 128] (m ((c : Thread nD τ).loc main_arg7)) slices_S128x256_S128x128_0_128) transposes_S128x128_S128x128_1_0 := by
  rw [← kept_arg7 m ρ c]
  show StableHlo.after hostOps1 (W2 m ρ c) (Proc.devRef .tc main_v64) = _
  after_results_simp <;> rfl

theorem mid_u2 (c : Dev nD) : (V3 m ρ c main_v66 : S128x128.Idx → EReal)
    = transpose S128x128 [1, 0] (m ((c : Thread nD τ).loc main_arg9)) transposes_S128x128_S128x128_1_0 := by
  rw [← kept_arg9 m ρ c]
  show StableHlo.after hostOps1 (W2 m ρ c) (Proc.devRef .tc main_v66) = _
  after_results_simp <;> rfl

set_option maxHeartbeats 2000000 in
/-- The node network's weights as the second region finds them are the argument arrays' own. -/
theorem mid_weights (c : Dev nD) :
    blockNodeW (V3 m ρ c main_v62) (V3 m ρ c main_v64) (V3 m ρ c main_arg8) (V3 m ρ c main_v66) (V3 m ρ c main_arg10)
      = nodeW (m ((c : Thread nD τ).loc main_arg7)) (m ((c : Thread nD τ).loc main_arg8)) (m ((c : Thread nD τ).loc main_arg9)) (m ((c : Thread nD τ).loc main_arg10)) := by
  apply NodeW.ext
  · funext k q
    refine (congrFun (mid_uh m ρ c) (ix2 k q)).trans ?_
    exact (SplitLayer.transpose_cols_ix2 0 _ slices_S128x256_S128x128_0_0 transposes_S128x128_S128x128_1_0 k q (by have := k.isLt; omega)).trans
      (congrArg _ (congrArg (ix2 q) (Fin.ext (Nat.zero_add _))))
  · funext k q
    refine (congrFun (mid_um m ρ c) (ix2 k q)).trans ?_
    exact SplitLayer.transpose_cols_ix2 128 _ slices_S128x256_S128x128_0_128 transposes_S128x128_S128x128_1_0 k q (by have := k.isLt; omega)
  · funext q
    exact congrFun (mid_c1 m ρ c) (ix1 q)
  · funext k q
    refine (congrFun (mid_u2 m ρ c) (ix2 k q)).trans ?_
    exact SplitLayer.transpose_ix2 _ transposes_S128x128_S128x128_1_0 k q
  · funext q
    exact congrFun (mid_c2 m ρ c) (ix1 q)

/-- The summed messages the second region reads: the first region's message array, summed into the edges' source nodes. -/
theorem mid_ms (c : Dev nD) : (V3 m ρ c main_v58 : S50000x128.Idx → EReal)
    = Host.scatterAdd scatter_S50000x128_S800000x1_S800000x128_1_0_0_1
        (broadcastInDim S50000x128 ![] bcast_S_S50000x128 (constant (F := Ideal) S_ .f32 0x00000000#32))
        (broadcastInDim S800000x1 ![0] bcast_S800000_S800000x1_0 (Cert.ReferenceIdeal.ReadP.val_main_v1 (F := Ideal) (m ((c : Thread nD τ).loc main_arg13))))
        ((dat0 (V1 m ρ) c).arrAt 13 cfg0.N) := by
  rw [← kept_rows m ρ c, ← W2_arr m ρ c 13]
  show StableHlo.after hostOps1 (W2 m ρ c) (Proc.devRef .tc main_v58) = _
  after_results_simp <;> rfl

end Cert.KernelIdeal.Hand

end
-- ==== Proof.LibSplitDot.lean ====
/-
  Three readings of host operations over the extended reals, at an output index given by coordinates.
  `split_dot`: rows that come in two parts `X₁` (`K₁` columns) and `X₂` (`K₂` columns), laid side by side and multiplied in ONE
  `dot_general` by the transpose of a matrix `W` with one row per output feature and `K₁ + K₂` columns, give at `(p, q)`
    Σ_{k < K₁} X₁(p,k)·W(q,k) + Σ_{k < K₂} X₂(p,k)·W(q,K₁+k):
  a sum over `Fin (K₁ + K₂)` is the sum over its first `K₁` positions plus the sum over the remaining `K₂`, in any commutative
  additive monoid, so nothing is asked of the entries.
  `dot_transposed`: rows multiplied by the transpose of `W` give `Σ_k X(p,k)·W(q,k)`.
  `sigmoid_host`: the logistic function spelt as `1 / (1 + exp (−x))` in the host's operations, with the f32 word of 1.0 for
  both ones, is `Ideal.logistic x` on every extended real (the quotient's and the exponential's conventions at ±∞ are the
  definition's own).
-/
import Idealize.ShloMosaic.PureOps.Ideal.Laws
import Idealize.ShloMosaic.Lib.ValueIdx
import Idealize.ShloMosaic.Lib.IdealHost
import proofs.«143406_j15693810499839_2_alg».proof.Proof.LibPlainDot
import proofs.«143406_j15693810499839_2_alg».proof.Proof.LibSplitLayer

namespace Idealize.ShloMosaic.SplitDot

open Idealize.ShloMosaic.ValueIdx

variable {A K₁ K₂ K M : Nat}

/-- Rows in two parts, side by side, against a transposed weight matrix: the two partial sums. -/
theorem split_dot (prec : Option ContractPrecision) (sched : HostSchedule)
    (X₁ : FVec Ideal ⟨2, ![A, K₁]⟩ .f32) (X₂ : FVec Ideal ⟨2, ![A, K₂]⟩ .f32) (W : FVec Ideal ⟨2, ![M, K₁ + K₂]⟩ .f32)
    (hcat : Shape.Concatenates [(⟨2, ![A, K₁]⟩ : Shape), ⟨2, ![A, K₂]⟩] ⟨2, ![A, K₁ + K₂]⟩ 1)
    (htr : (⟨2, ![M, K₁ + K₂]⟩ : Shape).Transposes [1, 0] ⟨2, ![K₁ + K₂, M]⟩) (p : Fin A) (q : Fin M) :
    FloatOps.dotGeneral (DotDims.plain A (K₁ + K₂) M) prec sched
        (concatenate ⟨2, ![A, K₁ + K₂]⟩ 1 [⟨⟨2, ![A, K₁]⟩, X₁⟩, ⟨⟨2, ![A, K₂]⟩, X₂⟩] hcat)
        (transpose ⟨2, ![K₁ + K₂, M]⟩ [1, 0] W htr) (ix2 p q)
      = (∑ k : Fin K₁, X₁ (ix2 p k) * W (ix2 q (Fin.castAdd K₂ k))) + (∑ k : Fin K₂, X₂ (ix2 p k) * W (ix2 q (Fin.natAdd K₁ k))) := by
  refine (PlainDot.dotGeneral_apply_ix2 prec sched _ _ p q).trans ?_
  rw [Fin.sum_univ_add]
  refine congrArg₂ (· + ·) (Finset.sum_congr rfl fun k _ => ?_) (Finset.sum_congr rfl fun k _ => ?_)
  · exact congrArg₂ (· * ·) (SplitLayer.concat_cols_left X₁ X₂ hcat p k) (SplitLayer.transpose_ix2 W htr (Fin.castAdd K₂ k) q)
  · exact congrArg₂ (· * ·) (SplitLayer.concat_cols_right X₁ X₂ hcat p k) (SplitLayer.transpose_ix2 W htr (Fin.natAdd K₁ k) q)

/-- Rows against a transposed weight matrix: the matrix read row by row. -/
theorem dot_transposed (prec : Option ContractPrecision) (sched : HostSchedule)
    (X : FVec Ideal ⟨2, ![A, K]⟩ .f32) (W : FVec Ideal ⟨2, ![M, K]⟩ .f32)
    (htr : (⟨2, ![M, K]⟩ : Shape).Transposes [1, 0] ⟨2, ![K, M]⟩) (p : Fin A) (q : Fin M) :
    FloatOps.dotGeneral (DotDims.plain A K M) prec sched X (transpose ⟨2, ![K, M]⟩ [1, 0] W htr) (ix2 p q)
      = ∑ k : Fin K, X (ix2 p k) * W (ix2 q k) :=
  (PlainDot.dotGeneral_apply_ix2 prec sched _ _ p q).trans
    (Finset.sum_congr rfl fun k _ => congrArg (X (ix2 p k) * ·) (SplitLayer.transpose_ix2 W htr k q))

/-- The host's `1 / (1 + exp (−x))` with the f32 word of 1.0 is the logistic function. -/
theorem sigmoid_host (x : EReal) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  rw [Ideal.ofBits_def, Ideal.ofBits_one_f32]
  rfl

end Idealize.ShloMosaic.SplitDot
-- ==== Proof.LibDenseRows.lean ====
/-
  One dense layer on the rows of a matrix, over the extended reals, read entry by entry. The weights are kept as they are
  given, one ROW per output feature, so entry `(p, q)` of `X · Wᵀ` is row `p` of `X` against row `q` of `W`,
    rowDot X W p q = Σ_k X(p,k) · W(q,k).
  A kernel body spells it as a product on the matrix unit into a zero accumulator, by the transpose of the weights rounded to
  bf16 (a change of float format is the identity on the extended reals); the host as a `dot_general` by the transposed
  weights. A bias `[M]` reaches entry `(p, q)` as its entry `q` in both spellings, and the zero the rectifier compares with
  is the same extended real in both.
-/
import Idealize.ShloMosaic.PureOps.Ideal.Laws
import Idealize.ShloMosaic.Lib.ValueIdx
import Idealize.ShloMosaic.Lib.ValueLayout
import Idealize.ShloMosaic.Lib.Pipeline.Value
import proofs.«143406_j15693810499839_2_alg».proof.Proof.LibPlainDot
import proofs.«143406_j15693810499839_2_alg».proof.Proof.LibAffine
import proofs.«143406_j15693810499839_2_alg».proof.Proof.LibSplitLayer
import proofs.«143406_j15693810499839_2_alg».proof.Proof.LibSplitDot

namespace Idealize.ShloMosaic.DenseRows

open Idealize.ShloMosaic Idealize.ShloMosaic.ValueIdx

variable {A B K M : Nat}

/-- Row `p` of `X` against row `q` of `W`. -/
noncomputable def rowDot (X : FVec Ideal ⟨2, ![A, K]⟩ .f32) (W : FVec Ideal ⟨2, ![M, K]⟩ .f32) (p : Fin A) (q : Fin M) : EReal :=
  ∑ k : Fin K, X (ix2 p k) * W (ix2 q k)

/-- It reads row `p` of `X` and nothing else of `X`. -/
theorem rowDot_congr (X : FVec Ideal ⟨2, ![A, K]⟩ .f32) (X' : FVec Ideal ⟨2, ![B, K]⟩ .f32) (W : FVec Ideal ⟨2, ![M, K]⟩ .f32)
    (p : Fin A) (p' : Fin B) (q : Fin M) (h : ∀ k, X (ix2 p k) = X' (ix2 p' k)) : rowDot X W p q = rowDot X' W p' q :=
  Finset.sum_congr rfl fun k _ => congrArg (· * W (ix2 q k)) (h k)

/-- The same rows against two weight matrices whose row `q` agree. -/
theorem rowDot_congr_right (X : FVec Ideal ⟨2, ![A, K]⟩ .f32) (W W' : FVec Ideal ⟨2, ![M, K]⟩ .f32)
    (p : Fin A) (q : Fin M) (h : ∀ k, W (ix2 q k) = W' (ix2 q k)) : rowDot X W p q = rowDot X W' p q :=
  Finset.sum_congr rfl fun k _ => congrArg (X (ix2 p k) * ·) (h k)

/-- A kernel body's product into the zero accumulator by the transposed, rounded weights. -/
theorem kernel_rowDot {φ : FTy} (prec : Option ContractPrecision) (X : FVec Ideal ⟨2, ![A, K]⟩ φ) (W : FVec Ideal ⟨2, ![M, K]⟩ .f32)
    (ht : FTy.bf16.bits < FTy.f32.bits) (hT : (⟨2, ![M, K]⟩ : Shape).Transposes [1, 0] ⟨2, ![K, M]⟩) (p : Fin A) (q : Fin M) :
    matmul (DotDims.plain A K M) prec X (transpose ⟨2, ![K, M]⟩ [1, 0] (truncf .bf16 W ht) hT) (constant ⟨2, ![A, M]⟩ .f32 0x00000000#32) (ix2 p q)
      = rowDot X W p q :=
  (PlainDot.matmul_apply_ix2 prec X _ p q).trans
    (Finset.sum_congr rfl fun k _ => congrArg (X (ix2 p k) * ·) (SplitLayer.transpose_ix2 (truncf .bf16 W ht) hT k q))

/-- The host's `dot_general` by the transposed weights. -/
theorem host_rowDot (prec : Option ContractPrecision) (X : FVec Ideal ⟨2, ![A, K]⟩ .f32) (W : FVec Ideal ⟨2, ![M, K]⟩ .f32)
    (hT : (⟨2, ![M, K]⟩ : Shape).Transposes [1, 0] ⟨2, ![K, M]⟩) (p : Fin A) (q : Fin M) :
    Host.dotGeneral (DotDims.plain A K M) prec X (transpose ⟨2, ![K, M]⟩ [1, 0] W hT) (ix2 p q) = rowDot X W p q :=
  SplitDot.dot_transposed prec HostSchedule.single X W hT p q

/-- A kernel body's bias: the vector `[M]` recast to a row and repeated down the block. -/
theorem kernel_bias (b : FVec Ideal ⟨1, ![M]⟩ .f32) (hc : (⟨1, ![M]⟩ : Shape).ShapeCasts ⟨2, ![1, M]⟩)
    (hb : (⟨2, ![1, M]⟩ : Shape).Broadcasts ⟨2, ![A, M]⟩) (p : Fin A) (q : Fin M) :
    broadcastTo ⟨2, ![A, M]⟩ (shapeCast ⟨2, ![1, M]⟩ b hc) hb (ix2 p q) = b (ix1 q) :=
  (broadcastTo_1b_ab_apply _ hb p q).trans (shapeCast_a_1a_apply b hc 0 q)

/-- The host's bias: the vector lifted to `[1, M]` and then to `[A, M]`. -/
theorem host_bias (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) :=
  Affine.bias_rows_apply b h1 h2 p q

/-- The host's zero array, at any entry: the zero of the format. -/
theorem host_zero (h0 : (⟨0, ![]⟩ : Shape).BroadcastsInDim ⟨2, ![A, M]⟩ ![]) (p : Fin A) (q : Fin M) :
    broadcastInDim ⟨2, ![A, M]⟩ ![] h0 (constant (F := Ideal) ⟨0, ![]⟩ .f32 0x00000000#32) (ix2 p q) = Ideal.ofBits .f32 0x00000000#32 :=
  broadcastInDim_apply _ h0 _ (ix2 p q) ix0 fun a => a.elim0

/-- A range of columns of a matrix starting at column `o`, read at `(q, k)`: the matrix at `(q, o + k)`. -/
theorem slice_cols_ix2 {R C C' : Nat} (o : Nat) (W : FVec Ideal ⟨2, ![R, C]⟩ .f32)
    (hs : (⟨2, ![R, C]⟩ : Shape).Slices ![0, o] ⟨2, ![R, C']⟩) (q : Fin R) (k : Fin C') (hk : o + k.val < C) :
    extractStridedSlice ⟨2, ![R, C']⟩ ![0, o] W hs (ix2 q k) = W (ix2 q ⟨o + k.val, hk⟩) :=
  extractStridedSlice_apply ![0, o] W hs (ix2 q k) (ix2 q ⟨o + k.val, hk⟩) fun a =>
    match a with
    | ⟨0, _⟩ => (Nat.zero_add _).symm
    | ⟨1, _⟩ => rfl

end Idealize.ShloMosaic.DenseRows
-- ==== Proof.LibColumn.lean ====
/-
  A column vector kept as a trailing unit axis (`jnp.sum(…, keepdims=True)`), read at an index given by coordinates:
  a vector `[a]` cast to the column `[a, 1]`, and a column `[a, 1]` broadcast along its unit axis to `[a, b]`. Both read the
  operand at the row coordinate alone.
-/
import Idealize.ShloMosaic.Lib.Pipeline.Value
import Idealize.ShloMosaic.Lib.ValueIdx

namespace Idealize.ShloMosaic.Column

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Column
-- ==== Proof.BodyValue.lean ====
/-
  The arithmetic of the two kernel bodies over the extended reals, entry by entry.

  The edge body multiplies the source rows, the target rows and the attribute rows by their weight blocks on the matrix unit,
  adds the three products in that order, adds the distance column times the distance weights' row, adds the bias, applies
  s(z) = z · σ(z), runs a second dense layer the same way, and scales each row by the logistic of its product with the gate
  column plus the gate bias. The node body multiplies the node rows and the summed-message rows by their weight blocks, adds
  the two products and the bias, applies s, runs a second dense layer and adds the node rows back. Each whole-block load
  reads its block, the one whole-block store leaves its payload, a cast to the same shape and a change of float format are
  the identity, and each matrix product into a zero accumulator is a finite sum over the contracted coordinate; so the body's
  output block is the row-by-row specification at the weights found in the weight blocks.
-/
import proofs.«143406_j15693810499839_2_alg».proof.Proof.Gen.KernelIdeal.Frame
import proofs.«143406_j15693810499839_2_alg».proof.Proof.Spec
import proofs.«143406_j15693810499839_2_alg».proof.Proof.BlockWeights
import proofs.«143406_j15693810499839_2_alg».proof.Proof.LibPlainDot
import proofs.«143406_j15693810499839_2_alg».proof.Proof.LibSiluMlp
import proofs.«143406_j15693810499839_2_alg».proof.Proof.LibDenseRows
import proofs.«143406_j15693810499839_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Cert.GraphLayer Idealize.ShloMosaic Idealize.ShloMosaic.ValueIdx
open Idealize.ShloMosaic.SiluMlp

/-- The offset of a whole block of rank two, and of rank one. -/
theorem hz2 : (![0, 0] : Fin 2 → Nat) = fun _ => 0 := funext fun a => by fin_cases a <;> rfl
theorem hz1 : (![0] : Fin 1 → Nat) = fun _ => 0 := funext fun a => by fin_cases a; rfl

/-! ## A dense layer at an entry -/

section Dense

variable {A K N : Nat}

/-- A product into the zero accumulator plus a bias row: the sum over the contracted coordinate plus the bias entry. -/
theorem dense_apply {φ₁ φ₂ : FTy} (prec : Option ContractPrecision) (X : FVec Ideal ⟨2, ![A, K]⟩ φ₁) (W : FVec Ideal ⟨2, ![K, N]⟩ φ₂)
    (b : FVec Ideal ⟨1, ![N]⟩ .f32) (hc : (⟨1, ![N]⟩ : Shape).ShapeCasts ⟨2, ![1, N]⟩)
    (hb : (⟨2, ![1, N]⟩ : Shape).Broadcasts ⟨2, ![A, N]⟩) (p : Fin A) (q : Fin N) :
    addf (matmul (DotDims.plain A K N) prec X W (constant ⟨2, ![A, N]⟩ .f32 0x00000000#32))
        (broadcastTo ⟨2, ![A, N]⟩ (shapeCast ⟨2, ![1, N]⟩ b hc) hb) (ix2 p q)
      = (∑ k : Fin K, X (ix2 p k) * W (ix2 k q)) + b (ix1 q) :=
  congrArg₂ (· + ·) (PlainDot.matmul_apply_ix2 prec X W p q) (DenseRows.kernel_bias b hc hb p q)

/-- Two products into zero accumulators added, plus a bias row. -/
theorem dense2_apply {K' : Nat} {φ₁ φ₂ φ₃ φ₄ : FTy} (prec prec' : Option ContractPrecision)
    (X : FVec Ideal ⟨2, ![A, K]⟩ φ₁) (W : FVec Ideal ⟨2, ![K, N]⟩ φ₂)
    (X' : FVec Ideal ⟨2, ![A, K']⟩ φ₃) (W' : FVec Ideal ⟨2, ![K', N]⟩ φ₄)
    (b : FVec Ideal ⟨1, ![N]⟩ .f32) (hc : (⟨1, ![N]⟩ : Shape).ShapeCasts ⟨2, ![1, N]⟩)
    (hb : (⟨2, ![1, N]⟩ : Shape).Broadcasts ⟨2, ![A, N]⟩) (p : Fin A) (q : Fin N) :
    addf (addf (matmul (DotDims.plain A K N) prec X W (constant ⟨2, ![A, N]⟩ .f32 0x00000000#32))
          (matmul (DotDims.plain A K' N) prec' X' W' (constant ⟨2, ![A, N]⟩ .f32 0x00000000#32)))
        (broadcastTo ⟨2, ![A, N]⟩ (shapeCast ⟨2, ![1, N]⟩ b hc) hb) (ix2 p q)
      = ((∑ k : Fin K, X (ix2 p k) * W (ix2 k q)) + (∑ k : Fin K', X' (ix2 p k) * W' (ix2 k q))) + b (ix1 q) :=
  congrArg₂ (· + ·)
    (congrArg₂ (· + ·) (PlainDot.matmul_apply_ix2 prec X W p q) (PlainDot.matmul_apply_ix2 prec' X' W' p q))
    (DenseRows.kernel_bias b hc hb p q)

end Dense

/-! ## The node body -/

/-- The node body's payload at an entry, over any number of rows. -/
theorem node_payload_apply {A : Nat} (x0 x1 : FVec Ideal ⟨2, ![A, 128]⟩ .f32) (x2 x3 : FVec Ideal ⟨2, ![128, 128]⟩ .bf16)
    (x4 : FVec Ideal ⟨1, ![128]⟩ .f32) (x5 : FVec Ideal ⟨2, ![128, 128]⟩ .bf16) (x6 : FVec Ideal ⟨1, ![128]⟩ .f32)
    (ht : FTy.bf16.bits < FTy.f32.bits) (hc : (⟨1, ![128]⟩ : Shape).ShapeCasts ⟨2, ![1, 128]⟩)
    (hb : (⟨2, ![1, 128]⟩ : Shape).Broadcasts ⟨2, ![A, 128]⟩) (p : Fin A) (q : Fin 128) :
    addf x0 (addf (matmul (DotDims.plain A 128 128) none
        (truncf .bf16
          (mulf
            (addf (addf (matmul (DotDims.plain A 128 128) none (truncf .bf16 x0 ht) x2 (constant ⟨2, ![A, 128]⟩ .f32 0x00000000#32))
                (matmul (DotDims.plain A 128 128) none (truncf .bf16 x1 ht) x3 (constant ⟨2, ![A, 128]⟩ .f32 0x00000000#32)))
              (broadcastTo ⟨2, ![A, 128]⟩ (shapeCast ⟨2, ![1, 128]⟩ x4 hc) hb))
            (logistic
              (addf (addf (matmul (DotDims.plain A 128 128) none (truncf .bf16 x0 ht) x2 (constant ⟨2, ![A, 128]⟩ .f32 0x00000000#32))
                  (matmul (DotDims.plain A 128 128) none (truncf .bf16 x1 ht) x3 (constant ⟨2, ![A, 128]⟩ .f32 0x00000000#32)))
                (broadcastTo ⟨2, ![A, 128]⟩ (shapeCast ⟨2, ![1, 128]⟩ x4 hc) hb)))) ht)
        x5 (constant ⟨2, ![A, 128]⟩ .f32 0x00000000#32))
      (broadcastTo ⟨2, ![A, 128]⟩ (shapeCast ⟨2, ![1, 128]⟩ x6 hc) hb)) (ix2 p q)
      = nodeOut (blockNodeW x2 x3 x4 x5 x6) (fun k => x0 (ix2 p k)) (fun k => x1 (ix2 p k)) q := by
  refine congrArg (x0 (ix2 p q) + ·) ?_
  refine (dense_apply none _ x5 x6 hc hb p q).trans ?_
  refine congrArg (· + x6 (ix1 q)) ?_
  refine Finset.sum_congr rfl fun k _ => congrArg (· * x5 (ix2 k q)) ?_
  refine (silu_kernel_apply _ (ix2 p k)).trans (congrArg silu ?_)
  exact dense2_apply none none (truncf .bf16 x0 ht) x2 (truncf .bf16 x1 ht) x3 x4 hc hb p k

theorem out1_7_eq (x0 x1 : Vec Ideal S5000x128 .f32) (x2 x3 : Vec Ideal S128x128 .bf16) (x4 : Vec Ideal S128 .f32) (x5 : Vec Ideal S128x128 .bf16) (x6 : Vec Ideal S128 .f32) :
    out1_7 (F := Ideal) x0 x1 x2 x3 x4 x5 x6 = nodeArr (blockNodeW x2 x3 x4 x5 x6) x0 x1 := by
  funext j
  obtain ⟨p, q, rfl⟩ : ∃ (p : Fin 5000) (q : Fin 128), j = ix2 p q := ⟨j 0, j 1, eq_ix2 j⟩
  refine Eq.trans ?_ (nodeArr_ix2 (blockNodeW x2 x3 x4 x5 x6) x0 x1 p q).symm
  unfold out1_7
  rw [View.canon_unit_zero hz2]
  simp only [View.ld_unit_zero (S := S5000x128) hz2, View.ld_unit_zero (S := S128x128) hz2, View.ld_unit_zero (S := S128) hz1]
  unfold k1_pay1
  simp only [shapeCast_self]
  exact node_payload_apply x0 x1 x2 x3 x4 x5 x6 bitsLt_bf16_f32 shapeCasts_S128_S1x128 broadcasts_S1x128_S5000x128 p q

/-! ## The edge body -/

section Edge

variable {A : Nat}

/-- The first edge layer before its activation, at an entry: the source, target and attribute products, the distance column
    times the distance weights' row, and the bias, added in this order. -/
theorem edge_pre_apply (x0 x1 : FVec Ideal ⟨2, ![A, 128]⟩ .bf16) (x2 : FVec Ideal ⟨2, ![A, 1]⟩ .f32) (x3 : FVec Ideal ⟨2, ![A, 16]⟩ .bf16)
    (x4 x5 : FVec Ideal ⟨2, ![128, 128]⟩ .bf16) (x6 : FVec Ideal ⟨2, ![16, 128]⟩ .bf16) (x7 : FVec Ideal ⟨2, ![1, 128]⟩ .f32)
    (x8 : FVec Ideal ⟨1, ![128]⟩ .f32) (x9 : FVec Ideal ⟨2, ![128, 128]⟩ .bf16) (x10 : FVec Ideal ⟨1, ![128]⟩ .f32)
    (x11 : FVec Ideal ⟨2, ![128, 1]⟩ .bf16) (x12 : FVec Ideal ⟨1, ![1]⟩ .f32)
    (hc : (⟨1, ![128]⟩ : Shape).ShapeCasts ⟨2, ![1, 128]⟩) (hb : (⟨2, ![1, 128]⟩ : Shape).Broadcasts ⟨2, ![A, 128]⟩)
    (hcol : (⟨2, ![A, 1]⟩ : Shape).Broadcasts ⟨2, ![A, 128]⟩) (p : Fin A) (q : Fin 128) :
    addf (addf (addf (addf (matmul (DotDims.plain A 128 128) none x0 x4 (constant ⟨2, ![A, 128]⟩ .f32 0x00000000#32))
              (matmul (DotDims.plain A 128 128) none x1 x5 (constant ⟨2, ![A, 128]⟩ .f32 0x00000000#32)))
            (matmul (DotDims.plain A 16 128) none x3 x6 (constant ⟨2, ![A, 128]⟩ .f32 0x00000000#32)))
          (mulf (broadcastTo ⟨2, ![A, 128]⟩ x2 hcol) (broadcastTo ⟨2, ![A, 128]⟩ x7 hb)))
        (broadcastTo ⟨2, ![A, 128]⟩ (shapeCast ⟨2, ![1, 128]⟩ x8 hc) hb) (ix2 p q)
      = edgePre (blockEdgeW x4 x5 x6 x7 x8 x9 x10 x11 x12) (fun k => x0 (ix2 p k)) (fun k => x1 (ix2 p k)) (x2 (ix2 p (0 : Fin 1)))
          (fun k => x3 (ix2 p k)) q :=
  congrArg₂ (· + ·)
    (congrArg₂ (· + ·)
      (congrArg₂ (· + ·)
        (congrArg₂ (· + ·) (PlainDot.matmul_apply_ix2 none x0 x4 p q) (PlainDot.matmul_apply_ix2 none x1 x5 p q))
        (PlainDot.matmul_apply_ix2 none x3 x6 p q))
      (congrArg₂ (· * ·) (Column.broadcastTo_a1_ab_apply x2 hcol p q) (broadcastTo_1b_ab_apply x7 hb p q)))
    (DenseRows.kernel_bias x8 hc hb p q)

/-- The second edge layer at an entry, from a hidden block whose row `p` is the first layer's output. -/
theorem edge_out_apply (W : EdgeW) (hr hc' : Fin 128 → EReal) (rad : EReal) (ea : Fin 16 → EReal)
    (H : FVec Ideal ⟨2, ![A, 128]⟩ .bf16) (x9 : FVec Ideal ⟨2, ![128, 128]⟩ .bf16) (x10 : FVec Ideal ⟨1, ![128]⟩ .f32)
    (hc : (⟨1, ![128]⟩ : Shape).ShapeCasts ⟨2, ![1, 128]⟩) (hb : (⟨2, ![1, 128]⟩ : Shape).Broadcasts ⟨2, ![A, 128]⟩)
    (p : Fin A) (q : Fin 128) (hH : ∀ k, H (ix2 p k) = edgeHid W hr hc' rad ea k)
    (hw : ∀ k, x9 (ix2 k q) = W.w2 k q) (hb2 : x10 (ix1 q) = W.b2 q) :
    mulf (addf (matmul (DotDims.plain A 128 128) none H x9 (constant ⟨2, ![A, 128]⟩ .f32 0x00000000#32))
          (broadcastTo ⟨2, ![A, 128]⟩ (shapeCast ⟨2, ![1, 128]⟩ x10 hc) hb))
        (logistic (addf (matmul (DotDims.plain A 128 128) none H x9 (constant ⟨2, ![A, 128]⟩ .f32 0x00000000#32))
          (broadcastTo ⟨2, ![A, 128]⟩ (shapeCast ⟨2, ![1, 128]⟩ x10 hc) hb))) (ix2 p q)
      = edgeOut W hr hc' rad ea q :=
  (silu_kernel_apply _ (ix2 p q)).trans
    (congrArg silu ((dense_apply none H x9 x10 hc hb p q).trans
      (congrArg₂ (· + ·) (Finset.sum_congr rfl fun k _ => congrArg₂ (· * ·) (hH k) (hw k)) hb2)))

/-- The gated message at an entry, from an output block whose row `p` is the second layer's output: the gate is the logistic
    of the row's product with the gate column plus the gate bias, one number per row, repeated along the row. -/
theorem edge_msg_apply (W : EdgeW) (hr hc' : Fin 128 → EReal) (rad : EReal) (ea : Fin 16 → EReal)
    (O : FVec Ideal ⟨2, ![A, 128]⟩ .f32) (x11 : FVec Ideal ⟨2, ![128, 1]⟩ .bf16) (x12 : FVec Ideal ⟨1, ![1]⟩ .f32)
    (ht : FTy.bf16.bits < FTy.f32.bits) (hc1 : (⟨1, ![1]⟩ : Shape).ShapeCasts ⟨2, ![1, 1]⟩)
    (hb1 : (⟨2, ![1, 1]⟩ : Shape).Broadcasts ⟨2, ![A, 1]⟩) (hcol : (⟨2, ![A, 1]⟩ : Shape).Broadcasts ⟨2, ![A, 128]⟩)
    (p : Fin A) (q : Fin 128) (hO : ∀ k, O (ix2 p k) = edgeOut W hr hc' rad ea k)
    (hwt : ∀ k, x11 (ix2 k (0 : Fin 1)) = W.wt k) (hbt : x12 (ix1 (0 : Fin 1)) = W.bt) :
    truncf .bf16 (mulf O (broadcastTo ⟨2, ![A, 128]⟩
        (logistic (addf (matmul (DotDims.plain A 128 1) none (truncf .bf16 O ht) x11 (constant ⟨2, ![A, 1]⟩ .f32 0x00000000#32))
          (broadcastTo ⟨2, ![A, 1]⟩ (shapeCast ⟨2, ![1, 1]⟩ x12 hc1) hb1))) hcol)) ht (ix2 p q)
      = edgeMsg W hr hc' rad ea q :=
  congrArg₂ (· * ·) (hO q)
    ((Column.broadcastTo_a1_ab_apply _ hcol p q).trans
      (congrArg Ideal.logistic ((dense_apply none (truncf .bf16 O ht) x11 x12 hc1 hb1 p (0 : Fin 1)).trans
        (congrArg₂ (· + ·) (Finset.sum_congr rfl fun k _ => congrArg₂ (· * ·) (hO k) (hwt k)) hbt))))

end Edge

theorem out0_13_eq (x0 x1 : Vec Ideal S3200x128 .bf16) (x2 : Vec Ideal S3200x1 .f32) (x3 : Vec Ideal S3200x16 .bf16) (x4 x5 : Vec Ideal S128x128 .bf16) (x6 : Vec Ideal S16x128 .bf16) (x7 : Vec Ideal S1x128 .f32) (x8 : Vec Ideal S128 .f32) (x9 : Vec Ideal S128x128 .bf16) (x10 : Vec Ideal S128 .f32) (x11 : Vec Ideal S128x1 .bf16) (x12 : Vec Ideal S1 .f32) :
    out0_13 (F := Ideal) x0 x1 x2 x3 x4 x5 x6 x7 x8 x9 x10 x11 x12 = msgArr (blockEdgeW x4 x5 x6 x7 x8 x9 x10 x11 x12) x0 x1 x2 x3 := by
  funext j
  obtain ⟨p, q, rfl⟩ : ∃ (p : Fin 3200) (q : Fin 128), j = ix2 p q := ⟨j 0, j 1, eq_ix2 j⟩
  refine Eq.trans ?_ (msgArr_ix2 (blockEdgeW x4 x5 x6 x7 x8 x9 x10 x11 x12) x0 x1 x2 x3 p q).symm
  unfold out0_13
  rw [View.canon_unit_zero hz2]
  simp only [View.ld_unit_zero (S := S3200x128) hz2, View.ld_unit_zero (S := S3200x1) hz2, View.ld_unit_zero (S := S3200x16) hz2,
    View.ld_unit_zero (S := S128x128) hz2, View.ld_unit_zero (S := S16x128) hz2, View.ld_unit_zero (S := S1x128) hz2,
    View.ld_unit_zero (S := S128x1) hz2, View.ld_unit_zero (S := S128) hz1, View.ld_unit_zero (S := S1) hz1]
  unfold k0_pay1 k0_pay2 k0_pay3
  simp only [shapeCast_self]
  refine edge_msg_apply (blockEdgeW x4 x5 x6 x7 x8 x9 x10 x11 x12) _ _ _ _ _ x11 x12 bitsLt_bf16_f32 shapeCasts_S1_S1x1
    broadcasts_S1x1_S3200x1 broadcasts_S3200x1_S3200x128 p q (fun k => ?_) (fun _ => rfl) rfl
  refine edge_out_apply (blockEdgeW x4 x5 x6 x7 x8 x9 x10 x11 x12) _ _ _ _ _ x9 x10 shapeCasts_S128_S1x128
    broadcasts_S1x128_S3200x128 p k (fun k' => ?_) (fun _ => rfl) rfl
  refine (silu_kernel_apply _ (ix2 p k')).trans (congrArg silu ?_)
  exact edge_pre_apply x0 x1 x2 x3 x4 x5 x6 x7 x8 x9 x10 x11 x12 shapeCasts_S128_S1x128 broadcasts_S1x128_S3200x128
    broadcasts_S3200x1_S3200x128 p k'

end Cert.KernelIdeal.Body

end
-- ==== Proof.KernelValue.lean ====
/-
  The kernel program's result as one function of its argument arrays. The second region leaves in the result array the
  updated features of all the nodes, computed from the node features and from the messages summed into their source nodes;
  the messages are what the first region leaves in its output array, computed from the gathered features, the distances and
  the edge attributes; and every weight block a region reads is a transposed column range of an argument matrix. Put
  together: the result is the node update of the argument features and of the scatter-sum of the edge messages of the
  arguments, with the gathers, the distance and the edge list's index carried as the reference program's own stages.
-/
import proofs.«143406_j15693810499839_2_alg».proof.Proof.KernelRun
import proofs.«143406_j15693810499839_2_alg».proof.Proof.NodeRegion
import proofs.«143406_j15693810499839_2_alg».proof.Proof.EdgeRegion
import proofs.«143406_j15693810499839_2_alg».proof.Proof.HostStretch
import proofs.«143406_j15693810499839_2_alg».proof.Proof.BodyValue

set_option maxRecDepth 16384

noncomputable section

open Idealize.ShloMosaic Idealize.ShloMosaic.TcCoe Idealize.SL.Sem Idealize.ShloMosaic.ValueIdx

namespace Cert.KernelIdeal.Hand

open Cert.KernelIdeal Cert.KernelIdeal.Gen Cert.KernelIdeal.Body Cert.GraphLayer

variable (m : (ℓ : Loc nD τ sig) → Buf (Elt Ideal) ℓ) (ρ : Dev nD → PrngReg)

/-- The messages of all the edges, from the argument arrays. -/
def messages (c : Dev nD) : FVec Ideal ⟨2, ![800000, 128]⟩ .f32 :=
  msgArr (edgeW (m ((c : Thread nD τ).loc main_arg3)) (m ((c : Thread nD τ).loc main_arg4)) (m ((c : Thread nD τ).loc main_arg5)) (m ((c : Thread nD τ).loc main_arg6)) (m ((c : Thread nD τ).loc main_arg11)) (m ((c : Thread nD τ).loc main_arg12)))
    (Cert.ReferenceIdeal.ReadP.val_main_v29 (F := Ideal) (m ((c : Thread nD τ).loc main_arg1)) (m ((c : Thread nD τ).loc main_arg13))) (Cert.ReferenceIdeal.ReadP.val_main_v36 (F := Ideal) (m ((c : Thread nD τ).loc main_arg1)) (m ((c : Thread nD τ).loc main_arg13)))
    (Cert.ReferenceIdeal.ReadP.val_main_v22 (F := Ideal) (m ((c : Thread nD τ).loc main_arg0)) (m ((c : Thread nD τ).loc main_arg13))) (m ((c : Thread nD τ).loc main_arg2))

/-- The kernel program's result, from the argument arrays: the node update of the features and of the messages summed into
    their source nodes. -/
def kernelResult (c : Dev nD) : FVec Ideal ⟨2, ![50000, 128]⟩ .f32 :=
  nodeArr (nodeW (m ((c : Thread nD τ).loc main_arg7)) (m ((c : Thread nD τ).loc main_arg8)) (m ((c : Thread nD τ).loc main_arg9)) (m ((c : Thread nD τ).loc main_arg10))) (m ((c : Thread nD τ).loc main_arg1))
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (Cert.ReferenceIdeal.ReadP.val_main_v1 (F := Ideal) (m ((c : Thread nD τ).loc main_arg13))))
      (messages m c))

/-- What the first region leaves in its output array: the messages. -/
theorem message_value (c : Dev nD) : (dat0 (V1 m ρ) c).arrAt 13 cfg0.N = messages m c := by
  rw [edge_final (V1 m ρ) out0_13_eq c]
  unfold edgeResult edgeWeights messages
  rw [entry_weights m ρ c, entry_src m ρ c, entry_tgt m ρ c, entry_rad m ρ c, entry_att m ρ c]

/-- What the second region leaves in the result array. -/
theorem result_value (c : Dev nD) : W4 m ρ c (Proc.devRef .tc main_v67) = kernelResult m c := by
  rw [W4_result m ρ c, node_final (V3 m ρ) out1_7_eq c]
  unfold nodeResult nodeWeights kernelResult
  rw [mid_weights m ρ c, mid_h m ρ c, mid_ms m ρ c, message_value m ρ c]

/-- The kernel program's run, read: every weakly fair execution terminates with the result array at `kernelResult` of the
    arguments and the arguments as launched. -/
theorem run_value : θ_run defs (onTc (τ := τ) (main (F := Ideal))) ⟨m, fun _ => 0, ρ⟩ (fun r => ∀ c : Dev nD,
      r.2.mem ((c : Thread nD τ).loc main_v67) = kernelResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)) :=
  (θ_run defs _ _).mono (fun r h c => ⟨(h c).1.trans (result_value m ρ c), (h c).2⟩) (run m ρ)

end Cert.KernelIdeal.Hand

end
-- ==== Proof.RefBridge.lean ====
/-
  The reference program of one graph message-passing layer, read one row at a time over the extended reals.

  The program lays the four parts of an edge's input side by side (source features, target features, the distance, the
  attributes: 128 + 128 + 1 + 16 = 273 columns) and multiplies the 273-wide rows by the transposed first-layer matrix in
  one product. A sum over the 273 positions is the sum over the four ranges, in any commutative additive monoid, so the
  product is the four partial sums of the specification, up to one exchange of the last two summands. The remaining steps
  (bias, the unit s(z) = z · σ(z) in its quotient spelling, the second layer, the gate, the node network) are read entry by
  entry. The gathers, the distance and the scatter stay folded: both sides apply the row functions to the same arrays.
-/
import proofs.«143406_j15693810499839_2_alg».proof.Proof.RefStagesP
import proofs.«143406_j15693810499839_2_alg».proof.Proof.Spec
import proofs.«143406_j15693810499839_2_alg».proof.Proof.LibPlainDot
import proofs.«143406_j15693810499839_2_alg».proof.Proof.LibSplitLayer
import proofs.«143406_j15693810499839_2_alg».proof.Proof.LibSplitDot
import proofs.«143406_j15693810499839_2_alg».proof.Proof.LibSiluMlp
import proofs.«143406_j15693810499839_2_alg».proof.Proof.LibDenseRows
import proofs.«143406_j15693810499839_2_alg».proof.Proof.LibColumn
import Idealize.ShloMosaic.Lib.ValueLayout
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.ReadP Cert.GraphLayer Idealize.ShloMosaic Idealize.ShloMosaic.ValueIdx
open Idealize.ShloMosaic.SiluMlp

/-! ## A sum over 273 positions in its four ranges -/

/-- A sum over 273 = 128 + 128 + 1 + 16 positions is the sum over the first 128, the next 128, position 256 and the last 16. -/
theorem sum_four_ranges {M : Type*} [AddCommMonoid M] (f : Fin 273 → M) :
    ∑ k : Fin 273, f k
      = (((∑ k : Fin 128, f ⟨k.val, by omega⟩) + (∑ k : Fin 128, f ⟨128 + k.val, by omega⟩)) + f ⟨256, by omega⟩)
        + ∑ k : Fin 16, f ⟨257 + k.val, by omega⟩ := by
  refine (Fin.sum_univ_add (a := 128 + 128 + 1) (b := 16) f).trans ?_
  refine congrArg₂ (· + ·) ?_ rfl
  refine (Fin.sum_univ_add (a := 128 + 128) (b := 1) _).trans ?_
  refine congrArg₂ (· + ·) ?_ (Fin.sum_univ_one _)
  exact Fin.sum_univ_add (a := 128) (b := 128) _

/-! ## The four parts side by side, read in each range -/

section Parts

variable {A : Nat}

/-- The four parts laid side by side along the columns. -/
abbrev fourParts (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1) :
    FVec Ideal ⟨2, ![A, 273]⟩ .f32 :=
  concatenate ⟨2, ![A, 273]⟩ 1 [⟨⟨2, ![A, 128]⟩, HR⟩, ⟨⟨2, ![A, 128]⟩, HC⟩, ⟨⟨2, ![A, 1]⟩, RAD⟩, ⟨⟨2, ![A, 16]⟩, EA⟩] hcat

/-- Columns 0 … 127 are the source features. -/
theorem fourParts_source (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1)
    (e : Fin A) (k : Fin 128) (hk : k.val < 273) :
    fourParts HR HC RAD EA hcat (ix2 e (⟨k.val, hk⟩ : Fin 273)) = HR (ix2 e k) :=
  concatenate_apply_piece (α := Ideal .f32) (t := ⟨2, ![A, 273]⟩) 1
    [⟨⟨2, ![A, 128]⟩, HR⟩, ⟨⟨2, ![A, 128]⟩, HC⟩, ⟨⟨2, ![A, 1]⟩, RAD⟩, ⟨⟨2, ![A, 16]⟩, EA⟩] hcat _ 0 (show (0 : Nat) < 4 by decide) ⟨2, ![A, 128]⟩ HR rfl rfl 0 rfl (ix2 e k)
    (fun b hb => match b, hb with
      | ⟨0, _⟩, _ => rfl
      | ⟨1, _⟩, hb => absurd rfl hb)
    (Nat.zero_add _)

/-- Columns 128 … 255 are the target features. -/
theorem fourParts_target (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1)
    (e : Fin A) (k : Fin 128) (hk : 128 + k.val < 273) :
    fourParts HR HC RAD EA hcat (ix2 e (⟨128 + k.val, hk⟩ : Fin 273)) = HC (ix2 e k) :=
  concatenate_apply_piece (α := Ideal .f32) (t := ⟨2, ![A, 273]⟩) 1
    [⟨⟨2, ![A, 128]⟩, HR⟩, ⟨⟨2, ![A, 128]⟩, HC⟩, ⟨⟨2, ![A, 1]⟩, RAD⟩, ⟨⟨2, ![A, 16]⟩, EA⟩] hcat _ 1 (show (1 : Nat) < 4 by decide) ⟨2, ![A, 128]⟩ HC rfl rfl 128 rfl (ix2 e k)
    (fun b hb => match b, hb with
      | ⟨0, _⟩, _ => rfl
      | ⟨1, _⟩, hb => absurd rfl hb)
    rfl

/-- Column 256 is the distance. -/
theorem fourParts_distance (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1)
    (e : Fin A) (hk : 256 < 273) :
    fourParts HR HC RAD EA hcat (ix2 e (⟨256, hk⟩ : Fin 273)) = RAD (ix2 e (0 : Fin 1)) :=
  concatenate_apply_piece (α := Ideal .f32) (t := ⟨2, ![A, 273]⟩) 1
    [⟨⟨2, ![A, 128]⟩, HR⟩, ⟨⟨2, ![A, 128]⟩, HC⟩, ⟨⟨2, ![A, 1]⟩, RAD⟩, ⟨⟨2, ![A, 16]⟩, EA⟩] hcat _ 2 (show (2 : Nat) < 4 by decide) ⟨2, ![A, 1]⟩ RAD rfl rfl 256 rfl (ix2 e (0 : Fin 1))
    (fun b hb => match b, hb with
      | ⟨0, _⟩, _ => rfl
      | ⟨1, _⟩, hb => absurd rfl hb)
    rfl

/-- Columns 257 … 272 are the attributes. -/
theorem fourParts_attr (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1)
    (e : Fin A) (k : Fin 16) (hk : 257 + k.val < 273) :
    fourParts HR HC RAD EA hcat (ix2 e (⟨257 + k.val, hk⟩ : Fin 273)) = EA (ix2 e k) :=
  concatenate_apply_piece (α := Ideal .f32) (t := ⟨2, ![A, 273]⟩) 1
    [⟨⟨2, ![A, 128]⟩, HR⟩, ⟨⟨2, ![A, 128]⟩, HC⟩, ⟨⟨2, ![A, 1]⟩, RAD⟩, ⟨⟨2, ![A, 16]⟩, EA⟩] hcat _ 3 (show (3 : Nat) < 4 by decide) ⟨2, ![A, 16]⟩ EA rfl rfl 257 rfl (ix2 e k)
    (fun b hb => match b, hb with
      | ⟨0, _⟩, _ => rfl
      | ⟨1, _⟩, hb => absurd rfl hb)
    rfl

end Parts

/-! ## Host operations read at an entry -/

section Host

variable {A : Nat}

/-- A dense layer by the transposed weights (one row per output feature) with its bias lifted twice, at an entry. -/
theorem dense_apply {K M : Nat} (X : FVec Ideal ⟨2, ![A, K]⟩ .f32) (W : FVec Ideal ⟨2, ![M, K]⟩ .f32) (b : FVec Ideal ⟨1, ![M]⟩ .f32)
    (htr : (⟨2, ![M, K]⟩ : Shape).Transposes [1, 0] ⟨2, ![K, M]⟩)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (Host.dotGeneral (DotDims.plain A K M) none X (transpose ⟨2, ![K, M]⟩ [1, 0] W htr))
        (broadcastInDim ⟨2, ![A, M]⟩ ![0, 1] h2 (broadcastInDim ⟨2, ![1, M]⟩ ![1] h1 b)) (ix2 p q)
      = (∑ k : Fin K, X (ix2 p k) * W (ix2 q k)) + b (ix1 q) :=
  (addf_apply _ _ _).trans
    (congrArg₂ (· + ·) (SplitDot.dot_transposed none HostSchedule.single X W htr p q) (DenseRows.host_bias b h1 h2 p q))

/-- The logistic function in the host's quotient spelling, both ones a scalar 1.0 broadcast, at an index. -/
theorem logistic_host_apply {s : Shape} (h : FVec Ideal s .f32) (hb : (⟨0, ![]⟩ : Shape).BroadcastsInDim s ![]) (i : s.Idx) :
    Host.divf (broadcastInDim s ![] hb (constant (F := Ideal) ⟨0, ![]⟩ .f32 0x3F800000#32))
      (addf (broadcastInDim s ![] hb (constant (F := Ideal) ⟨0, ![]⟩ .f32 0x3F800000#32)) (Host.exp (Host.negf h))) i
      = Ideal.logistic (h i) := by
  have h1 : broadcastInDim s ![] hb (constant (F := Ideal) ⟨0, ![]⟩ .f32 0x3F800000#32) i = 1 := by
    rw [broadcastInDim_scalar_apply, constant_apply, Ideal.ofBits_one_f32]
  refine (hostDivf_apply _ _ _).trans ?_
  rw [addf_apply, h1]
  rfl

/-- The first edge layer before its activation: the 273-wide rows against the transposed matrix are the four partial sums,
    the attributes' and the distance's exchanged to the specification's order. -/
theorem first_layer_apply (x3 : FVec Ideal ⟨2, ![128, 273]⟩ .f32) (x4 : FVec Ideal ⟨1, ![128]⟩ .f32)
    (x5 : FVec Ideal ⟨2, ![128, 128]⟩ .f32) (x6 : FVec Ideal ⟨1, ![128]⟩ .f32) (x11 : FVec Ideal ⟨2, ![1, 128]⟩ .f32)
    (x12 : FVec Ideal ⟨1, ![1]⟩ .f32)
    (HR HC : FVec Ideal ⟨2, ![A, 128]⟩ .f32) (RAD : FVec Ideal ⟨2, ![A, 1]⟩ .f32) (EA : FVec Ideal ⟨2, ![A, 16]⟩ .f32)
    (hcat : Shape.Concatenates [(⟨2, ![A, 128]⟩ : Shape), ⟨2, ![A, 128]⟩, ⟨2, ![A, 1]⟩, ⟨2, ![A, 16]⟩] ⟨2, ![A, 273]⟩ 1)
    (htr : (⟨2, ![128, 273]⟩ : Shape).Transposes [1, 0] ⟨2, ![273, 128]⟩)
    (h1 : (⟨1, ![128]⟩ : Shape).BroadcastsInDim ⟨2, ![1, 128]⟩ ![1])
    (h2 : (⟨2, ![1, 128]⟩ : Shape).BroadcastsInDim ⟨2, ![A, 128]⟩ ![0, 1]) (e : Fin A) (q : Fin 128) :
    addf (Host.dotGeneral (DotDims.plain A 273 128) none (fourParts HR HC RAD EA hcat) (transpose ⟨2, ![273, 128]⟩ [1, 0] x3 htr))
        (broadcastInDim ⟨2, ![A, 128]⟩ ![0, 1] h2 (broadcastInDim ⟨2, ![1, 128]⟩ ![1] h1 x4)) (ix2 e q)
      = edgePre (edgeW x3 x4 x5 x6 x11 x12) (fun k => HR (ix2 e k)) (fun k => HC (ix2 e k)) (RAD (ix2 e (0 : Fin 1)))
          (fun k => EA (ix2 e k)) q := by
  unfold edgePre
  refine (dense_apply _ x3 x4 htr h1 h2 e q).trans (congrArg₂ (· + ·) ?_ rfl)
  refine (sum_four_ranges _).trans ((add_right_comm _ _ _).trans ?_)
  refine congrArg₂ (· + ·) (congrArg₂ (· + ·) (congrArg₂ (· + ·) ?_ ?_) ?_) ?_
  · exact Finset.sum_congr rfl fun k _ => congrArg (· * x3 (ix2 q _)) (fourParts_source HR HC RAD EA hcat e k _)
  · exact Finset.sum_congr rfl fun k _ => congrArg (· * x3 (ix2 q _)) (fourParts_target HR HC RAD EA hcat e k _)
  · exact Finset.sum_congr rfl fun k _ => congrArg (· * x3 (ix2 q _)) (fourParts_attr HR HC RAD EA hcat e k _)
  · exact congrArg (· * x3 (ix2 q _)) (fourParts_distance HR HC RAD EA hcat e _)

end Host

/-! ## The edge network of the reference program, row by row -/

section Message

variable (x0 : (⟨S50000x3, .f32⟩ : BufTy).Contents (Elt Ideal)) (x1 : (⟨S50000x128, .f32⟩ : BufTy).Contents (Elt Ideal))
  (x2 : (⟨S800000x16, .f32⟩ : BufTy).Contents (Elt Ideal)) (x3 : (⟨S128x273, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x11 : (⟨S1x128, .f32⟩ : BufTy).Contents (Elt Ideal))
  (x12 : (⟨S1, .f32⟩ : BufTy).Contents (Elt Ideal)) (x13 : (⟨S2x800000, .i32⟩ : BufTy).Contents (Elt Ideal))

/-- A row function of the specification at edge `e`: the weights read off the arguments, the edge's source and target
    features, its distance and its attributes read off the program's own arrays. -/
abbrev atEdge {α : Type} (f : EdgeW → (Fin 128 → EReal) → (Fin 128 → EReal) → EReal → (Fin 16 → EReal) → α) (e : Fin 800000) : α :=
  f (edgeW x3 x4 x5 x6 x11 x12) (fun k => val_main_v29 (F := Ideal) x1 x13 (ix2 e k))
    (fun k => val_main_v36 (F := Ideal) x1 x13 (ix2 e k)) (val_main_v22 (F := Ideal) x0 x13 (ix2 e (0 : Fin 1)))
    (fun k => x2 (ix2 e k))

/-- The first layer before its activation. -/
theorem pre_row (e : Fin 800000) (q : Fin 128) :
    val_main_v42 (F := Ideal) x0 x1 x2 x3 x4 x13 (ix2 e q) = atEdge x0 x1 x2 x3 x4 x5 x6 x11 x12 x13 edgePre e q := by
  unfold val_main_v42 val_main_v41 val_main_v40 val_main_v39 val_main_v38 val_main_v37
  exact first_layer_apply x3 x4 x5 x6 x11 x12 _ _ _ x2 _ _ _ _ e q

/-- The first layer: the unit in its quotient spelling on the pre-activation. -/
theorem hid_row (e : Fin 800000) (q : Fin 128) :
    val_main_v43 (F := Ideal) x0 x1 x2 x3 x4 x13 (ix2 e q) = atEdge x0 x1 x2 x3 x4 x5 x6 x11 x12 x13 edgeHid e q := by
  unfold val_main_v43 val_main_call0_v5 val_main_call0_v4 val_main_call0_cst_0 val_main_call0_v3 val_main_call0_v2
    val_main_call0_cst val_main_call0_v1 val_main_call0_v0
  exact (silu_host_apply _ _ (ix2 e q)).trans (congrArg silu (pre_row x0 x1 x2 x3 x4 x5 x6 x11 x12 x13 e q))

/-- The second layer. -/
theorem out_row (e : Fin 800000) (q : Fin 128) :
    val_main_v49 (F := Ideal) x0 x1 x2 x3 x4 x5 x6 x13 (ix2 e q) = atEdge x0 x1 x2 x3 x4 x5 x6 x11 x12 x13 edgeOut e q := by
  unfold val_main_v49 val_main_call1_v5 val_main_call1_v4 val_main_call1_cst_0 val_main_call1_v3 val_main_call1_v2
    val_main_call1_cst val_main_call1_v1 val_main_call1_v0
  refine (silu_host_apply _ _ (ix2 e q)).trans (congrArg silu ?_)
  unfold val_main_v48 val_main_v47 val_main_v46 val_main_v45 val_main_v44
  refine (dense_apply _ x5 x6 _ _ _ e q).trans (congrArg₂ (· + ·) ?_ rfl)
  exact Finset.sum_congr rfl fun k _ => congrArg (· * x5 (ix2 q k)) (hid_row x0 x1 x2 x3 x4 x5 x6 x11 x12 x13 e k)

/-- The attention gate: one dense output, then the logistic function in its quotient spelling. -/
theorem gate_row (e : Fin 800000) :
    val_main_v60 (F := Ideal) x0 x1 x2 x3 x4 x5 x6 x11 x12 x13 (ix2 e (0 : Fin 1)) = atEdge x0 x1 x2 x3 x4 x5 x6 x11 x12 x13 edgeGate e := by
  unfold val_main_v60 val_main_v59 val_main_cst_8 val_main_v58 val_main_v57 val_main_cst_7 val_main_v56 val_main_v55
  refine (logistic_host_apply _ _ (ix2 e (0 : Fin 1))).trans (congrArg Ideal.logistic ?_)
  unfold val_main_v54 val_main_v53 val_main_v52 val_main_v51 val_main_v50
  refine (dense_apply _ x11 x12 _ _ _ e (0 : Fin 1)).trans (congrArg₂ (· + ·) ?_ rfl)
  exact Finset.sum_congr rfl fun k _ => congrArg (· * x11 (ix2 (0 : Fin 1) k)) (out_row x0 x1 x2 x3 x4 x5 x6 x11 x12 x13 e k)

/-- The message: the second layer's output times the gate, the gate's column repeated along the features. -/
theorem msg_row (e : Fin 800000) (q : Fin 128) :
    val_main_v62 (F := Ideal) x0 x1 x2 x3 x4 x5 x6 x11 x12 x13 (ix2 e q) = atEdge x0 x1 x2 x3 x4 x5 x6 x11 x12 x13 edgeMsg e q := by
  unfold val_main_v62
  refine (mulf_apply _ _ _).trans (congrArg₂ (· * ·) (out_row x0 x1 x2 x3 x4 x5 x6 x11 x12 x13 e q) ?_)
  refine (val_main_v61_apply x0 x1 x2 x3 x4 x5 x6 x11 x12 x13 (ix2 e q)).trans ?_
  refine (congrArg (val_main_v60 (F := Ideal) x0 x1 x2 x3 x4 x5 x6 x11 x12 x13)
    (?_ : idx_main_v61 (ix2 e q) = ix2 e (0 : Fin 1))).trans (gate_row x0 x1 x2 x3 x4 x5 x6 x11 x12 x13 e)
  exact funext fun a => match a with
    | ⟨0, _⟩ => rfl
    | ⟨1, _⟩ => rfl

end Message

/-- The reference's message array is the specification's, on the program's own gathered features and distance. -/
theorem message_eq (x0 : (⟨S50000x3, .f32⟩ : BufTy).Contents (Elt Ideal)) (x1 : (⟨S50000x128, .f32⟩ : BufTy).Contents (Elt Ideal))
    (x2 : (⟨S800000x16, .f32⟩ : BufTy).Contents (Elt Ideal)) (x3 : (⟨S128x273, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x11 : (⟨S1x128, .f32⟩ : BufTy).Contents (Elt Ideal))
    (x12 : (⟨S1, .f32⟩ : BufTy).Contents (Elt Ideal)) (x13 : (⟨S2x800000, .i32⟩ : BufTy).Contents (Elt Ideal)) :
    val_main_v62 (F := Ideal) x0 x1 x2 x3 x4 x5 x6 x11 x12 x13
      = msgArr (edgeW x3 x4 x5 x6 x11 x12) (val_main_v29 (F := Ideal) x1 x13) (val_main_v36 (F := Ideal) x1 x13)
          (val_main_v22 (F := Ideal) x0 x13) x2 := by
  funext i
  obtain ⟨e, q, rfl⟩ : ∃ (e : Fin 800000) (q : Fin 128), i = ix2 e q := ⟨i 0, i 1, eq_ix2 i⟩
  exact (msg_row x0 x1 x2 x3 x4 x5 x6 x11 x12 x13 e q).trans (msgArr_ix2 _ _ _ _ _ e q).symm

/-! ## The node network of the reference program, row by row -/

section Node

variable (x0 : (⟨S50000x3, .f32⟩ : BufTy).Contents (Elt Ideal)) (x1 : (⟨S50000x128, .f32⟩ : BufTy).Contents (Elt Ideal))
  (x2 : (⟨S800000x16, .f32⟩ : BufTy).Contents (Elt Ideal)) (x3 : (⟨S128x273, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x256, .f32⟩ : BufTy).Contents (Elt Ideal))
  (x8 : (⟨S128, .f32⟩ : BufTy).Contents (Elt Ideal)) (x9 : (⟨S128x128, .f32⟩ : BufTy).Contents (Elt Ideal))
  (x10 : (⟨S128, .f32⟩ : BufTy).Contents (Elt Ideal)) (x11 : (⟨S1x128, .f32⟩ : BufTy).Contents (Elt Ideal))
  (x12 : (⟨S1, .f32⟩ : BufTy).Contents (Elt Ideal)) (x13 : (⟨S2x800000, .i32⟩ : BufTy).Contents (Elt Ideal))

/-- The node network's first layer: the node's features and its summed messages side by side against the transposed
    256-column matrix are the two partial sums. -/
theorem node_hid_row (p : Fin 50000) (q : Fin 128) :
    val_main_v72 (F := Ideal) x0 x1 x2 x3 x4 x5 x6 x7 x8 x11 x12 x13 (ix2 p q)
      = nodeHid (nodeW x7 x8 x9 x10) (fun k => x1 (ix2 p k))
          (fun k => val_main_v65 (F := Ideal) x0 x1 x2 x3 x4 x5 x6 x11 x12 x13 (ix2 p k)) q := by
  unfold val_main_v72 val_main_call2_v5 val_main_call2_v4 val_main_call2_cst_0 val_main_call2_v3 val_main_call2_v2
    val_main_call2_cst val_main_call2_v1 val_main_call2_v0
  refine (silu_host_apply _ _ (ix2 p q)).trans (congrArg silu ?_)
  unfold val_main_v71 val_main_v70 val_main_v69 val_main_v68 val_main_v67 val_main_v66
  refine (addf_apply _ _ _).trans (congrArg₂ (· + ·) ?_ (DenseRows.host_bias x8 _ _ p q))
  exact SplitDot.split_dot (K₁ := 128) (K₂ := 128) none HostSchedule.single x1 _ x7 _ _ p q

/-- The node network's second layer and the residual. -/
theorem result_row (p : Fin 50000) (q : Fin 128) :
    val_main_v78 (F := Ideal) x0 x1 x2 x3 x4 x5 x6 x7 x8 x9 x10 x11 x12 x13 (ix2 p q)
      = nodeOut (nodeW x7 x8 x9 x10) (fun k => x1 (ix2 p k))
          (fun k => val_main_v65 (F := Ideal) x0 x1 x2 x3 x4 x5 x6 x11 x12 x13 (ix2 p k)) q := by
  unfold val_main_v78 val_main_v77 val_main_v76 val_main_v75 val_main_v74 val_main_v73
  refine (addf_apply _ _ _).trans (congrArg₂ (· + ·) rfl ?_)
  refine (dense_apply _ x9 x10 _ _ _ p q).trans (congrArg₂ (· + ·) ?_ rfl)
  exact Finset.sum_congr rfl fun k _ => congrArg (· * x9 (ix2 q k)) (node_hid_row x0 x1 x2 x3 x4 x5 x6 x7 x8 x9 x10 x11 x12 x13 p k)

end Node

/-- The reference's result is the specification's node update, on the program's own scattered sum of the messages. -/
theorem result_eq (x0 : (⟨S50000x3, .f32⟩ : BufTy).Contents (Elt Ideal)) (x1 : (⟨S50000x128, .f32⟩ : BufTy).Contents (Elt Ideal))
    (x2 : (⟨S800000x16, .f32⟩ : BufTy).Contents (Elt Ideal)) (x3 : (⟨S128x273, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x256, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S1x128, .f32⟩ : BufTy).Contents (Elt Ideal))
    (x12 : (⟨S1, .f32⟩ : BufTy).Contents (Elt Ideal)) (x13 : (⟨S2x800000, .i32⟩ : BufTy).Contents (Elt Ideal)) :
    val_main_v78 (F := Ideal) x0 x1 x2 x3 x4 x5 x6 x7 x8 x9 x10 x11 x12 x13
      = nodeArr (nodeW x7 x8 x9 x10) x1 (val_main_v65 (F := Ideal) x0 x1 x2 x3 x4 x5 x6 x11 x12 x13) := by
  funext i
  obtain ⟨p, q, rfl⟩ : ∃ (p : Fin 50000) (q : Fin 128), i = ix2 p q := ⟨i 0, i 1, eq_ix2 i⟩
  exact (result_row x0 x1 x2 x3 x4 x5 x6 x7 x8 x9 x10 x11 x12 x13 p q).trans (nodeArr_ix2 _ _ _ p q).symm

end Cert.ReferenceIdeal.RefValue

end
-- ==== Proof.RefRun.lean ====
/-
  The reference program's run, stated at its last stage.

  The reference's @main is a line of 115 host operations; after it, each buffer holds the value the operations compose from
  the arguments' launch contents. The composed term is not written out: an activation s(z) = z · (1 / (1 + exp (−z))) reads
  its argument twice, so a closed term across the three activations in a row would repeat the first layer eight times and
  more. Instead the line is cut into seven segments, before each activation and before each concatenation; the contents
  after two lines in a row are the second line's from the first line's, so each segment is read from ANY contents, given
  what the buffers it reads hold, and yields what the buffers the next segments read hold: the stages `val_main_vN` of the
  arguments. Chained, the result buffer holds `val_main_v78` of the arguments; the arguments themselves are written by
  no operation.
-/
import proofs.«143406_j15693810499839_2_alg».proof.Proof.RefOps
import proofs.«143406_j15693810499839_2_alg».proof.Proof.RefStagesP
import Idealize.ShloMosaic.Lib.StableHlo.Run

noncomputable section

namespace Cert.ReferenceIdeal.RefRun

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

/-! ## Cutting a line of operations -/

/-- The contents after two lines run one after the other: the second line's, from the first line's. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- A line cut after its first `k` operations. -/
theorem after_cut (k : Nat) (l : List (HloOp τ sig (Elt Ideal))) (V : Valuation τ sig (Elt Ideal)) :
    after l V = after (l.drop k) (after (l.take k) V) := by
  rw [← after_append, List.take_append_drop]

/-! The reference's 115 operations are cut where a value is about to be used more than once, and before each
    concatenation. Each activation `s(z) = z · (1 / (1 + exp (−z)))` reads its argument twice, so a term composed across it
    would hold the argument's term twice, and across the three activations in a row eight times: cut before each
    activation, every segment reads the values it needs as given contents and composes nothing twice. A concatenation keeps
    its operands as a list of (shape, array) pairs: cut just before it, its operands are given contents too. The seven
    segments: the gathered features, the distance and the source indices (46 operations); the first edge layer before its
    activation (6); its activation and the second layer before its activation (14); that activation (9); the gate, the
    messages and their sum at the nodes (19); the node network's first layer before its activation (6); that activation, the
    second layer and the residual (15). -/

def seg1a : List (HloOp τ sig (Elt Ideal)) := (ops (F := Ideal)).take 46
def rest1a : List (HloOp τ sig (Elt Ideal)) := (ops (F := Ideal)).drop 46
def seg1b : List (HloOp τ sig (Elt Ideal)) := rest1a.take 6
def rest1b : List (HloOp τ sig (Elt Ideal)) := rest1a.drop 6
def seg2 : List (HloOp τ sig (Elt Ideal)) := rest1b.take 14
def rest2 : List (HloOp τ sig (Elt Ideal)) := rest1b.drop 14
def seg3 : List (HloOp τ sig (Elt Ideal)) := rest2.take 9
def rest3 : List (HloOp τ sig (Elt Ideal)) := rest2.drop 9
def seg4a : List (HloOp τ sig (Elt Ideal)) := rest3.take 19
def rest4a : List (HloOp τ sig (Elt Ideal)) := rest3.drop 19
def seg4b : List (HloOp τ sig (Elt Ideal)) := rest4a.take 6
def seg5 : List (HloOp τ sig (Elt Ideal)) := rest4a.drop 6

/-- The whole line is the seven segments in order. -/
theorem after_ops_cut (V : Valuation τ sig (Elt Ideal)) :
    after (ops (F := Ideal)) V
      = after seg5 (after seg4b (after seg4a (after seg3 (after seg2 (after seg1b (after seg1a V)))))) :=
  (after_cut 46 _ V).trans ((after_cut 6 rest1a _).trans ((after_cut 14 rest1b _).trans ((after_cut 9 rest2 _).trans
    ((after_cut 19 rest3 _).trans (after_cut 6 rest4a _)))))

/-! ## The first segment: the gathered features, the distance, the source indices -/

set_option maxRecDepth 8192 in
set_option maxHeartbeats 4000000 in
/-- The source nodes' features gathered along the edges. -/
theorem seg1a_v29 (V : Valuation τ sig (Elt Ideal)) (x1 : (⟨S50000x128, .f32⟩ : BufTy).Contents (Elt Ideal)) (x13 : (⟨S2x800000, .i32⟩ : BufTy).Contents (Elt Ideal))
    (h1 : V (Proc.devRef .tc main_arg1) = x1) (h13 : V (Proc.devRef .tc main_arg13) = x13) :
    after seg1a V (Proc.devRef .tc main_v29) = val_main_v29 (F := Ideal) x1 x13 := by
  simp only [seg1a, ops, List.take, List.drop]
  after_results_simp
  simp only [h1, h13]
  rfl

set_option maxRecDepth 8192 in
set_option maxHeartbeats 4000000 in
/-- The target nodes' features gathered along the edges. -/
theorem seg1a_v36 (V : Valuation τ sig (Elt Ideal)) (x1 : (⟨S50000x128, .f32⟩ : BufTy).Contents (Elt Ideal)) (x13 : (⟨S2x800000, .i32⟩ : BufTy).Contents (Elt Ideal))
    (h1 : V (Proc.devRef .tc main_arg1) = x1) (h13 : V (Proc.devRef .tc main_arg13) = x13) :
    after seg1a V (Proc.devRef .tc main_v36) = val_main_v36 (F := Ideal) x1 x13 := by
  simp only [seg1a, ops, List.take, List.drop]
  after_results_simp
  simp only [h1, h13]
  rfl

set_option maxRecDepth 8192 in
set_option maxHeartbeats 4000000 in
/-- The distance between the two nodes of each edge. -/
theorem seg1a_v22 (V : Valuation τ sig (Elt Ideal)) (x0 : (⟨S50000x3, .f32⟩ : BufTy).Contents (Elt Ideal)) (x13 : (⟨S2x800000, .i32⟩ : BufTy).Contents (Elt Ideal))
    (h0 : V (Proc.devRef .tc main_arg0) = x0) (h13 : V (Proc.devRef .tc main_arg13) = x13) :
    after seg1a V (Proc.devRef .tc main_v22) = val_main_v22 (F := Ideal) x0 x13 := by
  simp only [seg1a, ops, List.take, List.drop]
  after_results_simp
  simp only [h0, h13]
  rfl

set_option maxRecDepth 8192 in
set_option maxHeartbeats 4000000 in
/-- The edges' source indices. -/
theorem seg1a_v1 (V : Valuation τ sig (Elt Ideal)) (x13 : (⟨S2x800000, .i32⟩ : BufTy).Contents (Elt Ideal))
    (h13 : V (Proc.devRef .tc main_arg13) = x13) :
    after seg1a V (Proc.devRef .tc main_v1) = val_main_v1 (F := Ideal) x13 := by
  simp only [seg1a, ops, List.take, List.drop]
  after_results_simp
  simp only [h13]
  rfl

set_option maxRecDepth 8192 in
set_option maxHeartbeats 4000000 in
/-- The first segment writes no argument. -/
theorem seg1a_keep (V : Valuation τ sig (Elt Ideal)) (r : Ref sig .tc)
    (hr : r = main_arg1 ∨ r = main_arg2 ∨ r = main_arg3 ∨ r = main_arg4 ∨ r = main_arg5 ∨ r = main_arg6 ∨ r = main_arg7 ∨ r = main_arg8 ∨ r = main_arg9 ∨ r = main_arg10 ∨ r = main_arg11 ∨ r = main_arg12) :
    after seg1a V (Proc.devRef .tc r) = V (Proc.devRef .tc r) := by
  rcases hr with rfl | rfl | rfl | rfl | rfl | rfl | rfl | rfl | rfl | rfl | rfl | rfl <;>
    (simp only [seg1a, ops, List.take, List.drop]
     after_results_simp)

/-! ## The second segment: the four parts side by side, the first edge layer before its activation -/

set_option maxRecDepth 8192 in
set_option maxHeartbeats 4000000 in
/-- The first edge layer before its activation, from the gathered features, the distance, the attributes and the weights. -/
theorem seg1b_v42 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x13 : (⟨S2x800000, .i32⟩ : BufTy).Contents (Elt Ideal))
    (h29 : V (Proc.devRef .tc main_v29) = val_main_v29 (F := Ideal) x1 x13) (h36 : V (Proc.devRef .tc main_v36) = val_main_v36 (F := Ideal) x1 x13)
    (h22 : V (Proc.devRef .tc main_v22) = val_main_v22 (F := Ideal) x0 x13)
    (h2 : V (Proc.devRef .tc main_arg2) = x2) (h3 : V (Proc.devRef .tc main_arg3) = x3) (h4 : V (Proc.devRef .tc main_arg4) = x4) :
    after seg1b V (Proc.devRef .tc main_v42) = val_main_v42 (F := Ideal) x0 x1 x2 x3 x4 x13 := by
  simp only [seg1b, rest1a, ops, List.take, List.drop]
  after_results_simp
  unfold val_main_v42 val_main_v41 val_main_v40 val_main_v39 val_main_v38 val_main_v37
  rw [← h29, ← h36, ← h22]
  subst h2 h3 h4
  rfl

set_option maxRecDepth 8192 in
set_option maxHeartbeats 4000000 in
/-- The second segment writes neither the source indices nor the arguments read later. -/
theorem seg1b_keep (V : Valuation τ sig (Elt Ideal)) (r : Ref sig .tc)
    (hr : r = main_v1 ∨ r = main_arg1 ∨ r = main_arg5 ∨ r = main_arg6 ∨ r = main_arg7 ∨ r = main_arg8 ∨ r = main_arg9 ∨ r = main_arg10 ∨ r = main_arg11 ∨ r = main_arg12) :
    after seg1b V (Proc.devRef .tc r) = V (Proc.devRef .tc r) := by
  rcases hr with rfl | rfl | rfl | rfl | rfl | rfl | rfl | rfl | rfl | rfl <;>
    (simp only [seg1b, rest1a, ops, List.take, List.drop]
     after_results_simp)

/-! ## The third segment: the first activation and the second edge layer before its activation -/

set_option maxRecDepth 8192 in
set_option maxHeartbeats 4000000 in
/-- The second edge layer before its activation, from the first layer before its activation and the layer's weights. -/
theorem seg2_v48 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S2x800000, .i32⟩ : BufTy).Contents (Elt Ideal))
    (h42 : V (Proc.devRef .tc main_v42) = val_main_v42 (F := Ideal) x0 x1 x2 x3 x4 x13)
    (h5 : V (Proc.devRef .tc main_arg5) = x5) (h6 : V (Proc.devRef .tc main_arg6) = x6) :
    after seg2 V (Proc.devRef .tc main_v48) = val_main_v48 (F := Ideal) x0 x1 x2 x3 x4 x5 x6 x13 := by
  simp only [seg2, rest1b, rest1a, ops, List.take, List.drop]
  after_results_simp
  simp only [h42, h5, h6]
  rfl

set_option maxRecDepth 8192 in
set_option maxHeartbeats 4000000 in
/-- The third segment writes neither the source indices nor the arguments read later. -/
theorem seg2_keep (V : Valuation τ sig (Elt Ideal)) (r : Ref sig .tc)
    (hr : r = main_v1 ∨ r = main_arg1 ∨ r = main_arg7 ∨ r = main_arg8 ∨ r = main_arg9 ∨ r = main_arg10 ∨ r = main_arg11 ∨ r = main_arg12) :
    after seg2 V (Proc.devRef .tc r) = V (Proc.devRef .tc r) := by
  rcases hr with rfl | rfl | rfl | rfl | rfl | rfl | rfl | rfl <;>
    (simp only [seg2, rest1b, rest1a, ops, List.take, List.drop]
     after_results_simp)

/-! ## The fourth segment: the second activation -/

set_option maxRecDepth 8192 in
set_option maxHeartbeats 4000000 in
/-- The second edge layer, from itself before its activation. -/
theorem seg3_v49 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x13 : (⟨S2x800000, .i32⟩ : BufTy).Contents (Elt Ideal))
    (h48 : V (Proc.devRef .tc main_v48) = val_main_v48 (F := Ideal) x0 x1 x2 x3 x4 x5 x6 x13) :
    after seg3 V (Proc.devRef .tc main_v49) = val_main_v49 (F := Ideal) x0 x1 x2 x3 x4 x5 x6 x13 := by
  simp only [seg3, rest2, rest1b, rest1a, ops, List.take, List.drop]
  after_results_simp
  simp only [h48]
  rfl

set_option maxRecDepth 8192 in
set_option maxHeartbeats 4000000 in
/-- The fourth segment writes neither the source indices nor the arguments read later. -/
theorem seg3_keep (V : Valuation τ sig (Elt Ideal)) (r : Ref sig .tc)
    (hr : r = main_v1 ∨ r = main_arg1 ∨ r = main_arg7 ∨ r = main_arg8 ∨ r = main_arg9 ∨ r = main_arg10 ∨ r = main_arg11 ∨ r = main_arg12) :
    after seg3 V (Proc.devRef .tc r) = V (Proc.devRef .tc r) := by
  rcases hr with rfl | rfl | rfl | rfl | rfl | rfl | rfl | rfl <;>
    (simp only [seg3, rest2, rest1b, rest1a, ops, List.take, List.drop]
     after_results_simp)

/-! ## The fifth segment: the gate, the messages, their sum at the nodes -/

set_option maxRecDepth 8192 in
set_option maxHeartbeats 4000000 in
/-- The messages summed at their source nodes, from the second edge layer, the source indices and the gate's weights. -/
theorem seg4a_v65 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal))
    (h49 : V (Proc.devRef .tc main_v49) = val_main_v49 (F := Ideal) x0 x1 x2 x3 x4 x5 x6 x13)
    (hv1 : V (Proc.devRef .tc main_v1) = val_main_v1 (F := Ideal) x13)
    (h11 : V (Proc.devRef .tc main_arg11) = x11) (h12 : V (Proc.devRef .tc main_arg12) = x12) :
    after seg4a V (Proc.devRef .tc main_v65) = val_main_v65 (F := Ideal) x0 x1 x2 x3 x4 x5 x6 x11 x12 x13 := by
  simp only [seg4a, rest3, rest2, rest1b, rest1a, ops, List.take, List.drop]
  after_results_simp
  simp only [h49, hv1, h11, h12]
  rfl

set_option maxRecDepth 8192 in
set_option maxHeartbeats 4000000 in
/-- The fifth segment writes none of the arguments read later. -/
theorem seg4a_keep (V : Valuation τ sig (Elt Ideal)) (r : Ref sig .tc)
    (hr : r = main_arg1 ∨ r = main_arg7 ∨ r = main_arg8 ∨ r = main_arg9 ∨ r = main_arg10) :
    after seg4a V (Proc.devRef .tc r) = V (Proc.devRef .tc r) := by
  rcases hr with rfl | rfl | rfl | rfl | rfl <;>
    (simp only [seg4a, rest3, rest2, rest1b, rest1a, ops, List.take, List.drop]
     after_results_simp)

/-! ## The sixth segment: the node network's first layer before its activation -/

set_option maxRecDepth 8192 in
set_option maxHeartbeats 4000000 in
/-- The node network's first layer before its activation, from the nodes' features, the summed messages and the weights. -/
theorem seg4b_v71 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal))
    (h65 : V (Proc.devRef .tc main_v65) = val_main_v65 (F := Ideal) x0 x1 x2 x3 x4 x5 x6 x11 x12 x13)
    (h1 : V (Proc.devRef .tc main_arg1) = x1) (h7 : V (Proc.devRef .tc main_arg7) = x7) (h8 : V (Proc.devRef .tc main_arg8) = x8) :
    after seg4b V (Proc.devRef .tc main_v71) = val_main_v71 (F := Ideal) x0 x1 x2 x3 x4 x5 x6 x7 x8 x11 x12 x13 := by
  simp only [seg4b, rest4a, rest3, rest2, rest1b, rest1a, ops, List.take, List.drop]
  after_results_simp
  unfold val_main_v71 val_main_v70 val_main_v69 val_main_v68 val_main_v67 val_main_v66
  rw [← h65]
  subst h1 h7 h8
  rfl

set_option maxRecDepth 8192 in
set_option maxHeartbeats 4000000 in
/-- The sixth segment writes none of the arguments read later. -/
theorem seg4b_keep (V : Valuation τ sig (Elt Ideal)) (r : Ref sig .tc)
    (hr : r = main_arg1 ∨ r = main_arg9 ∨ r = main_arg10) :
    after seg4b V (Proc.devRef .tc r) = V (Proc.devRef .tc r) := by
  rcases hr with rfl | rfl | rfl <;>
    (simp only [seg4b, rest4a, rest3, rest2, rest1b, rest1a, ops, List.take, List.drop]
     after_results_simp)

/-! ## The seventh segment: the third activation, the node network's second layer, the residual -/

set_option maxRecDepth 8192 in
set_option maxHeartbeats 4000000 in
/-- The result, from the node network's first layer before its activation, the second layer's weights and the nodes' features. -/
theorem seg5_v78 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal))
    (h71 : V (Proc.devRef .tc main_v71) = val_main_v71 (F := Ideal) x0 x1 x2 x3 x4 x5 x6 x7 x8 x11 x12 x13)
    (h1 : V (Proc.devRef .tc main_arg1) = x1) (h9 : V (Proc.devRef .tc main_arg9) = x9) (h10 : V (Proc.devRef .tc main_arg10) = x10) :
    after seg5 V (Proc.devRef .tc main_v78) = val_main_v78 (F := Ideal) x0 x1 x2 x3 x4 x5 x6 x7 x8 x9 x10 x11 x12 x13 := by
  simp only [seg5, rest4a, rest3, rest2, rest1b, rest1a, ops, List.take, List.drop]
  after_results_simp
  simp only [h71, h1, h9, h10]
  rfl

/-! ## The whole line -/

/-- The result buffer after the whole line is the last stage of the arguments: the segments' facts chained, each segment
    reading what the one before it left. -/
theorem after_ops_v78 (V : Valuation τ sig (Elt Ideal)) (x0 : (⟨S50000x3, .f32⟩ : BufTy).Contents (Elt Ideal)) (x1 : (⟨S50000x128, .f32⟩ : BufTy).Contents (Elt Ideal)) (x2 : (⟨S800000x16, .f32⟩ : BufTy).Contents (Elt Ideal)) (x3 : (⟨S128x273, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S128x256, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S1x128, .f32⟩ : BufTy).Contents (Elt Ideal)) (x12 : (⟨S1, .f32⟩ : BufTy).Contents (Elt Ideal)) (x13 : (⟨S2x800000, .i32⟩ : BufTy).Contents (Elt Ideal))
    (h0 : V (Proc.devRef .tc main_arg0) = x0) (h1 : V (Proc.devRef .tc main_arg1) = x1) (h2 : V (Proc.devRef .tc main_arg2) = x2) (h3 : V (Proc.devRef .tc main_arg3) = x3) (h4 : V (Proc.devRef .tc main_arg4) = x4) (h5 : V (Proc.devRef .tc main_arg5) = x5) (h6 : V (Proc.devRef .tc main_arg6) = x6) (h7 : V (Proc.devRef .tc main_arg7) = x7) (h8 : V (Proc.devRef .tc main_arg8) = x8) (h9 : V (Proc.devRef .tc main_arg9) = x9) (h10 : V (Proc.devRef .tc main_arg10) = x10) (h11 : V (Proc.devRef .tc main_arg11) = x11) (h12 : V (Proc.devRef .tc main_arg12) = x12) (h13 : V (Proc.devRef .tc main_arg13) = x13) :
    after (ops (F := Ideal)) V (Proc.devRef .tc main_v78) = val_main_v78 (F := Ideal) x0 x1 x2 x3 x4 x5 x6 x7 x8 x9 x10 x11 x12 x13 := by
  rw [after_ops_cut]
  have s1_1 : (after seg1a V) (Proc.devRef .tc main_arg1) = x1 := (seg1a_keep V main_arg1 (Or.inl rfl)).trans h1
  have s1_2 : (after seg1a V) (Proc.devRef .tc main_arg2) = x2 := (seg1a_keep V main_arg2 (Or.inr (Or.inl rfl))).trans h2
  have s1_3 : (after seg1a V) (Proc.devRef .tc main_arg3) = x3 := (seg1a_keep V main_arg3 (Or.inr (Or.inr (Or.inl rfl)))).trans h3
  have s1_4 : (after seg1a V) (Proc.devRef .tc main_arg4) = x4 := (seg1a_keep V main_arg4 (Or.inr (Or.inr (Or.inr (Or.inl rfl))))).trans h4
  have s1_5 : (after seg1a V) (Proc.devRef .tc main_arg5) = x5 := (seg1a_keep V main_arg5 (Or.inr (Or.inr (Or.inr (Or.inr (Or.inl rfl)))))).trans h5
  have s1_6 : (after seg1a V) (Proc.devRef .tc main_arg6) = x6 := (seg1a_keep V main_arg6 (Or.inr (Or.inr (Or.inr (Or.inr (Or.inr (Or.inl rfl))))))).trans h6
  have s1_7 : (after seg1a V) (Proc.devRef .tc main_arg7) = x7 := (seg1a_keep V main_arg7 (Or.inr (Or.inr (Or.inr (Or.inr (Or.inr (Or.inr (Or.inl rfl)))))))).trans h7
  have s1_8 : (after seg1a V) (Proc.devRef .tc main_arg8) = x8 := (seg1a_keep V main_arg8 (Or.inr (Or.inr (Or.inr (Or.inr (Or.inr (Or.inr (Or.inr (Or.inl rfl))))))))).trans h8
  have s1_9 : (after seg1a V) (Proc.devRef .tc main_arg9) = x9 := (seg1a_keep V main_arg9 (Or.inr (Or.inr (Or.inr (Or.inr (Or.inr (Or.inr (Or.inr (Or.inr (Or.inl rfl)))))))))).trans h9
  have s1_10 : (after seg1a V) (Proc.devRef .tc main_arg10) = x10 := (seg1a_keep V main_arg10 (Or.inr (Or.inr (Or.inr (Or.inr (Or.inr (Or.inr (Or.inr (Or.inr (Or.inr (Or.inl rfl))))))))))).trans h10
  have s1_11 : (after seg1a V) (Proc.devRef .tc main_arg11) = x11 := (seg1a_keep V main_arg11 (Or.inr (Or.inr (Or.inr (Or.inr (Or.inr (Or.inr (Or.inr (Or.inr (Or.inr (Or.inr (Or.inl rfl)))))))))))).trans h11
  have s1_12 : (after seg1a V) (Proc.devRef .tc main_arg12) = x12 := (seg1a_keep V main_arg12 (Or.inr (Or.inr (Or.inr (Or.inr (Or.inr (Or.inr (Or.inr (Or.inr (Or.inr (Or.inr (Or.inr rfl)))))))))))).trans h12
  have s1_v29 := seg1a_v29 V x1 x13 h1 h13
  have s1_v36 := seg1a_v36 V x1 x13 h1 h13
  have s1_v22 := seg1a_v22 V x0 x13 h0 h13
  have s1_v1 := seg1a_v1 V x13 h13
  have s2_v42 := seg1b_v42 (after seg1a V) x0 x1 x2 x3 x4 x13 s1_v29 s1_v36 s1_v22 s1_2 s1_3 s1_4
  have s2_v1 : (after seg1b (after seg1a V)) (Proc.devRef .tc main_v1) = val_main_v1 (F := Ideal) x13 := (seg1b_keep (after seg1a V) main_v1 (Or.inl rfl)).trans s1_v1
  have s2_1 : (after seg1b (after seg1a V)) (Proc.devRef .tc main_arg1) = x1 := (seg1b_keep (after seg1a V) main_arg1 (Or.inr (Or.inl rfl))).trans s1_1
  have s2_5 : (after seg1b (after seg1a V)) (Proc.devRef .tc main_arg5) = x5 := (seg1b_keep (after seg1a V) main_arg5 (Or.inr (Or.inr (Or.inl rfl)))).trans s1_5
  have s2_6 : (after seg1b (after seg1a V)) (Proc.devRef .tc main_arg6) = x6 := (seg1b_keep (after seg1a V) main_arg6 (Or.inr (Or.inr (Or.inr (Or.inl rfl))))).trans s1_6
  have s2_7 : (after seg1b (after seg1a V)) (Proc.devRef .tc main_arg7) = x7 := (seg1b_keep (after seg1a V) main_arg7 (Or.inr (Or.inr (Or.inr (Or.inr (Or.inl rfl)))))).trans s1_7
  have s2_8 : (after seg1b (after seg1a V)) (Proc.devRef .tc main_arg8) = x8 := (seg1b_keep (after seg1a V) main_arg8 (Or.inr (Or.inr (Or.inr (Or.inr (Or.inr (Or.inl rfl))))))).trans s1_8
  have s2_9 : (after seg1b (after seg1a V)) (Proc.devRef .tc main_arg9) = x9 := (seg1b_keep (after seg1a V) main_arg9 (Or.inr (Or.inr (Or.inr (Or.inr (Or.inr (Or.inr (Or.inl rfl)))))))).trans s1_9
  have s2_10 : (after seg1b (after seg1a V)) (Proc.devRef .tc main_arg10) = x10 := (seg1b_keep (after seg1a V) main_arg10 (Or.inr (Or.inr (Or.inr (Or.inr (Or.inr (Or.inr (Or.inr (Or.inl rfl))))))))).trans s1_10
  have s2_11 : (after seg1b (after seg1a V)) (Proc.devRef .tc main_arg11) = x11 := (seg1b_keep (after seg1a V) main_arg11 (Or.inr (Or.inr (Or.inr (Or.inr (Or.inr (Or.inr (Or.inr (Or.inr (Or.inl rfl)))))))))).trans s1_11
  have s2_12 : (after seg1b (after seg1a V)) (Proc.devRef .tc main_arg12) = x12 := (seg1b_keep (after seg1a V) main_arg12 (Or.inr (Or.inr (Or.inr (Or.inr (Or.inr (Or.inr (Or.inr (Or.inr (Or.inr rfl)))))))))).trans s1_12
  have s3_v48 := seg2_v48 (after seg1b (after seg1a V)) x0 x1 x2 x3 x4 x5 x6 x13 s2_v42 s2_5 s2_6
  have s3_v1 : (after seg2 (after seg1b (after seg1a V))) (Proc.devRef .tc main_v1) = val_main_v1 (F := Ideal) x13 := (seg2_keep (after seg1b (after seg1a V)) main_v1 (Or.inl rfl)).trans s2_v1
  have s3_1 : (after seg2 (after seg1b (after seg1a V))) (Proc.devRef .tc main_arg1) = x1 := (seg2_keep (after seg1b (after seg1a V)) main_arg1 (Or.inr (Or.inl rfl))).trans s2_1
  have s3_7 : (after seg2 (after seg1b (after seg1a V))) (Proc.devRef .tc main_arg7) = x7 := (seg2_keep (after seg1b (after seg1a V)) main_arg7 (Or.inr (Or.inr (Or.inl rfl)))).trans s2_7
  have s3_8 : (after seg2 (after seg1b (after seg1a V))) (Proc.devRef .tc main_arg8) = x8 := (seg2_keep (after seg1b (after seg1a V)) main_arg8 (Or.inr (Or.inr (Or.inr (Or.inl rfl))))).trans s2_8
  have s3_9 : (after seg2 (after seg1b (after seg1a V))) (Proc.devRef .tc main_arg9) = x9 := (seg2_keep (after seg1b (after seg1a V)) main_arg9 (Or.inr (Or.inr (Or.inr (Or.inr (Or.inl rfl)))))).trans s2_9
  have s3_10 : (after seg2 (after seg1b (after seg1a V))) (Proc.devRef .tc main_arg10) = x10 := (seg2_keep (after seg1b (after seg1a V)) main_arg10 (Or.inr (Or.inr (Or.inr (Or.inr (Or.inr (Or.inl rfl))))))).trans s2_10
  have s3_11 : (after seg2 (after seg1b (after seg1a V))) (Proc.devRef .tc main_arg11) = x11 := (seg2_keep (after seg1b (after seg1a V)) main_arg11 (Or.inr (Or.inr (Or.inr (Or.inr (Or.inr (Or.inr (Or.inl rfl)))))))).trans s2_11
  have s3_12 : (after seg2 (after seg1b (after seg1a V))) (Proc.devRef .tc main_arg12) = x12 := (seg2_keep (after seg1b (after seg1a V)) main_arg12 (Or.inr (Or.inr (Or.inr (Or.inr (Or.inr (Or.inr (Or.inr rfl)))))))).trans s2_12
  have s4_v49 := seg3_v49 (after seg2 (after seg1b (after seg1a V))) x0 x1 x2 x3 x4 x5 x6 x13 s3_v48
  have s4_v1 : (after seg3 (after seg2 (after seg1b (after seg1a V)))) (Proc.devRef .tc main_v1) = val_main_v1 (F := Ideal) x13 := (seg3_keep (after seg2 (after seg1b (after seg1a V))) main_v1 (Or.inl rfl)).trans s3_v1
  have s4_1 : (after seg3 (after seg2 (after seg1b (after seg1a V)))) (Proc.devRef .tc main_arg1) = x1 := (seg3_keep (after seg2 (after seg1b (after seg1a V))) main_arg1 (Or.inr (Or.inl rfl))).trans s3_1
  have s4_7 : (after seg3 (after seg2 (after seg1b (after seg1a V)))) (Proc.devRef .tc main_arg7) = x7 := (seg3_keep (after seg2 (after seg1b (after seg1a V))) main_arg7 (Or.inr (Or.inr (Or.inl rfl)))).trans s3_7
  have s4_8 : (after seg3 (after seg2 (after seg1b (after seg1a V)))) (Proc.devRef .tc main_arg8) = x8 := (seg3_keep (after seg2 (after seg1b (after seg1a V))) main_arg8 (Or.inr (Or.inr (Or.inr (Or.inl rfl))))).trans s3_8
  have s4_9 : (after seg3 (after seg2 (after seg1b (after seg1a V)))) (Proc.devRef .tc main_arg9) = x9 := (seg3_keep (after seg2 (after seg1b (after seg1a V))) main_arg9 (Or.inr (Or.inr (Or.inr (Or.inr (Or.inl rfl)))))).trans s3_9
  have s4_10 : (after seg3 (after seg2 (after seg1b (after seg1a V)))) (Proc.devRef .tc main_arg10) = x10 := (seg3_keep (after seg2 (after seg1b (after seg1a V))) main_arg10 (Or.inr (Or.inr (Or.inr (Or.inr (Or.inr (Or.inl rfl))))))).trans s3_10
  have s4_11 : (after seg3 (after seg2 (after seg1b (after seg1a V)))) (Proc.devRef .tc main_arg11) = x11 := (seg3_keep (after seg2 (after seg1b (after seg1a V))) main_arg11 (Or.inr (Or.inr (Or.inr (Or.inr (Or.inr (Or.inr (Or.inl rfl)))))))).trans s3_11
  have s4_12 : (after seg3 (after seg2 (after seg1b (after seg1a V)))) (Proc.devRef .tc main_arg12) = x12 := (seg3_keep (after seg2 (after seg1b (after seg1a V))) main_arg12 (Or.inr (Or.inr (Or.inr (Or.inr (Or.inr (Or.inr (Or.inr rfl)))))))).trans s3_12
  have s5_v65 := seg4a_v65 (after seg3 (after seg2 (after seg1b (after seg1a V)))) x0 x1 x2 x3 x4 x5 x6 x11 x12 x13 s4_v49 s4_v1 s4_11 s4_12
  have s5_1 : (after seg4a (after seg3 (after seg2 (after seg1b (after seg1a V))))) (Proc.devRef .tc main_arg1) = x1 := (seg4a_keep (after seg3 (after seg2 (after seg1b (after seg1a V)))) main_arg1 (Or.inl rfl)).trans s4_1
  have s5_7 : (after seg4a (after seg3 (after seg2 (after seg1b (after seg1a V))))) (Proc.devRef .tc main_arg7) = x7 := (seg4a_keep (after seg3 (after seg2 (after seg1b (after seg1a V)))) main_arg7 (Or.inr (Or.inl rfl))).trans s4_7
  have s5_8 : (after seg4a (after seg3 (after seg2 (after seg1b (after seg1a V))))) (Proc.devRef .tc main_arg8) = x8 := (seg4a_keep (after seg3 (after seg2 (after seg1b (after seg1a V)))) main_arg8 (Or.inr (Or.inr (Or.inl rfl)))).trans s4_8
  have s5_9 : (after seg4a (after seg3 (after seg2 (after seg1b (after seg1a V))))) (Proc.devRef .tc main_arg9) = x9 := (seg4a_keep (after seg3 (after seg2 (after seg1b (after seg1a V)))) main_arg9 (Or.inr (Or.inr (Or.inr (Or.inl rfl))))).trans s4_9
  have s5_10 : (after seg4a (after seg3 (after seg2 (after seg1b (after seg1a V))))) (Proc.devRef .tc main_arg10) = x10 := (seg4a_keep (after seg3 (after seg2 (after seg1b (after seg1a V)))) main_arg10 (Or.inr (Or.inr (Or.inr (Or.inr rfl))))).trans s4_10
  have s6_v71 := seg4b_v71 (after seg4a (after seg3 (after seg2 (after seg1b (after seg1a V))))) x0 x1 x2 x3 x4 x5 x6 x7 x8 x11 x12 x13 s5_v65 s5_1 s5_7 s5_8
  have s6_1 : (after seg4b (after seg4a (after seg3 (after seg2 (after seg1b (after seg1a V)))))) (Proc.devRef .tc main_arg1) = x1 := (seg4b_keep (after seg4a (after seg3 (after seg2 (after seg1b (after seg1a V))))) main_arg1 (Or.inl rfl)).trans s5_1
  have s6_9 : (after seg4b (after seg4a (after seg3 (after seg2 (after seg1b (after seg1a V)))))) (Proc.devRef .tc main_arg9) = x9 := (seg4b_keep (after seg4a (after seg3 (after seg2 (after seg1b (after seg1a V))))) main_arg9 (Or.inr (Or.inl rfl))).trans s5_9
  have s6_10 : (after seg4b (after seg4a (after seg3 (after seg2 (after seg1b (after seg1a V)))))) (Proc.devRef .tc main_arg10) = x10 := (seg4b_keep (after seg4a (after seg3 (after seg2 (after seg1b (after seg1a V))))) main_arg10 (Or.inr (Or.inr rfl))).trans s5_10
  exact seg5_v78 (after seg4b (after seg4a (after seg3 (after seg2 (after seg1b (after seg1a V)))))) x0 x1 x2 x3 x4 x5 x6 x7 x8 x9 x10 x11 x12 x13 s6_v71 s6_1 s6_9 s6_10

set_option maxRecDepth 8192 in
set_option maxHeartbeats 8000000 in
/-- On every device, from any memory with zero counters: every weakly fair execution of the reference's @main terminates
    with the result buffer at the last stage of the arguments' launch contents and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v78).trans
      (after_ops_v78 (launchContents m c) _ _ _ _ _ _ _ _ _ _ _ _ _ _ rfl rfl rfl rfl rfl rfl rfl rfl rfl rfl rfl rfl rfl rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl)⟩)
    (run_seq scopedRefs_eq scopedSems_eq defs main (fun _ => ops) main_eq (fun _ => ops_sub) m ρ)

end Cert.ReferenceIdeal.RefRun

end
-- ==== Proof.lean ====
/-
  One message-passing layer of a graph network with an attention gate: the kernel program against its jnp reference, at the
  ideal instance (a float is an extended real, every operation exact, a change of float format the identity).

  Both programs gather the two end nodes' features and positions along the edge list and take each edge's distance. The
  kernel program then runs a row-tiled kernel over the 800000 edges — the first layer as four products added (source features,
  target features, attributes, and the distance times one weight column), each against a transposed column range of the
  273-column weight matrix; the activation z·σ(z); a second layer; a gate σ(⟨·, w⟩ + b) — sums the messages into their source
  nodes on the host, and runs a second row-tiled kernel over the 50000 nodes (two products added, activation, a layer, the
  residual). The reference lays the four parts of an edge's input side by side and multiplies once by the transposed matrix,
  spells σ(z) as 1 / (1 + exp (−z)), and does the same for the nodes with two parts.

  The two are one function of the arguments: a sum over 273 = 128 + 128 + 1 + 16 columns is the four partial sums, in any
  order, in the commutative monoid of the extended reals (no entry is asked to be finite, so the precondition is never
  opened); the quotient spelling is the logistic function on every extended real; a message and an updated node read their
  own row only, so a block of rows computes the rows of the whole; and the gathers, the distance and the scatter-sum are the
  same host operations of the same arguments on both sides, carried unopened.

  The frames of the two kernel programs are the generated ones; the reference's frame is its run with the result dropped; the idealization rewrote no operation.
-/
import proofs.«143406_j15693810499839_2_alg».proof.Defs
import proofs.«143406_j15693810499839_2_alg».proof.Proof.Gen.Kernel
import proofs.«143406_j15693810499839_2_alg».proof.Proof.Gen.Kernel.Skeleton
import proofs.«143406_j15693810499839_2_alg».proof.Proof.Gen.Kernel.Launch
import proofs.«143406_j15693810499839_2_alg».proof.Proof.Gen.Kernel.Points
import proofs.«143406_j15693810499839_2_alg».proof.Proof.Gen.Kernel.Frame
import proofs.«143406_j15693810499839_2_alg».proof.Proof.Gen.KernelIdeal
import proofs.«143406_j15693810499839_2_alg».proof.Proof.Gen.KernelIdeal.Skeleton
import proofs.«143406_j15693810499839_2_alg».proof.Proof.Gen.KernelIdeal.Launch
import proofs.«143406_j15693810499839_2_alg».proof.Proof.Gen.KernelIdeal.Points
import proofs.«143406_j15693810499839_2_alg».proof.Proof.Gen.KernelIdeal.Frame
import proofs.«143406_j15693810499839_2_alg».proof.Proof.Gen.ReferenceIdeal
import proofs.«143406_j15693810499839_2_alg».proof.Proof.Gen.Pre_finite_inputs
import proofs.«143406_j15693810499839_2_alg».proof.Proof.KernelValue
import proofs.«143406_j15693810499839_2_alg».proof.Proof.RefBridge
import proofs.«143406_j15693810499839_2_alg».proof.Proof.RefRun
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run with the result dropped. -/
theorem frame_reference : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end with the node update of the features and of the scatter-sum of
    the edge messages: the kernel program by its two regions' values, the reference by its stages read row by row. -/
theorem algebraic : Cert.algebraic_KernelIdeal_ReferenceIdeal := by
  intro m ρ m' ρ' _ hagree
  refine ⟨fun c => Cert.KernelIdeal.Hand.kernelResult m c, Cert.KernelIdeal.Hand.run_value m ρ, ?_⟩
  refine (θ_run Cert.ReferenceIdeal.defs _ _).mono (fun _ h c => ⟨(h c).1.trans ?_, (h c).2⟩)
    (Cert.ReferenceIdeal.RefRun.run m' ρ')
  show _ = Cert.KernelIdeal.Hand.kernelResult m c
  obtain ⟨h0, h1, h2, h3, h4, h5, h6, h7, h8, h9, h10, h11, h12, h13⟩ := hagree c
  rw [h0, h1, h2, h3, h4, h5, h6, h7, h8, h9, h10, h11, h12, h13, Cert.ReferenceIdeal.RefValue.result_eq]
  unfold Cert.KernelIdeal.Hand.kernelResult Cert.KernelIdeal.Hand.messages
  refine congrArg (Cert.GraphLayer.nodeArr _ _) ?_
  simp only [Cert.ReferenceIdeal.ReadP.val_main_v65, Cert.ReferenceIdeal.ReadP.val_main_v64, Cert.ReferenceIdeal.ReadP.val_main_v63, Cert.ReferenceIdeal.ReadP.val_main_cst_9]
  rw [Cert.ReferenceIdeal.RefValue.message_eq]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
